-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v21_0)) (v1 : (c : Dev Cert.KernelIdeal.nD) → Buf (Elt Ideal) ((c.tc : Thread Cert.KernelIdeal.nD Cert.KernelIdeal.τ).loc Cert.KernelIdeal.main_v21_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21_0) = v0 c
          ∧ r.2.mem ((c.tc : Thread Cert.KernelIdeal.nD Cert.KernelIdeal.τ).loc Cert.KernelIdeal.main_v21_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_v84) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S64x32 : Shape := ⟨2, ![64, 32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_
  bcast_S_S64x32 : S_.BroadcastsInDim S64x32 (![] : Fin 0 → Fin S64x32.rank)
  reducesTo_S64x32_S_d0_1 : S64x32.ReducesTo [0, 1] S_

variable [Facts]

def fn_part4 {F : FTy → Type} [FloatOps F] (main_arg16 : FVec F S32 .f32) (main_arg17 : FVec F S32x32 .f32) (main_arg18 : FVec F S32 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32x32 .f32 := Host.absf main_arg17
  let main_cst_28 : FVec F S_ .f32 := constant S_ .f32 0x7F800000#32
  let main_v75 : FVec F S32x32 .f32 := broadcastInDim S32x32 ![] bcast_S_S32x32 main_cst_28
  let main_v76 : IVec S32x32 1 := cmpf .olt main_v74 main_v75
  let main_c_29 : IVec S_ 1 := constantI S_ 1 1#1
  let main_v77 : IVec S_ 1 := (fun x v => Host.reduce IntOp.andi x v reducesTo_S32x32_S_d0_1 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  main_v83

def fn_part3 {F : FTy → Type} [FloatOps F] (main_arg13 : FVec F S64x32 .f32) (main_arg14 : FVec F S32 .f32) (main_arg15 : FVec F S64x32 .f32) (main_arg16 : FVec F S32 .f32) (main_arg17 : FVec F S32x32 .f32) (main_arg18 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S64x32 .f32 := Host.absf main_arg15
  let main_cst_24 : FVec F S_ .f32 := constant S_ .f32 0x7F800000#32
  let main_v65 : FVec F S64x32 .f32 := broadcastInDim S64x32 ![] bcast_S_S64x32 main_cst_24
  let main_v66 : IVec S64x32 1 := cmpf .olt main_v64 main_v65
  let main_c_25 : IVec S_ 1 := constantI S_ 1 1#1
  let main_v67 : IVec S_ 1 := (fun x v => Host.reduce IntOp.andi x v reducesTo_S64x32_S_d0_1 h_S_) main_v66 main_c_25
  fn_part4 (F := F) main_arg16 main_arg17 main_arg18 main_v63 main_v67

def fn_part2 {F : FTy → Type} [FloatOps F] (main_arg9 : FVec F S32x32 .f32) (main_arg10 : FVec F S32 .f32) (main_arg11 : FVec F S64x32 .f32) (main_arg12 : FVec F S32 .f32) (main_arg13 : FVec F S64x32 .f32) (main_arg14 : FVec F S32 .f32) (main_arg15 : FVec F S64x32 .f32) (main_arg16 : FVec F S32 .f32) (main_arg17 : FVec F S32x32 .f32) (main_arg18 : FVec F S32 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S64x32 .f32 := Host.absf main_arg11
  let main_cst_16 : FVec F S_ .f32 := constant S_ .f32 0x7F800000#32
  let main_v45 : FVec F S64x32 .f32 := broadcastInDim S64x32 ![] bcast_S_S64x32 main_cst_16
  let main_v46 : IVec S64x32 1 := cmpf .olt main_v44 main_v45
  let main_c_17 : IVec S_ 1 := constantI S_ 1 1#1
  let main_v47 : IVec S_ 1 := (fun x v => Host.reduce IntOp.andi x v reducesTo_S64x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg13 main_arg14 main_arg15 main_arg16 main_arg17 main_arg18 main_v48 main_v49 main_v50

def fn_part1 {F : FTy → Type} [FloatOps F] (main_arg6 : FVec F S32 .f32) (main_arg7 : FVec F S32x32 .f32) (main_arg8 : FVec F S32 .f32) (main_arg9 : FVec F S32x32 .f32) (main_arg10 : FVec F S32 .f32) (main_arg11 : FVec F S64x32 .f32) (main_arg12 : FVec F S32 .f32) (main_arg13 : FVec F S64x32 .f32) (main_arg14 : FVec F S32 .f32) (main_arg15 : FVec F S64x32 .f32) (main_arg16 : FVec F S32 .f32) (main_arg17 : FVec F S32x32 .f32) (main_arg18 : FVec F S32 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S100000x32 .f32) (main_arg1 : FVec F S1600000 .f32) (main_arg2 : FVec F S100000x32 .f32) (main_arg3 : IVec S1600000 32) (main_arg4 : IVec S1600000 32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S64x32 .f32) (main_arg12 : FVec F S32 .f32) (main_arg13 : FVec F S64x32 .f32) (main_arg14 : FVec F S32 .f32) (main_arg15 : FVec F S64x32 .f32) (main_arg16 : FVec F S32 .f32) (main_arg17 : FVec F S32x32 .f32) (main_arg18 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S100000x32 .f32 := Host.absf main_arg2
  let main_cst_2 : FVec F S_ .f32 := constant S_ .f32 0x7F800000#32
  let main_v10 : FVec F S100000x32 .f32 := broadcastInDim S100000x32 ![] bcast_S_S100000x32 main_cst_2
  let main_v11 : IVec S100000x32 1 := cmpf .olt main_v9 main_v10
  let main_c_3 : IVec S_ 1 := constantI S_ 1 1#1
  let main_v12 : IVec S_ 1 := (fun x v => Host.reduce IntOp.andi x v reducesTo_S100000x32_S_d0_1 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S64x32 : Shape := ⟨2, ![64, 32]⟩
abbrev S32x96 : Shape := ⟨2, ![32, 96]⟩
abbrev S96 : Shape := ⟨1, ![96]⟩
abbrev S100000x96 : Shape := ⟨2, ![100000, 96]⟩
abbrev S10000x32 : Shape := ⟨2, ![10000, 32]⟩
abbrev S10000x96 : Shape := ⟨2, ![10000, 96]⟩
abbrev S_ : Shape := ⟨0, ![]⟩
abbrev S1600000x1 : Shape := ⟨2, ![1600000, 1]⟩
abbrev S1600000x96 : Shape := ⟨2, ![1600000, 96]⟩
abbrev S1x32 : Shape := ⟨2, ![1, 32]⟩
abbrev S1x96 : Shape := ⟨2, ![1, 96]⟩
abbrev S5000x96 : Shape := ⟨2, ![5000, 96]⟩
abbrev S5000x32 : Shape := ⟨2, ![5000, 32]⟩
abbrev S5000x64 : Shape := ⟨2, ![5000, 64]⟩

abbrev nBuf : Space → Nat
  | .hbm => 45
  | .vmem => 22
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S100000x32, .f32⟩
  | .hbm, ⟨3, _⟩ => ⟨S1600000, .i32⟩
  | .hbm, ⟨4, _⟩ => ⟨S1600000, .i32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S64x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S64x32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S32x96, .f32⟩
  | .hbm, ⟨20, _⟩ => ⟨S96, .f32⟩
  | .hbm, ⟨21, _⟩ => ⟨S100000x96, .f32⟩
  | .hbm, ⟨22, _⟩ => ⟨S_, .i32⟩
  | .hbm, ⟨23, _⟩ => ⟨S1600000, .i32⟩
  | .hbm, ⟨24, _⟩ => ⟨S1600000, .i1⟩
  | .hbm, ⟨25, _⟩ => ⟨S_, .i32⟩
  | .hbm, ⟨26, _⟩ => ⟨S1600000, .i32⟩
  | .hbm, ⟨27, _⟩ => ⟨S1600000, .i32⟩
  | .hbm, ⟨28, _⟩ => ⟨S1600000, .i32⟩
  | .hbm, ⟨29, _⟩ => ⟨S1600000x1, .i32⟩
  | .hbm, ⟨30, _⟩ => ⟨S1600000x96, .f32⟩
  | .hbm, ⟨31, _⟩ => ⟨S1600000x1, .f32⟩
  | .hbm, ⟨32, _⟩ => ⟨S1600000x96, .f32⟩
  | .hbm, ⟨33, _⟩ => ⟨S1600000x96, .f32⟩
  | .hbm, ⟨34, _⟩ => ⟨S_, .f32⟩
  | .hbm, ⟨35, _⟩ => ⟨S100000x96, .f32⟩
  | .hbm, ⟨36, _⟩ => ⟨S1600000x1, .i32⟩
  | .hbm, ⟨37, _⟩ => ⟨S100000x96, .f32⟩
  | .hbm, ⟨38, _⟩ => ⟨S1x32, .f32⟩
  | .hbm, ⟨39, _⟩ => ⟨S1x32, .f32⟩
  | .hbm, ⟨40, _⟩ => ⟨S1x32, .f32⟩
  | .hbm, ⟨41, _⟩ => ⟨S1x32, .f32⟩
  | .hbm, ⟨42, _⟩ => ⟨S1x96, .f32⟩
  | .hbm, ⟨43, _⟩ => ⟨S100000x32, .f32⟩
  | .hbm, ⟨44, _⟩ => ⟨S100000x32, .f32⟩
  | .local _ .vmem, ⟨0, _⟩ => ⟨S10000x32, .f32⟩
  | .local _ .vmem, ⟨1, _⟩ => ⟨S10000x32, .f32⟩
  | .local _ .vmem, ⟨2, _⟩ => ⟨S32x96, .f32⟩
  | .local _ .vmem, ⟨3, _⟩ => ⟨S10000x96, .f32⟩
  | .local _ .vmem, ⟨4, _⟩ => ⟨S10000x96, .f32⟩
  | .local _ .vmem, ⟨5, _⟩ => ⟨S5000x96, .f32⟩
  | .local _ .vmem, ⟨6, _⟩ => ⟨S5000x96, .f32⟩
  | .local _ .vmem, ⟨7, _⟩ => ⟨S5000x32, .f32⟩
  | .local _ .vmem, ⟨8, _⟩ => ⟨S5000x32, .f32⟩
  | .local _ .vmem, ⟨9, _⟩ => ⟨S1x96, .f32⟩
  | .local _ .vmem, ⟨10, _⟩ => ⟨S64x32, .f32⟩
  | .local _ .vmem, ⟨11, _⟩ => ⟨S1x32, .f32⟩
  | .local _ .vmem, ⟨12, _⟩ => ⟨S64x32, .f32⟩
  | .local _ .vmem, ⟨13, _⟩ => ⟨S1x32, .f32⟩
  | .local _ .vmem, ⟨14, _⟩ => ⟨S64x32, .f32⟩
  | .local _ .vmem, ⟨15, _⟩ => ⟨S1x32, .f32⟩
  | .local _ .vmem, ⟨16, _⟩ => ⟨S32x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x32, .f32⟩
  | .local _ .vmem, ⟨21, _⟩ => ⟨S5000x32, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_v3 : Ref sig .tc := ⟨.hbm, 23, rfl⟩
abbrev main_v4 : Ref sig .tc := ⟨.hbm, 24, rfl⟩
abbrev main_c_0 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_cst : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21_0 : Ref sig .tc := ⟨.hbm, 43, rfl⟩
abbrev main_v21_1 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg11_1 : Ref sig .tc := ⟨.vmem, 19, rfl⟩
abbrev cc1_stg12_0 : Ref sig .tc := ⟨.vmem, 20, rfl⟩
abbrev cc1_stg12_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem11_1 : DmaSem sig := 19
abbrev cc1_sem12_0 : DmaSem sig := 20
abbrev cc1_sem12_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x96 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S32x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x32 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S5000x32 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S5000x32 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

class Facts₀ : Prop where
  concatenates_S32x32_S32x32_S32x32_S32x96_d1 : Shape.Concatenates [S32x32, S32x32, S32x32] S32x96 1
  concatenates_S32_S32_S32_S96_d0 : Shape.Concatenates [S32, S32, S32] S96 0
  inb_S10000x32_S10000x32_0_0 : ∀ a, (![0, 0] : Fin 2 → Nat) a + S10000x32.size a ≤ S10000x32.size a
  h_S10000x32 : 0 < S10000x32.numel
  inb_S32x96_S32x96_0_0 : ∀ a, (![0, 0] : Fin 2 → Nat) a + S32x96.size a ≤ S32x96.size a
  h_S32x96 : 0 < S32x96.numel
  shapeCasts_S32x96_S32x96 : S32x96.ShapeCasts S32x96
  inb_S10000x96_S10000x96_0_0 : ∀ a, (![0, 0] : Fin 2 → Nat) a + S10000x96.size a ≤ S10000x96.size a
  h_S10000x96 : 0 < S10000x96.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x96_0_1 : S1600000x1.BroadcastsInDim S1600000x96 (![0, 1] : Fin 2 → Fin S1600000x96.rank)
  bcast_S_S100000x96 : S_.BroadcastsInDim S100000x96 (![] : Fin 0 → Fin S100000x96.rank)
  shapeCasts_S32_S1x32 : S32.ShapeCasts S1x32
  shapeCasts_S96_S1x96 : S96.ShapeCasts S1x96
  inb_S5000x96_S5000x96_0_0 : ∀ a, (![0, 0] : Fin 2 → Nat) a + S5000x96.size a ≤ S5000x96.size a
  h_S5000x96 : 0 < S5000x96.numel
  shapeCasts_S5000x96_S5000x96 : S5000x96.ShapeCasts S5000x96
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S5000x96 : S1x96.Broadcasts S5000x96
  slices_S5000x96_o0_0_S5000x32 : S5000x96.Slices ![0, 0] S5000x32
  slices_S5000x96_o0_32_S5000x32 : S5000x96.Slices ![0, 32] S5000x32
  slices_S5000x96_o0_64_S5000x32 : S5000x96.Slices ![0, 64] S5000x32
  inb_S5000x32_S5000x32_0_0 : ∀ a, (![0, 0] : Fin 2 → Nat) a + S5000x32.size a ≤ S5000x32.size a
  h_S5000x32 : 0 < S5000x32.numel
  concatenates_S5000x32_S5000x32_S5000x64_d1 : Shape.Concatenates [S5000x32, S5000x32] S5000x64 1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x32_S32x32_0_0 : ∀ a, (![0, 0] : Fin 2 → Nat) a + S32x32.size a ≤ S32x32.size a
  h_S32x32 : 0 < S32x32.numel
  dot_S10000x32_S32x96_S10000x96_1_0_0_1_n_n_wf : DotDims.WF S10000x32 S32x96 S10000x96 [1] [0] [0] [1] [] []
  gather_S100000x96_S1600000x1_S1600000x96_1_0_n_n_0_1_196_wf : GatherDims.WF S100000x96 S1600000x1 S1600000x96 [1] [0] [] [0] [] 1 ![1, 96]
  scatter_S100000x96_S1600000x1_S1600000x96_1_0_0_1_wf : ScatterDims.WF S100000x96 S1600000x1 S1600000x96 [1] [0] [0] 1
  dot_S5000x64_S64x32_S5000x32_1_0_0_1_n_n_wf : DotDims.WF S5000x64 S64x32 S5000x32 [1] [0] [0] [1] [] []
  dot_S5000x32_S32x32_S5000x32_1_0_0_1_n_n_wf : DotDims.WF S5000x32 S32x32 S5000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S100000x32.size a
  hwx0_0 : ∀ i : grid0.Coords, EltTy.bits .f32 = 32 ∨ (Rect.block (s := S100000x32) S10000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x96.size a ≤ S32x96.size a
  hwx0_1 : ∀ i : grid0.Coords, EltTy.bits .f32 = 32 ∨ (Rect.block (s := S32x96) S32x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x96.size a ≤ S100000x96.size a
  hwx0_2 : ∀ i : grid0.Coords, EltTy.bits .f32 = 32 ∨ (Rect.block (s := S100000x96) S10000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S100000x96.size a
  hwx1_0 : ∀ i : grid1.Coords, EltTy.bits .f32 = 32 ∨ (Rect.block (s := S100000x96) S5000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x96.size a ≤ S1x96.size a
  hwx1_2 : ∀ i : grid1.Coords, EltTy.bits .f32 = 32 ∨ (Rect.block (s := S1x96) S1x96.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x32.size a ≤ S1x32.size a
  hwx1_4 : ∀ i : grid1.Coords, EltTy.bits .f32 = 32 ∨ (Rect.block (s := S1x32) S1x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S32x32.size a ≤ S32x32.size a
  hwx1_9 : ∀ i : grid1.Coords, EltTy.bits .f32 = 32 ∨ (Rect.block (s := S32x32) S32x32.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x32.size a ≤ S1x32.size a
  hwx1_10 : ∀ i : grid1.Coords, EltTy.bits .f32 = 32 ∨ (Rect.block (s := S1x32) S1x32.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S5000x32.size a ≤ S100000x32.size a
  hwx1_11 : ∀ i : grid1.Coords, EltTy.bits .f32 = 32 ∨ (Rect.block (s := S100000x32) S5000x32.size (cc1_transform_11 i) (hinb1_11 i)).WholeWords (EltTy.packing .f32)
  hstage1_12 : ∀ j, (stage1_12 j).IsWhole
  nbuf1_12 : grid1.bufCount reads1_12 false = 2
  hreads1_12 : ∀ i i' : grid1.Coords, (∀ a, reads1_12 a = true → i a = i' a) → cc1_transform_12 i = cc1_transform_12 i'
  hinb1_12 : ∀ (i : grid1.Coords) a, (cc1_transform_12 i a + 1) * S5000x32.size a ≤ S100000x32.size a
  hwx1_12 : ∀ i : grid1.Coords, EltTy.bits .f32 = 32 ∨ (Rect.block (s := S100000x32) S5000x32.size (cc1_transform_12 i) (hinb1_12 i)).WholeWords (EltTy.packing .f32)

variable [Facts₀]

def dot_S10000x32_S32x96_S10000x96_1_0_0_1_n_n : DotDims S10000x32 S32x96 S10000x96 where
  lhsContracting := [1]
  rhsContracting := [0]
  lhsNonContracting := [0]
  rhsNonContracting := [1]
  lhsBatch := []
  rhsBatch := []
  wf := dot_S10000x32_S32x96_S10000x96_1_0_0_1_n_n_wf
def gather_S100000x96_S1600000x1_S1600000x96_1_0_n_n_0_1_196 : GatherDims S100000x96 S1600000x1 S1600000x96 where
  offsetDims := [1]
  collapsedSliceDims := [0]
  operandBatchingDims := []
  startIndicesBatchingDims := []
  startIndexMap := [0]
  indexVectorDim := 1
  sliceSizes := ![1, 96]
  wf := gather_S100000x96_S1600000x1_S1600000x96_1_0_n_n_0_1_196_wf
def scatter_S100000x96_S1600000x1_S1600000x96_1_0_0_1 : ScatterDims S100000x96 S1600000x1 S1600000x96 where
  updateWindowDims := [1]
  insertedWindowDims := [0]
  scatterDimsToOperandDims := [0]
  indexVectorDim := 1
  wf := scatter_S100000x96_S1600000x1_S1600000x96_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x32_S5000x32_1_0_0_1_n_n : DotDims S5000x32 S32x32 S5000x32 where
  lhsContracting := [1]
  rhsContracting := [0]
  lhsNonContracting := [0]
  rhsNonContracting := [1]
  lhsBatch := []
  rhsBatch := []
  wf := dot_S5000x32_S32x32_S5000x32_1_0_0_1_n_n_wf

abbrev win0_0 : Pipeline.Window sig grid0 :=
  Pipeline.Window.ofSpec (Memref.whole main_arg0) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S10000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v15) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x96.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v16) S1x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v18) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S32x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v19) S1x32.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v21_0) S5000x32.size cc1_transform_11 reads1_11 true false 2 stage1_11 sem1_11
    hrank1 hreads1_11 hinb1_11 nbuf1_11 (Memref.isWhole_whole _) hwx1_11 hstage1_11

abbrev win1_12 : Pipeline.Window sig grid1 :=
  Pipeline.Window.ofSpec (Memref.whole main_v21_1) S5000x32.size cc1_transform_12 reads1_12 true false 2 stage1_12 sem1_12
    hrank1 hreads1_12 hinb1_12 nbuf1_12 (Memref.isWhole_whole _) hwx1_12 hstage1_12

abbrev win1 : Fin 13 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | ⟨_ + 13, h⟩ => absurd h (Nat.not_lt.2 (Nat.le_add_left _ _))
abbrev spec1 : Fin 13 → Pipeline.WinSpec sig grid1.rank := fun w => (win1 w).toWinSpec

class Facts : Prop extends Facts₀ where

variable [Facts]
-- ==== ReferenceIdeal.lean ====
abbrev S100000x32 : Shape := ⟨2, ![100000, 32]⟩
abbrev S1600000 : Shape := ⟨1, ![1600000]⟩
abbrev S32x32 : Shape := ⟨2, ![32, 32]⟩
abbrev S32 : Shape := ⟨1, ![32]⟩
abbrev S64x32 : Shape := ⟨2, ![64, 32]⟩
abbrev S_ : Shape := ⟨0, ![]⟩
abbrev S1600000x1 : Shape := ⟨2, ![1600000, 1]⟩
abbrev S1600000x32 : Shape := ⟨2, ![1600000, 32]⟩
abbrev S1x32 : Shape := ⟨2, ![1, 32]⟩
abbrev S100000x64 : Shape := ⟨2, ![100000, 64]⟩

abbrev nBuf : Space → Nat
  | .hbm => 125
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1600000, .f32⟩
  | .hbm, ⟨2, _⟩ => ⟨S100000x32, .f32⟩
  | .hbm, ⟨3, _⟩ => ⟨S1600000, .i32⟩
  | .hbm, ⟨4, _⟩ => ⟨S1600000, .i32⟩
  | .hbm, ⟨5, _⟩ => ⟨S32x32, .f32⟩
  | .hbm, ⟨6, _⟩ => ⟨S32, .f32⟩
  | .hbm, ⟨7, _⟩ => ⟨S32x32, .f32⟩
  | .hbm, ⟨8, _⟩ => ⟨S32, .f32⟩
  | .hbm, ⟨9, _⟩ => ⟨S32x32, .f32⟩
  | .hbm, ⟨10, _⟩ => ⟨S32, .f32⟩
  | .hbm, ⟨11, _⟩ => ⟨S64x32, .f32⟩
  | .hbm, ⟨12, _⟩ => ⟨S32, .f32⟩
  | .hbm, ⟨13, _⟩ => ⟨S64x32, .f32⟩
  | .hbm, ⟨14, _⟩ => ⟨S32, .f32⟩
  | .hbm, ⟨15, _⟩ => ⟨S64x32, .f32⟩
  | .hbm, ⟨16, _⟩ => ⟨S32, .f32⟩
  | .hbm, ⟨17, _⟩ => ⟨S32x32, .f32⟩
  | .hbm, ⟨18, _⟩ => ⟨S32, .f32⟩
  | .hbm, ⟨19, _⟩ => ⟨S100000x32, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x32, .f32⟩
  | .hbm, ⟨29, _⟩ => ⟨S1600000x1, .f32⟩
  | .hbm, ⟨30, _⟩ => ⟨S1600000x32, .f32⟩
  | .hbm, ⟨31, _⟩ => ⟨S1600000x32, .f32⟩
  | .hbm, ⟨32, _⟩ => ⟨S_, .f32⟩
  | .hbm, ⟨33, _⟩ => ⟨S100000x32, .f32⟩
  | .hbm, ⟨34, _⟩ => ⟨S1600000x1, .i32⟩
  | .hbm, ⟨35, _⟩ => ⟨S100000x32, .f32⟩
  | .hbm, ⟨36, _⟩ => ⟨S1x32, .f32⟩
  | .hbm, ⟨37, _⟩ => ⟨S100000x32, .f32⟩
  | .hbm, ⟨38, _⟩ => ⟨S100000x32, .f32⟩
  | .hbm, ⟨39, _⟩ => ⟨S100000x64, .f32⟩
  | .hbm, ⟨40, _⟩ => ⟨S100000x32, .f32⟩
  | .hbm, ⟨41, _⟩ => ⟨S1x32, .f32⟩
  | .hbm, ⟨42, _⟩ => ⟨S100000x32, .f32⟩
  | .hbm, ⟨43, _⟩ => ⟨S100000x32, .f32⟩
  | .hbm, ⟨44, _⟩ => ⟨S100000x32, .f32⟩
  | .hbm, ⟨45, _⟩ => ⟨S100000x32, .f32⟩
  | .hbm, ⟨46, _⟩ => ⟨S_, .f32⟩
  | .hbm, ⟨47, _⟩ => ⟨S100000x32, .f32⟩
  | .hbm, ⟨48, _⟩ => ⟨S100000x32, .f32⟩
  | .hbm, ⟨49, _⟩ => ⟨S_, .f32⟩
  | .hbm, ⟨50, _⟩ => ⟨S100000x32, .f32⟩
  | .hbm, ⟨51, _⟩ => ⟨S100000x32, .f32⟩
  | .hbm, ⟨52, _⟩ => ⟨S100000x32, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x32, .f32⟩
  | .hbm, ⟨62, _⟩ => ⟨S1600000x1, .f32⟩
  | .hbm, ⟨63, _⟩ => ⟨S1600000x32, .f32⟩
  | .hbm, ⟨64, _⟩ => ⟨S1600000x32, .f32⟩
  | .hbm, ⟨65, _⟩ => ⟨S_, .f32⟩
  | .hbm, ⟨66, _⟩ => ⟨S100000x32, .f32⟩
  | .hbm, ⟨67, _⟩ => ⟨S1600000x1, .i32⟩
  | .hbm, ⟨68, _⟩ => ⟨S100000x32, .f32⟩
  | .hbm, ⟨69, _⟩ => ⟨S1x32, .f32⟩
  | .hbm, ⟨70, _⟩ => ⟨S100000x32, .f32⟩
  | .hbm, ⟨71, _⟩ => ⟨S100000x32, .f32⟩
  | .hbm, ⟨72, _⟩ => ⟨S100000x64, .f32⟩
  | .hbm, ⟨73, _⟩ => ⟨S100000x32, .f32⟩
  | .hbm, ⟨74, _⟩ => ⟨S1x32, .f32⟩
  | .hbm, ⟨75, _⟩ => ⟨S100000x32, .f32⟩
  | .hbm, ⟨76, _⟩ => ⟨S100000x32, .f32⟩
  | .hbm, ⟨77, _⟩ => ⟨S100000x32, .f32⟩
  | .hbm, ⟨78, _⟩ => ⟨S100000x32, .f32⟩
  | .hbm, ⟨79, _⟩ => ⟨S_, .f32⟩
  | .hbm, ⟨80, _⟩ => ⟨S100000x32, .f32⟩
  | .hbm, ⟨81, _⟩ => ⟨S100000x32, .f32⟩
  | .hbm, ⟨82, _⟩ => ⟨S_, .f32⟩
  | .hbm, ⟨83, _⟩ => ⟨S100000x32, .f32⟩
  | .hbm, ⟨84, _⟩ => ⟨S100000x32, .f32⟩
  | .hbm, ⟨85, _⟩ => ⟨S100000x32, .f32⟩
  | .hbm, ⟨86, _⟩ => ⟨S_, .i32⟩
  | .hbm, ⟨87, _⟩ => ⟨S1600000, .i32⟩
  | .hbm, ⟨88, _⟩ => ⟨S1600000, .i1⟩
  | .hbm, ⟨89, _⟩ => ⟨S_, .i32⟩
  | .hbm, ⟨90, _⟩ => ⟨S1600000, .i32⟩
  | .hbm, ⟨91, _⟩ => ⟨S1600000, .i32⟩
  | .hbm, ⟨92, _⟩ => ⟨S1600000, .i32⟩
  | .hbm, ⟨93, _⟩ => ⟨S1600000x1, .i32⟩
  | .hbm, ⟨94, _⟩ => ⟨S1600000x32, .f32⟩
  | .hbm, ⟨95, _⟩ => ⟨S1600000x1, .f32⟩
  | .hbm, ⟨96, _⟩ => ⟨S1600000x32, .f32⟩
  | .hbm, ⟨97, _⟩ => ⟨S1600000x32, .f32⟩
  | .hbm, ⟨98, _⟩ => ⟨S_, .f32⟩
  | .hbm, ⟨99, _⟩ => ⟨S100000x32, .f32⟩
  | .hbm, ⟨100, _⟩ => ⟨S1600000x1, .i32⟩
  | .hbm, ⟨101, _⟩ => ⟨S100000x32, .f32⟩
  | .hbm, ⟨102, _⟩ => ⟨S1x32, .f32⟩
  | .hbm, ⟨103, _⟩ => ⟨S100000x32, .f32⟩
  | .hbm, ⟨104, _⟩ => ⟨S100000x32, .f32⟩
  | .hbm, ⟨105, _⟩ => ⟨S100000x32, .f32⟩
  | .hbm, ⟨106, _⟩ => ⟨S100000x64, .f32⟩
  | .hbm, ⟨107, _⟩ => ⟨S100000x32, .f32⟩
  | .hbm, ⟨108, _⟩ => ⟨S1x32, .f32⟩
  | .hbm, ⟨109, _⟩ => ⟨S100000x32, .f32⟩
  | .hbm, ⟨110, _⟩ => ⟨S100000x32, .f32⟩
  | .hbm, ⟨111, _⟩ => ⟨S100000x32, .f32⟩
  | .hbm, ⟨112, _⟩ => ⟨S100000x32, .f32⟩
  | .hbm, ⟨113, _⟩ => ⟨S_, .f32⟩
  | .hbm, ⟨114, _⟩ => ⟨S100000x32, .f32⟩
  | .hbm, ⟨115, _⟩ => ⟨S100000x32, .f32⟩
  | .hbm, ⟨116, _⟩ => ⟨S100000x32, .f32⟩
  | .hbm, ⟨117, _⟩ => ⟨S100000x32, .f32⟩
  | .hbm, ⟨118, _⟩ => ⟨S_, .f32⟩
  | .hbm, ⟨119, _⟩ => ⟨S100000x32, .f32⟩
  | .hbm, ⟨120, _⟩ => ⟨S100000x32, .f32⟩
  | .hbm, ⟨121, _⟩ => ⟨S100000x32, .f32⟩
  | .hbm, ⟨122, _⟩ => ⟨S1x32, .f32⟩
  | .hbm, ⟨123, _⟩ => ⟨S100000x32, .f32⟩
  | .hbm, ⟨124, _⟩ => ⟨S100000x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_c : Ref sig .tc := ⟨.hbm, 20, rfl⟩
abbrev main_v1 : Ref sig .tc := ⟨.hbm, 21, rfl⟩
abbrev main_v2 : Ref sig .tc := ⟨.hbm, 22, rfl⟩
abbrev main_c_0 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_cst_2 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_c_3 : Ref sig .tc := ⟨.hbm, 53, rfl⟩
abbrev main_v29 : Ref sig .tc := ⟨.hbm, 54, rfl⟩
abbrev main_v30 : Ref sig .tc := ⟨.hbm, 55, rfl⟩
abbrev main_c_4 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_6 : Ref sig .tc := ⟨.hbm, 79, rfl⟩
abbrev main_v52 : Ref sig .tc := ⟨.hbm, 80, rfl⟩
abbrev main_v53 : Ref sig .tc := ⟨.hbm, 81, rfl⟩
abbrev main_cst_7 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_c_8 : Ref sig .tc := ⟨.hbm, 86, rfl⟩
abbrev main_v57 : Ref sig .tc := ⟨.hbm, 87, rfl⟩
abbrev main_v58 : Ref sig .tc := ⟨.hbm, 88, rfl⟩
abbrev main_c_9 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_10 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_cst_11 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_call0_cst : Ref sig .tc := ⟨.hbm, 118, rfl⟩
abbrev main_call0_v0 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  concatenates_S100000x32_S100000x32_S100000x64_d1 : Shape.Concatenates [S100000x32, S100000x32] S100000x64 1
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x64_S64x32_S100000x32_1_0_0_1_n_n_wf : DotDims.WF S100000x64 S64x32 S100000x32 [1] [0] [0] [1] [] []

variable [Facts₀]

def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf

class Facts : Prop extends Facts₀ where

variable [Facts]
-- ==== Proof.KFrame0.lean ====
/-
  The first Pallas region of the kernel's program as printed (the word-level program), as a frame: the body at any grid point loads a block of 10000 node
  rows and the fused 32×96 weight matrix, and stores their product over the whole output block.  What the output
  buffer holds afterwards is named (out0_2), so that the region's result array can be read later.
-/
import proofs.«152456_j55130200211791_1_alg».proof.Proof.Gen.Kernel.Launch
import proofs.«152456_j55130200211791_1_alg».proof.Proof.Gen.Kernel.Skeleton
import proofs.«152456_j55130200211791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the projection of the node features by the fused weight matrix, ten blocks of 10000 rows

Everything here is stated at a parameter V: the TensorCore's buffer contents when the region is entered. -/

section
variable (V : (c : Dev nD) → (b : Ref sig .tc) → Buf (Elt F) ((c : Thread nD τ).loc b))

/-- Window w's block at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not fetched the
    block index has not moved, and the body leaves the buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! What the body leaves in each output window's buffer: the body stores one value, over the whole buffer. -/

/-- The projected block: the product of the feature block and the fused weight matrix. -/
def out0_2 (x0 : Vec F S10000x32 .f32) (x1 : Vec F S32x96 .f32) : Vec F S10000x96 .f32 :=
  View.canon [⟨(Rect.unit (s := S10000x96) ![0, 0] S10000x96.size inb_S10000x96_S10000x96_0_0), k0_pay1 (View.ld x0 (Rect.unit (s := S10000x32) ![0, 0] S10000x32.size inb_S10000x32_S10000x32_0_0)) (View.ld x1 (Rect.unit (s := S32x96) ![0, 0] S32x96.size inb_S32x96_S32x96_0_0))⟩]

theorem cover0_2 (p0 : Vec F S10000x96 .f32) (y : S10000x96.Idx) :
    ∃ pc ∈ ([⟨(Rect.unit (s := S10000x96) ![0, 0] S10000x96.size inb_S10000x96_S10000x96_0_0), p0⟩] : List (View.Piece (Elt F) S10000x96 .f32)), y ∈ pc.1.set :=
  View.cover_of_tiled [⟨(Rect.unit (s := S10000x96) ![0, 0] S10000x96.size inb_S10000x96_S10000x96_0_0), p0⟩] S10000x96.size (by rfl) y

set_option maxHeartbeats 4000000 in
/-- The body on whole staging buffers: from the inputs' buffers at contents x_w and the outputs' at anything it runs,
    without a fault, to the inputs' buffers unchanged and each output's buffer at the stored value. -/
theorem sound_kernel0 (c : Dev nD) (E : Set ℕ) (i : grid0.Coords) (arg1 : Memref sig .tc .vmem S10000x32 .f32) (harg1 : arg1.IsWhole) (arg2 : Memref sig .tc .vmem S32x96 .f32) (harg2 : arg2.IsWhole) (arg3 : Memref sig .tc .vmem S10000x96 .f32) (harg3 : arg3.IsWhole)
    (x0 : Vec F S10000x32 .f32) (x1 : Vec F S32x96 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out0_2 x0 x1)) -∗ K ⟨⟩))
      ⊢ wp frame (wpE (defs₀ (F := F)) Variants.none c none) E (cc0__gcn_linear_kernel i arg1 harg1 arg2 harg2 arg3 harg3) K := by
  simp only [cc0__gcn_linear_kernel_eq_skeleton]; unfold cc0__gcn_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! The pipeline's proof data: the arrays as the region finds them; after the body at point t each input's buffer at
    its block and each output's at the stored value of the input blocks; nothing owed, full shares. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! The body obligation at a generic grid point. -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.KFrame1.lean ====
/-
  The second Pallas region of the kernel's program as printed (the word-level program), as a frame: the body at any grid point loads a block of 5000 rows
  of the aggregated features and of the hidden state and the head's weights and biases, and stores the new hidden
  block and the output block, each over its whole buffer.  What the two output buffers hold afterwards is named
  (out1_11 for y, out1_12 for h'), so that the region's result arrays can be read later.
-/
import proofs.«152456_j55130200211791_1_alg».proof.Proof.Gen.Kernel.Launch
import proofs.«152456_j55130200211791_1_alg».proof.Proof.Gen.Kernel.Skeleton
import proofs.«152456_j55130200211791_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the GRU head, twenty blocks of 5000 rows

Everything here is stated at a parameter V: the TensorCore's buffer contents when the region is entered. -/

section
variable (V : (c : Dev nD) → (b : Ref sig .tc) → Buf (Elt F) ((c : Thread nD τ).loc b))

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: where it is not fetched the
    block index has not moved, and the body leaves the buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! What the body leaves in each output window's buffer: the body stores one value, over the whole buffer. -/

/-- The output block y: max(h', 0) · Wlin + blin of the head's new hidden block. -/
def out1_11 (x0 : Vec F S5000x96 .f32) (x1 : Vec F S5000x32 .f32) (x2 : Vec F S1x96 .f32) (x3 : Vec F S64x32 .f32) (x4 : Vec F S1x32 .f32) (x5 : Vec F S64x32 .f32) (x6 : Vec F S1x32 .f32) (x7 : Vec F S64x32 .f32) (x8 : Vec F S1x32 .f32) (x9 : Vec F S32x32 .f32) (x10 : Vec F S1x32 .f32) : Vec F S5000x32 .f32 :=
  View.canon [⟨(Rect.unit (s := S5000x32) ![0, 0] S5000x32.size inb_S5000x32_S5000x32_0_0), k1_pay2 (k1_pay4 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay5 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x5 (Rect.unit (s := S64x32) ![0, 0] S64x32.size inb_S64x32_S64x32_0_0)) (View.ld x6 (Rect.unit (s := S1x32) ![0, 0] S1x32.size inb_S1x32_S1x32_0_0)) (View.ld x7 (Rect.unit (s := S64x32) ![0, 0] S64x32.size inb_S64x32_S64x32_0_0)) (View.ld x8 (Rect.unit (s := S1x32) ![0, 0] S1x32.size inb_S1x32_S1x32_0_0))) (k1_pay6 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay7 (F := F)) (View.ld x9 (Rect.unit (s := S32x32) ![0, 0] S32x32.size inb_S32x32_S32x32_0_0)) (View.ld x10 (Rect.unit (s := S1x32) ![0, 0] S1x32.size inb_S1x32_S1x32_0_0))⟩]

theorem cover1_11 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

/-- The new hidden block h' = z * hid + (1 - z) * h~. -/
def out1_12 (x0 : Vec F S5000x96 .f32) (x1 : Vec F S5000x32 .f32) (x2 : Vec F S1x96 .f32) (x3 : Vec F S64x32 .f32) (x4 : Vec F S1x32 .f32) (x5 : Vec F S64x32 .f32) (x6 : Vec F S1x32 .f32) (x7 : Vec F S64x32 .f32) (x8 : Vec F S1x32 .f32) (x9 : Vec F S32x32 .f32) (x10 : Vec F S1x32 .f32) : Vec F S5000x32 .f32 :=
  View.canon [⟨(Rect.unit (s := S5000x32) ![0, 0] S5000x32.size inb_S5000x32_S5000x32_0_0), k1_pay1 (k1_pay4 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay5 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x5 (Rect.unit (s := S64x32) ![0, 0] S64x32.size inb_S64x32_S64x32_0_0)) (View.ld x6 (Rect.unit (s := S1x32) ![0, 0] S1x32.size inb_S1x32_S1x32_0_0)) (View.ld x7 (Rect.unit (s := S64x32) ![0, 0] S64x32.size inb_S64x32_S64x32_0_0)) (View.ld x8 (Rect.unit (s := S1x32) ![0, 0] S1x32.size inb_S1x32_S1x32_0_0))) (k1_pay6 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay7 (F := F))⟩]

theorem cover1_12 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers: from the inputs' buffers at contents x_w and the outputs' at anything it runs,
    without a fault, to the inputs' buffers unchanged and each output's buffer at the stored value. -/
theorem sound_kernel1 (c : Dev nD) (E : Set ℕ) (i : grid1.Coords) (arg1 : Memref sig .tc .vmem S5000x96 .f32) (harg1 : arg1.IsWhole) (arg2 : Memref sig .tc .vmem S5000x32 .f32) (harg2 : arg2.IsWhole) (arg3 : Memref sig .tc .vmem S1x96 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S5000x32 .f32) (harg12 : arg12.IsWhole) (arg13 : Memref sig .tc .vmem S5000x32 .f32) (harg13 : arg13.IsWhole)
    (x0 : Vec F S5000x96 .f32) (x1 : Vec F S5000x32 .f32) (x2 : Vec F S1x96 .f32) (x3 : Vec F S64x32 .f32) (x4 : Vec F S1x32 .f32) (x5 : Vec F S64x32 .f32) (x6 : Vec F S1x32 .f32) (x7 : Vec F S64x32 .f32) (x8 : Vec F S1x32 .f32) (x9 : Vec F S32x32 .f32) (x10 : Vec F S1x32 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out1_11 x0 x1 x2 x3 x4 x5 x6 x7 x8 x9 x10)
            ∗ owns (c : Thread nD τ) arg13 fullShare (out1_12 x0 x1 x2 x3 x4 x5 x6 x7 x8 x9 x10)) -∗ K ⟨⟩))
      ⊢ wp frame (wpE (defs₀ (F := F)) Variants.none c none) E (cc1__gru_head_kernel i arg1 harg1 arg2 harg2 arg3 harg3 arg4 harg4 arg5 harg5 arg6 harg6 arg7 harg7 arg8 harg8 arg9 harg9 arg10 harg10 arg11 harg11 arg12 harg12 arg13 harg13) K := by
  simp only [cc1__gru_head_kernel_eq_skeleton]; unfold cc1__gru_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

/-! The pipeline's proof data: the arrays as the region finds them; after the body at point t each input's buffer at
    its block and each output's at the stored value of the input blocks; nothing owed, full shares. -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! The body obligation at a generic grid point. -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KRun.lean ====
/-
  The run of the kernel's program as printed (the word-level program): @main is a stretch of host operations (the fused weight matrix and bias), the
  projection region, a second stretch (the edge gather, the scaling, the scatter-add, the reshaped biases), and the GRU
  head region.  The contents of every unscoped buffer at the four boundaries are named W1 … W4 by folding the host
  operations and the regions' write-backs from the launch memory; every weakly fair execution terminates, faults nowhere,
  and ends with every unscoped buffer at W4.  From that: the argument arrays end as launched (no host operation and no
  region writes one), and the two results end at the head region's output arrays.
-/
import proofs.«152456_j55130200211791_1_alg».proof.Proof.KFrame0
import proofs.«152456_j55130200211791_1_alg».proof.Proof.KFrame1
import proofs.«152456_j55130200211791_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_of_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the head region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output its write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_of_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A host stretch leaves a buffer it does not write as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of_in m ρ c 0 rfl).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_in m ρ c 1 rfl).trans <| (W3_of m ρ c main_arg2 (by decide)).trans <| (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <| (W2_of_ne m ρ c main_arg3 (by decide)).trans <| (W1_of m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <| (W2_of_ne m ρ c main_arg4 (by decide)).trans <| (W1_of m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of_ne m ρ c main_arg5 (by decide)).trans <| (W1_of m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <| (W2_of_ne m ρ c main_arg6 (by decide)).trans <| (W1_of m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <| (W2_of_ne m ρ c main_arg7 (by decide)).trans <| (W1_of m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <| (W2_of_ne m ρ c main_arg8 (by decide)).trans <| (W1_of m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_of m ρ c main_arg9 (by decide)).trans <| (W2_of_ne m ρ c main_arg9 (by decide)).trans <| (W1_of m ρ c main_arg9 (by decide)).trans rfl
theorem W4_main_arg10 (c : Dev nD) : W4 m ρ c (Proc.devRef .tc main_arg10) = m ((c : Thread nD τ).loc main_arg10) :=
  (W4_of_ne m ρ c main_arg10 (by decide)).trans <| (W3_of m ρ c main_arg10 (by decide)).trans <| (W2_of_ne m ρ c main_arg10 (by decide)).trans <| (W1_of m ρ c main_arg10 (by decide)).trans rfl
theorem W4_main_arg11 (c : Dev nD) : W4 m ρ c (Proc.devRef .tc main_arg11) = m ((c : Thread nD τ).loc main_arg11) :=
  (W4_of_in m ρ c 3 rfl).trans <| (W3_of m ρ c main_arg11 (by decide)).trans <| (W2_of_ne m ρ c main_arg11 (by decide)).trans <| (W1_of m ρ c main_arg11 (by decide)).trans rfl
theorem W4_main_arg12 (c : Dev nD) : W4 m ρ c (Proc.devRef .tc main_arg12) = m ((c : Thread nD τ).loc main_arg12) :=
  (W4_of_ne m ρ c main_arg12 (by decide)).trans <| (W3_of m ρ c main_arg12 (by decide)).trans <| (W2_of_ne m ρ c main_arg12 (by decide)).trans <| (W1_of m ρ c main_arg12 (by decide)).trans rfl
theorem W4_main_arg13 (c : Dev nD) : W4 m ρ c (Proc.devRef .tc main_arg13) = m ((c : Thread nD τ).loc main_arg13) :=
  (W4_of_in m ρ c 5 rfl).trans <| (W3_of m ρ c main_arg13 (by decide)).trans <| (W2_of_ne m ρ c main_arg13 (by decide)).trans <| (W1_of m ρ c main_arg13 (by decide)).trans rfl
theorem W4_main_arg14 (c : Dev nD) : W4 m ρ c (Proc.devRef .tc main_arg14) = m ((c : Thread nD τ).loc main_arg14) :=
  (W4_of_ne m ρ c main_arg14 (by decide)).trans <| (W3_of m ρ c main_arg14 (by decide)).trans <| (W2_of_ne m ρ c main_arg14 (by decide)).trans <| (W1_of m ρ c main_arg14 (by decide)).trans rfl
theorem W4_main_arg15 (c : Dev nD) : W4 m ρ c (Proc.devRef .tc main_arg15) = m ((c : Thread nD τ).loc main_arg15) :=
  (W4_of_in m ρ c 7 rfl).trans <| (W3_of m ρ c main_arg15 (by decide)).trans <| (W2_of_ne m ρ c main_arg15 (by decide)).trans <| (W1_of m ρ c main_arg15 (by decide)).trans rfl
theorem W4_main_arg16 (c : Dev nD) : W4 m ρ c (Proc.devRef .tc main_arg16) = m ((c : Thread nD τ).loc main_arg16) :=
  (W4_of_ne m ρ c main_arg16 (by decide)).trans <| (W3_of m ρ c main_arg16 (by decide)).trans <| (W2_of_ne m ρ c main_arg16 (by decide)).trans <| (W1_of m ρ c main_arg16 (by decide)).trans rfl
theorem W4_main_arg17 (c : Dev nD) : W4 m ρ c (Proc.devRef .tc main_arg17) = m ((c : Thread nD τ).loc main_arg17) :=
  (W4_of_in m ρ c 9 rfl).trans <| (W3_of m ρ c main_arg17 (by decide)).trans <| (W2_of_ne m ρ c main_arg17 (by decide)).trans <| (W1_of m ρ c main_arg17 (by decide)).trans rfl
theorem W4_main_arg18 (c : Dev nD) : W4 m ρ c (Proc.devRef .tc main_arg18) = m ((c : Thread nD τ).loc main_arg18) :=
  (W4_of_ne m ρ c main_arg18 (by decide)).trans <| (W3_of m ρ c main_arg18 (by decide)).trans <| (W2_of_ne m ρ c main_arg18 (by decide)).trans <| (W1_of m ρ c main_arg18 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at the contents before it, left with them at the contents
    after it.  Its arrays are split out of the unscoped buffers and put back at what the pipeline leaves; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it.  Its arrays are split out of the unscoped buffers and put back at what the pipeline leaves; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from the memory m with zero counters terminates, nothing faulting, and every
    final state holds each unscoped buffer at the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with its results named: the two results end at the head region's output arrays, and every argument array
    ends as launched. -/
theorem run_main : θ_run defs (onTc (τ := τ) (main (F := F))) ⟨m, fun _ => 0, ρ⟩ (fun r => ∀ c : Dev nD,
      (r.2.mem ((c.tc : Thread nD τ).loc main_v21_0) = (dat1 (V3 m ρ) c).arrAt 11 cfg1.N
        ∧ r.2.mem ((c.tc : Thread nD τ).loc main_v21_1) = (dat1 (V3 m ρ) c).arrAt 12 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨⟨(h c _ (mem_uc main_v21_0 (by decide))).trans (W4_arr m ρ c 11),
      (h c _ (mem_uc main_v21_1 (by decide))).trans (W4_arr m ρ c 12)⟩,
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run_main m ρ)

end Cert.Kernel.Hand

end
-- ==== Proof.KIFrame0.lean ====
/-
  The first Pallas region of the kernel's program, as a frame: the body at any grid point loads a block of 10000 node
  rows and the fused 32×96 weight matrix, and stores their product over the whole output block.  What the output
  buffer holds afterwards is named (out0_2), so that the region's result array can be read later.
-/
import proofs.«152456_j55130200211791_1_alg».proof.Proof.Gen.KernelIdeal.Launch
import proofs.«152456_j55130200211791_1_alg».proof.Proof.Gen.KernelIdeal.Skeleton
import proofs.«152456_j55130200211791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 0: the projection of the node features by the fused weight matrix, ten blocks of 10000 rows

Everything here is stated at a parameter V: the TensorCore's buffer contents when the region is entered. -/

section
variable (V : (c : Dev nD) → (b : Ref sig .tc) → Buf (Elt F) ((c : Thread nD τ).loc b))

/-- Window w's block at grid point t, read off the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not: where it is not fetched the
    block index has not moved, and the body leaves the buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! What the body leaves in each output window's buffer: the body stores one value, over the whole buffer. -/

/-- The projected block: the product of the feature block and the fused weight matrix. -/
def out0_2 (x0 : Vec F S10000x32 .f32) (x1 : Vec F S32x96 .f32) : Vec F S10000x96 .f32 :=
  View.canon [⟨(Rect.unit (s := S10000x96) ![0, 0] S10000x96.size inb_S10000x96_S10000x96_0_0), k0_pay1 (View.ld x0 (Rect.unit (s := S10000x32) ![0, 0] S10000x32.size inb_S10000x32_S10000x32_0_0)) (View.ld x1 (Rect.unit (s := S32x96) ![0, 0] S32x96.size inb_S32x96_S32x96_0_0))⟩]

theorem cover0_2 (p0 : Vec F S10000x96 .f32) (y : S10000x96.Idx) :
    ∃ pc ∈ ([⟨(Rect.unit (s := S10000x96) ![0, 0] S10000x96.size inb_S10000x96_S10000x96_0_0), p0⟩] : List (View.Piece (Elt F) S10000x96 .f32)), y ∈ pc.1.set :=
  View.cover_of_tiled [⟨(Rect.unit (s := S10000x96) ![0, 0] S10000x96.size inb_S10000x96_S10000x96_0_0), p0⟩] S10000x96.size (by rfl) y

set_option maxHeartbeats 4000000 in
/-- The body on whole staging buffers: from the inputs' buffers at contents x_w and the outputs' at anything it runs,
    without a fault, to the inputs' buffers unchanged and each output's buffer at the stored value. -/
theorem sound_kernel0 (c : Dev nD) (E : Set ℕ) (i : grid0.Coords) (arg1 : Memref sig .tc .vmem S10000x32 .f32) (harg1 : arg1.IsWhole) (arg2 : Memref sig .tc .vmem S32x96 .f32) (harg2 : arg2.IsWhole) (arg3 : Memref sig .tc .vmem S10000x96 .f32) (harg3 : arg3.IsWhole)
    (x0 : Vec F S10000x32 .f32) (x1 : Vec F S32x96 .f32) (K : PUnit → sProp 𝕄) :
    iprop(owns (c : Thread nD τ) arg1 fullShare x0
        ∗ owns (c : Thread nD τ) arg2 fullShare x1
        ∗ (∃ d, owns (c : Thread nD τ) arg3 fullShare d)
        ∗ (iprop(owns (c : Thread nD τ) arg1 fullShare x0
            ∗ owns (c : Thread nD τ) arg2 fullShare x1
            ∗ owns (c : Thread nD τ) arg3 fullShare (out0_2 x0 x1)) -∗ K ⟨⟩))
      ⊢ wp frame (wpE (defs₀ (F := F)) Variants.none c none) E (cc0__gcn_linear_kernel i arg1 harg1 arg2 harg2 arg3 harg3) K := by
  simp only [cc0__gcn_linear_kernel_eq_skeleton]; unfold cc0__gcn_linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! The pipeline's proof data: the arrays as the region finds them; after the body at point t each input's buffer at
    its block and each output's at the stored value of the input blocks; nothing owed, full shares. -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! The body obligation at a generic grid point. -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

set_option maxHeartbeats 1000000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KIFrame1.lean ====
/-
  The second Pallas region of the kernel's program, as a frame: the body at any grid point loads a block of 5000 rows
  of the aggregated features and of the hidden state and the head's weights and biases, and stores the new hidden
  block and the output block, each over its whole buffer.  What the two output buffers hold afterwards is named
  (out1_11 for y, out1_12 for h'), so that the region's result arrays can be read later.
-/
import proofs.«152456_j55130200211791_1_alg».proof.Proof.Gen.KernelIdeal.Launch
import proofs.«152456_j55130200211791_1_alg».proof.Proof.Gen.KernelIdeal.Skeleton
import proofs.«152456_j55130200211791_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # Region 1: the GRU head, twenty blocks of 5000 rows

Everything here is stated at a parameter V: the TensorCore's buffer contents when the region is entered. -/

section
variable (V : (c : Dev nD) → (b : Ref sig .tc) → Buf (Elt F) ((c : Thread nD τ).loc b))

/-- Window w's block at grid point t, read off the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not: where it is not fetched the
    block index has not moved, and the body leaves the buffer as it found it. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

/-! What the body leaves in each output window's buffer: the body stores one value, over the whole buffer. -/

/-- The output block y: max(h', 0) · Wlin + blin of the head's new hidden block. -/
def out1_11 (x0 : Vec F S5000x96 .f32) (x1 : Vec F S5000x32 .f32) (x2 : Vec F S1x96 .f32) (x3 : Vec F S64x32 .f32) (x4 : Vec F S1x32 .f32) (x5 : Vec F S64x32 .f32) (x6 : Vec F S1x32 .f32) (x7 : Vec F S64x32 .f32) (x8 : Vec F S1x32 .f32) (x9 : Vec F S32x32 .f32) (x10 : Vec F S1x32 .f32) : Vec F S5000x32 .f32 :=
  View.canon [⟨(Rect.unit (s := S5000x32) ![0, 0] S5000x32.size inb_S5000x32_S5000x32_0_0), k1_pay2 (k1_pay4 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay5 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x5 (Rect.unit (s := S64x32) ![0, 0] S64x32.size inb_S64x32_S64x32_0_0)) (View.ld x6 (Rect.unit (s := S1x32) ![0, 0] S1x32.size inb_S1x32_S1x32_0_0)) (View.ld x7 (Rect.unit (s := S64x32) ![0, 0] S64x32.size inb_S64x32_S64x32_0_0)) (View.ld x8 (Rect.unit (s := S1x32) ![0, 0] S1x32.size inb_S1x32_S1x32_0_0))) (k1_pay6 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay7 (F := F)) (View.ld x9 (Rect.unit (s := S32x32) ![0, 0] S32x32.size inb_S32x32_S32x32_0_0)) (View.ld x10 (Rect.unit (s := S1x32) ![0, 0] S1x32.size inb_S1x32_S1x32_0_0))⟩]

theorem cover1_11 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

/-- The new hidden block h' = z * hid + (1 - z) * h~. -/
def out1_12 (x0 : Vec F S5000x96 .f32) (x1 : Vec F S5000x32 .f32) (x2 : Vec F S1x96 .f32) (x3 : Vec F S64x32 .f32) (x4 : Vec F S1x32 .f32) (x5 : Vec F S64x32 .f32) (x6 : Vec F S1x32 .f32) (x7 : Vec F S64x32 .f32) (x8 : Vec F S1x32 .f32) (x9 : Vec F S32x32 .f32) (x10 : Vec F S1x32 .f32) : Vec F S5000x32 .f32 :=
  View.canon [⟨(Rect.unit (s := S5000x32) ![0, 0] S5000x32.size inb_S5000x32_S5000x32_0_0), k1_pay1 (k1_pay4 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay5 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x5 (Rect.unit (s := S64x32) ![0, 0] S64x32.size inb_S64x32_S64x32_0_0)) (View.ld x6 (Rect.unit (s := S1x32) ![0, 0] S1x32.size inb_S1x32_S1x32_0_0)) (View.ld x7 (Rect.unit (s := S64x32) ![0, 0] S64x32.size inb_S64x32_S64x32_0_0)) (View.ld x8 (Rect.unit (s := S1x32) ![0, 0] S1x32.size inb_S1x32_S1x32_0_0))) (k1_pay6 (View.ld x0 (Rect.unit (s := S5000x96) ![0, 0] S5000x96.size inb_S5000x96_S5000x96_0_0)) (View.ld x2 (Rect.unit (s := S1x96) ![0, 0] S1x96.size inb_S1x96_S1x96_0_0)) (View.ld x1 (Rect.unit (s := S5000x32) ![0, 0] S5000x32.size inb_S5000x32_S5000x32_0_0)) (View.ld x3 (Rect.unit (s := S64x32) ![0, 0] S64x32.size inb_S64x32_S64x32_0_0)) (View.ld x4 (Rect.unit (s := S1x32) ![0, 0] S1x32.size inb_S1x32_S1x32_0_0))) (k1_pay7 (F := F))⟩]

theorem cover1_12 (p0 : Vec F S5000x32 .f32) (y : S5000x32.Idx) :
    ∃ pc ∈ ([⟨(Rect.unit (s := S5000x32) ![0, 0] S5000x32.size inb_S5000x32_S5000x32_0_0), p0⟩] : List (View.Piece (Elt F) S5000x32 .f32)), y ∈ pc.1.set :=
  View.cover_of_tiled [⟨(Rect.unit (s := S5000x32) ![0, 0] S5000x32.size inb_S5000x32_S5000x32_0_0), p0⟩] S5000x32.size (by rfl) y

set_option maxHeartbeats 4000000 in
/-- The body on whole staging buffers: from the inputs' buffers at contents x_w and the outputs' at anything it runs,
    without a fault, to the inputs' buffers unchanged and each output's buffer at the stored value. -/
theorem sound_kernel1 (c : Dev nD) (E : Set ℕ) (i : grid1.Coords) (arg1 : Memref sig .tc .vmem S5000x96 .f32) (harg1 : arg1.IsWhole) (arg2 : Memref sig .tc .vmem S5000x32 .f32) (harg2 : arg2.IsWhole) (arg3 : Memref sig .tc .vmem S1x96 .f32) (harg3 : arg3.IsWhole) (arg4 : Memref sig .tc .vmem S64x32 .f32) (harg4 : arg4.IsWhole) (arg5 : Memref sig .tc .vmem S1x32 .f32) (harg5 : arg5.IsWhole) (arg6 : Memref sig .tc .vmem S64x32 .f32) (harg6 : arg6.IsWhole) (arg7 : Memref sig .tc .vmem S1x32 .f32) (harg7 : arg7.IsWhole) (arg8 : Memref sig .tc .vmem S64x32 .f32) (harg8 : arg8.IsWhole) (arg9 : Memref sig .tc .vmem S1x32 .f32) (harg9 : arg9.IsWhole) (arg10 : Memref sig .tc .vmem S32x32 .f32) (harg10 : arg10.IsWhole) (arg11 : Memref sig .tc .vmem S1x32 .f32) (harg11 : arg11.IsWhole) (arg12 : Memref sig .tc .vmem S5000x32 .f32) (harg12 : arg12.IsWhole) (arg13 : Memref sig .tc .vmem S5000x32 .f32) (harg13 : arg13.IsWhole)
    (x0 : Vec F S5000x96 .f32) (x1 : Vec F S5000x32 .f32) (x2 : Vec F S1x96 .f32) (x3 : Vec F S64x32 .f32) (x4 : Vec F S1x32 .f32) (x5 : Vec F S64x32 .f32) (x6 : Vec F S1x32 .f32) (x7 : Vec F S64x32 .f32) (x8 : Vec F S1x32 .f32) (x9 : Vec F S32x32 .f32) (x10 : Vec F S1x32 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare x8
        ∗ owns (c : Thread nD τ) arg10 fullShare x9
        ∗ owns (c : Thread nD τ) arg11 fullShare x10
        ∗ (∃ d, owns (c : Thread nD τ) arg12 fullShare d)
        ∗ (∃ d, owns (c : Thread nD τ) arg13 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare x8
            ∗ owns (c : Thread nD τ) arg10 fullShare x9
            ∗ owns (c : Thread nD τ) arg11 fullShare x10
            ∗ owns (c : Thread nD τ) arg12 fullShare (out1_11 x0 x1 x2 x3 x4 x5 x6 x7 x8 x9 x10)
            ∗ owns (c : Thread nD τ) arg13 fullShare (out1_12 x0 x1 x2 x3 x4 x5 x6 x7 x8 x9 x10)) -∗ K ⟨⟩))
      ⊢ wp frame (wpE (defs₀ (F := F)) Variants.none c none) E (cc1__gru_head_kernel i arg1 harg1 arg2 harg2 arg3 harg3 arg4 harg4 arg5 harg5 arg6 harg6 arg7 harg7 arg8 harg8 arg9 harg9 arg10 harg10 arg11 harg11 arg12 harg12 arg13 harg13) K := by
  simp only [cc1__gru_head_kernel_eq_skeleton]; unfold cc1__gru_head_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (cover1_11 _)
  iexists _; isplitr
  swap; · iexact H12
  ipureintro
  exact View.read_writes_eq_canon _ _ _ (cover1_12 _)

/-! The pipeline's proof data: the arrays as the region finds them; after the body at point t each input's buffer at
    its block and each output's at the stored value of the input blocks; nothing owed, full shares. -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
    | ⟨12, _⟩ => out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = out1_11 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]
theorem after1_12 (c : Dev nD) (t : Fin cfg1.N) : (dat1 V c).after 12 t = out1_12 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d

/-! The body obligation at a generic grid point. -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t))

set_option maxHeartbeats 1000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel1 c Set.univ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KIRun.lean ====
/-
  The run of the kernel's program: @main is a stretch of host operations (the fused weight matrix and bias), the
  projection region, a second stretch (the edge gather, the scaling, the scatter-add, the reshaped biases), and the GRU
  head region.  The contents of every unscoped buffer at the four boundaries are named W1 … W4 by folding the host
  operations and the regions' write-backs from the launch memory; every weakly fair execution terminates, faults nowhere,
  and ends with every unscoped buffer at W4.  From that: the argument arrays end as launched (no host operation and no
  region writes one), and the two results end at the head region's output arrays.
-/
import proofs.«152456_j55130200211791_1_alg».proof.Proof.KIFrame0
import proofs.«152456_j55130200211791_1_alg».proof.Proof.KIFrame1
import proofs.«152456_j55130200211791_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core c's buffers at launch. -/
abbrev W0 : Dev nD → Valuation τ sig (Elt F) := fun c b => (s₀ m ρ).mem ((c : Dev nD), b)
/-- After the first host stretch (the projection region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b

/-- At region 0's exit: its arrays at what the pipeline leaves (an input as entered, an output its write-backs folded),
    every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- An input window's array leaves the region as it entered. -/
theorem W2_of_in (c : Dev nD) (w : Fin cfg0.W) (hw : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hw _).trans (A_eq0 (V1 m ρ) c w))
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the head region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

/-- At region 1's exit: its arrays at what the pipeline leaves (an input as entered, an output its write-backs folded),
    every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- An input window's array leaves the region as it entered. -/
theorem W4_of_in (c : Dev nD) (w : Fin cfg1.W) (hw : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hw _).trans (A_eq1 (V3 m ρ) c w))
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A host stretch leaves a buffer it does not write as it was. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h

/-! ## The arguments end as launched -/

theorem W4_main_arg0 (c : Dev nD) : W4 m ρ c (Proc.devRef .tc main_arg0) = m ((c : Thread nD τ).loc main_arg0) :=
  (W4_of_ne m ρ c main_arg0 (by decide)).trans <| (W3_of m ρ c main_arg0 (by decide)).trans <| (W2_of_in m ρ c 0 rfl).trans <| (W1_of m ρ c main_arg0 (by decide)).trans rfl
theorem W4_main_arg1 (c : Dev nD) : W4 m ρ c (Proc.devRef .tc main_arg1) = m ((c : Thread nD τ).loc main_arg1) :=
  (W4_of_ne m ρ c main_arg1 (by decide)).trans <| (W3_of m ρ c main_arg1 (by decide)).trans <| (W2_of_ne m ρ c main_arg1 (by decide)).trans <| (W1_of m ρ c main_arg1 (by decide)).trans rfl
theorem W4_main_arg2 (c : Dev nD) : W4 m ρ c (Proc.devRef .tc main_arg2) = m ((c : Thread nD τ).loc main_arg2) :=
  (W4_of_in m ρ c 1 rfl).trans <| (W3_of m ρ c main_arg2 (by decide)).trans <| (W2_of_ne m ρ c main_arg2 (by decide)).trans <| (W1_of m ρ c main_arg2 (by decide)).trans rfl
theorem W4_main_arg3 (c : Dev nD) : W4 m ρ c (Proc.devRef .tc main_arg3) = m ((c : Thread nD τ).loc main_arg3) :=
  (W4_of_ne m ρ c main_arg3 (by decide)).trans <| (W3_of m ρ c main_arg3 (by decide)).trans <| (W2_of_ne m ρ c main_arg3 (by decide)).trans <| (W1_of m ρ c main_arg3 (by decide)).trans rfl
theorem W4_main_arg4 (c : Dev nD) : W4 m ρ c (Proc.devRef .tc main_arg4) = m ((c : Thread nD τ).loc main_arg4) :=
  (W4_of_ne m ρ c main_arg4 (by decide)).trans <| (W3_of m ρ c main_arg4 (by decide)).trans <| (W2_of_ne m ρ c main_arg4 (by decide)).trans <| (W1_of m ρ c main_arg4 (by decide)).trans rfl
theorem W4_main_arg5 (c : Dev nD) : W4 m ρ c (Proc.devRef .tc main_arg5) = m ((c : Thread nD τ).loc main_arg5) :=
  (W4_of_ne m ρ c main_arg5 (by decide)).trans <| (W3_of m ρ c main_arg5 (by decide)).trans <| (W2_of_ne m ρ c main_arg5 (by decide)).trans <| (W1_of m ρ c main_arg5 (by decide)).trans rfl
theorem W4_main_arg6 (c : Dev nD) : W4 m ρ c (Proc.devRef .tc main_arg6) = m ((c : Thread nD τ).loc main_arg6) :=
  (W4_of_ne m ρ c main_arg6 (by decide)).trans <| (W3_of m ρ c main_arg6 (by decide)).trans <| (W2_of_ne m ρ c main_arg6 (by decide)).trans <| (W1_of m ρ c main_arg6 (by decide)).trans rfl
theorem W4_main_arg7 (c : Dev nD) : W4 m ρ c (Proc.devRef .tc main_arg7) = m ((c : Thread nD τ).loc main_arg7) :=
  (W4_of_ne m ρ c main_arg7 (by decide)).trans <| (W3_of m ρ c main_arg7 (by decide)).trans <| (W2_of_ne m ρ c main_arg7 (by decide)).trans <| (W1_of m ρ c main_arg7 (by decide)).trans rfl
theorem W4_main_arg8 (c : Dev nD) : W4 m ρ c (Proc.devRef .tc main_arg8) = m ((c : Thread nD τ).loc main_arg8) :=
  (W4_of_ne m ρ c main_arg8 (by decide)).trans <| (W3_of m ρ c main_arg8 (by decide)).trans <| (W2_of_ne m ρ c main_arg8 (by decide)).trans <| (W1_of m ρ c main_arg8 (by decide)).trans rfl
theorem W4_main_arg9 (c : Dev nD) : W4 m ρ c (Proc.devRef .tc main_arg9) = m ((c : Thread nD τ).loc main_arg9) :=
  (W4_of_ne m ρ c main_arg9 (by decide)).trans <| (W3_of m ρ c main_arg9 (by decide)).trans <| (W2_of_ne m ρ c main_arg9 (by decide)).trans <| (W1_of m ρ c main_arg9 (by decide)).trans rfl
theorem W4_main_arg10 (c : Dev nD) : W4 m ρ c (Proc.devRef .tc main_arg10) = m ((c : Thread nD τ).loc main_arg10) :=
  (W4_of_ne m ρ c main_arg10 (by decide)).trans <| (W3_of m ρ c main_arg10 (by decide)).trans <| (W2_of_ne m ρ c main_arg10 (by decide)).trans <| (W1_of m ρ c main_arg10 (by decide)).trans rfl
theorem W4_main_arg11 (c : Dev nD) : W4 m ρ c (Proc.devRef .tc main_arg11) = m ((c : Thread nD τ).loc main_arg11) :=
  (W4_of_in m ρ c 3 rfl).trans <| (W3_of m ρ c main_arg11 (by decide)).trans <| (W2_of_ne m ρ c main_arg11 (by decide)).trans <| (W1_of m ρ c main_arg11 (by decide)).trans rfl
theorem W4_main_arg12 (c : Dev nD) : W4 m ρ c (Proc.devRef .tc main_arg12) = m ((c : Thread nD τ).loc main_arg12) :=
  (W4_of_ne m ρ c main_arg12 (by decide)).trans <| (W3_of m ρ c main_arg12 (by decide)).trans <| (W2_of_ne m ρ c main_arg12 (by decide)).trans <| (W1_of m ρ c main_arg12 (by decide)).trans rfl
theorem W4_main_arg13 (c : Dev nD) : W4 m ρ c (Proc.devRef .tc main_arg13) = m ((c : Thread nD τ).loc main_arg13) :=
  (W4_of_in m ρ c 5 rfl).trans <| (W3_of m ρ c main_arg13 (by decide)).trans <| (W2_of_ne m ρ c main_arg13 (by decide)).trans <| (W1_of m ρ c main_arg13 (by decide)).trans rfl
theorem W4_main_arg14 (c : Dev nD) : W4 m ρ c (Proc.devRef .tc main_arg14) = m ((c : Thread nD τ).loc main_arg14) :=
  (W4_of_ne m ρ c main_arg14 (by decide)).trans <| (W3_of m ρ c main_arg14 (by decide)).trans <| (W2_of_ne m ρ c main_arg14 (by decide)).trans <| (W1_of m ρ c main_arg14 (by decide)).trans rfl
theorem W4_main_arg15 (c : Dev nD) : W4 m ρ c (Proc.devRef .tc main_arg15) = m ((c : Thread nD τ).loc main_arg15) :=
  (W4_of_in m ρ c 7 rfl).trans <| (W3_of m ρ c main_arg15 (by decide)).trans <| (W2_of_ne m ρ c main_arg15 (by decide)).trans <| (W1_of m ρ c main_arg15 (by decide)).trans rfl
theorem W4_main_arg16 (c : Dev nD) : W4 m ρ c (Proc.devRef .tc main_arg16) = m ((c : Thread nD τ).loc main_arg16) :=
  (W4_of_ne m ρ c main_arg16 (by decide)).trans <| (W3_of m ρ c main_arg16 (by decide)).trans <| (W2_of_ne m ρ c main_arg16 (by decide)).trans <| (W1_of m ρ c main_arg16 (by decide)).trans rfl
theorem W4_main_arg17 (c : Dev nD) : W4 m ρ c (Proc.devRef .tc main_arg17) = m ((c : Thread nD τ).loc main_arg17) :=
  (W4_of_in m ρ c 9 rfl).trans <| (W3_of m ρ c main_arg17 (by decide)).trans <| (W2_of_ne m ρ c main_arg17 (by decide)).trans <| (W1_of m ρ c main_arg17 (by decide)).trans rfl
theorem W4_main_arg18 (c : Dev nD) : W4 m ρ c (Proc.devRef .tc main_arg18) = m ((c : Thread nD τ).loc main_arg18) :=
  (W4_of_ne m ρ c main_arg18 (by decide)).trans <| (W3_of m ρ c main_arg18 (by decide)).trans <| (W2_of_ne m ρ c main_arg18 (by decide)).trans <| (W1_of m ρ c main_arg18 (by decide)).trans rfl

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 as a segment: entered with every unscoped buffer at the contents before it, left with them at the contents
    after it.  Its arrays are split out of the unscoped buffers and put back at what the pipeline leaves; the generator
    register goes into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the contents
    after it.  Its arrays are split out of the unscoped buffers and put back at what the pipeline leaves; the generator
    register goes into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution of @main from the memory m with zero counters terminates, nothing faulting, and every
    final state holds each unscoped buffer at the last boundary's contents W4. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run with its results named: the two results end at the head region's output arrays, and every argument array
    ends as launched. -/
theorem run_main : θ_run defs (onTc (τ := τ) (main (F := F))) ⟨m, fun _ => 0, ρ⟩ (fun r => ∀ c : Dev nD,
      (r.2.mem ((c.tc : Thread nD τ).loc main_v21_0) = (dat1 (V3 m ρ) c).arrAt 11 cfg1.N
        ∧ r.2.mem ((c.tc : Thread nD τ).loc main_v21_1) = (dat1 (V3 m ρ) c).arrAt 12 cfg1.N)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨⟨(h c _ (mem_uc main_v21_0 (by decide))).trans (W4_arr m ρ c 11),
      (h c _ (mem_uc main_v21_1 (by decide))).trans (W4_arr m ρ c 12)⟩,
    (h c _ (mem_uc main_arg0 (by decide))).trans (W4_main_arg0 m ρ c),
    (h c _ (mem_uc main_arg1 (by decide))).trans (W4_main_arg1 m ρ c),
    (h c _ (mem_uc main_arg2 (by decide))).trans (W4_main_arg2 m ρ c),
    (h c _ (mem_uc main_arg3 (by decide))).trans (W4_main_arg3 m ρ c),
    (h c _ (mem_uc main_arg4 (by decide))).trans (W4_main_arg4 m ρ c),
    (h c _ (mem_uc main_arg5 (by decide))).trans (W4_main_arg5 m ρ c),
    (h c _ (mem_uc main_arg6 (by decide))).trans (W4_main_arg6 m ρ c),
    (h c _ (mem_uc main_arg7 (by decide))).trans (W4_main_arg7 m ρ c),
    (h c _ (mem_uc main_arg8 (by decide))).trans (W4_main_arg8 m ρ c),
    (h c _ (mem_uc main_arg9 (by decide))).trans (W4_main_arg9 m ρ c),
    (h c _ (mem_uc main_arg10 (by decide))).trans (W4_main_arg10 m ρ c),
    (h c _ (mem_uc main_arg11 (by decide))).trans (W4_main_arg11 m ρ c),
    (h c _ (mem_uc main_arg12 (by decide))).trans (W4_main_arg12 m ρ c),
    (h c _ (mem_uc main_arg13 (by decide))).trans (W4_main_arg13 m ρ c),
    (h c _ (mem_uc main_arg14 (by decide))).trans (W4_main_arg14 m ρ c),
    (h c _ (mem_uc main_arg15 (by decide))).trans (W4_main_arg15 m ρ c),
    (h c _ (mem_uc main_arg16 (by decide))).trans (W4_main_arg16 m ρ c),
    (h c _ (mem_uc main_arg17 (by decide))).trans (W4_main_arg17 m ρ c),
    (h c _ (mem_uc main_arg18 (by decide))).trans (W4_main_arg18 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => (h c).2) (run_main m ρ)

end Cert.KernelIdeal.Hand

end
-- ==== Proof.KDefs.lean ====
/-
  The host side of the kernel's program, by name: the fused weight matrix and bias, the edge source column after the
  negative-index wrap, and the edge aggregation (rows of the projected features gathered at the edges' sources, scaled
  by the edge weights and summed into the edges' destinations), each as a function of the arrays it is computed from.
  These are the terms the host operations of @main compose, spelt with the program's own dimension records.
-/
import proofs.«152456_j55130200211791_1_alg».proof.Proof.Gen.KernelIdeal

noncomputable section

namespace Cert.KernelIdeal.Hand

open Cert.KernelIdeal Cert.KernelIdeal.Gen Idealize.ShloMosaic

variable {F : FTy → Type} [FloatOps F]

/-- The three 32×32 convolution weights side by side: a 32×96 matrix. -/
def wcat (w5 w7 w9 : (⟨S32x32, .f32⟩ : BufTy).Contents (Elt F)) : (⟨S32x96, .f32⟩ : BufTy).Contents (Elt F) :=
  concatenate S32x96 1 [⟨S32x32, w5⟩, ⟨S32x32, w7⟩, ⟨S32x32, w9⟩] concatenates_S32x32_S32x32_S32x32_S32x96_d1

/-- The three convolution biases end to end: 96 entries. -/
def bcat (b6 b8 b10 : (⟨S32, .f32⟩ : BufTy).Contents (Elt F)) : (⟨S96, .f32⟩ : BufTy).Contents (Elt F) :=
  concatenate S96 0 [⟨S32, b6⟩, ⟨S32, b8⟩, ⟨S32, b10⟩] concatenates_S32_S32_S32_S96_d0

/-- The edges' source rows as an [E, 1] column, a negative index wrapped by the number of nodes. -/
def srcCol (a3 : (⟨S1600000, .i32⟩ : BufTy).Contents (Elt F)) : (⟨S1600000x1, .i32⟩ : BufTy).Contents (Elt F) :=
  broadcastInDim S1600000x1 ![0] bcast_S1600000_S1600000x1_0
    (select (cmpi .slt a3 (broadcastInDim S1600000 ![] bcast_S_S1600000 (constantI S_ 32 0#32)))
      (addi a3 (broadcastInDim S1600000 ![] bcast_S_S1600000 (constantI S_ 32 100000#32))) a3)

/-- The edge aggregation of a projected feature array H3 [N, 96]: out[v] = ∑ over edges e into v of ew[e] · H3[src e]. -/
def agg (H3 : (⟨S100000x96, .f32⟩ : BufTy).Contents (Elt F)) (a1 : (⟨S1600000, .f32⟩ : BufTy).Contents (Elt F))
    (a3 a4 : (⟨S1600000, .i32⟩ : BufTy).Contents (Elt F)) : (⟨S100000x96, .f32⟩ : BufTy).Contents (Elt F) :=
  Host.scatterAdd scatter_S100000x96_S1600000x1_S1600000x96_1_0_0_1
    (broadcastInDim S100000x96 ![] bcast_S_S100000x96 (constant S_ .f32 0x00000000#32))
    (broadcastInDim S1600000x1 ![0] bcast_S1600000_S1600000x1_0 a4)
    (mulf (Host.gather gather_S100000x96_S1600000x1_S1600000x96_1_0_n_n_0_1_196 H3 (srcCol a3))
      (broadcastInDim S1600000x96 ![0, 1] bcast_S1600000x1_S1600000x96_0_1
        (broadcastInDim S1600000x1 ![0] bcast_S1600000_S1600000x1_0 a1)))

end Cert.KernelIdeal.Hand

end
-- ==== Proof.KHost.lean ====
/-
  The two stretches of host operations of the kernel's program, read back: what each buffer they write holds at the
  boundary after the stretch, as the host operations' composed term of the buffers before it.  The first stretch joins
  the three convolution weights and the three biases; the second computes the edge aggregation of the projection
  region's result and reshapes the five bias vectors into one-row matrices.
-/
import proofs.«152456_j55130200211791_1_alg».proof.Proof.KIRun
import proofs.«152456_j55130200211791_1_alg».proof.Proof.KDefs
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]
variable (m : (ℓ : Loc nD τ sig) → Buf (Elt F) ℓ) (ρ : Dev nD → PrngReg)

/-! ## After the first stretch -/

theorem V1_v0 (c : Dev nD) : V1 m ρ c main_v0
    = wcat (m ((c : Thread nD τ).loc main_arg5)) (m ((c : Thread nD τ).loc main_arg7)) (m ((c : Thread nD τ).loc main_arg9)) := by
  show StableHlo.after hostOps0 (W0 m ρ c) (Proc.devRef .tc main_v0) = _
  after_results
  rfl

theorem V1_v1 (c : Dev nD) : V1 m ρ c main_v1
    = bcat (m ((c : Thread nD τ).loc main_arg6)) (m ((c : Thread nD τ).loc main_arg8)) (m ((c : Thread nD τ).loc main_arg10)) := by
  show StableHlo.after hostOps0 (W0 m ρ c) (Proc.devRef .tc main_v1) = _
  after_results
  rfl

/-! ## After the second stretch -/

theorem V3_v15 (c : Dev nD) : V3 m ρ c main_v15
    = agg (V2 m ρ c main_v2) (V2 m ρ c main_arg1) (V2 m ρ c main_arg3) (V2 m ρ c main_arg4) := by
  show StableHlo.after hostOps1 (W2 m ρ c) (Proc.devRef .tc main_v15) = _
  after_results_simp
  rfl

theorem V3_v16 (c : Dev nD) : V3 m ρ c main_v16 = shapeCast S1x32 (V2 m ρ c main_arg12) shapeCasts_S32_S1x32 := by
  show StableHlo.after hostOps1 (W2 m ρ c) (Proc.devRef .tc main_v16) = _
  after_results
  rfl

theorem V3_v17 (c : Dev nD) : V3 m ρ c main_v17 = shapeCast S1x32 (V2 m ρ c main_arg14) shapeCasts_S32_S1x32 := by
  show StableHlo.after hostOps1 (W2 m ρ c) (Proc.devRef .tc main_v17) = _
  after_results
  rfl

theorem V3_v18 (c : Dev nD) : V3 m ρ c main_v18 = shapeCast S1x32 (V2 m ρ c main_arg16) shapeCasts_S32_S1x32 := by
  show StableHlo.after hostOps1 (W2 m ρ c) (Proc.devRef .tc main_v18) = _
  after_results
  rfl

theorem V3_v19 (c : Dev nD) : V3 m ρ c main_v19 = shapeCast S1x32 (V2 m ρ c main_arg18) shapeCasts_S32_S1x32 := by
  show StableHlo.after hostOps1 (W2 m ρ c) (Proc.devRef .tc main_v19) = _
  after_results
  rfl

theorem V3_v20 (c : Dev nD) : V3 m ρ c main_v20 = shapeCast S1x96 (V2 m ρ c main_v1) shapeCasts_S96_S1x96 := by
  show StableHlo.after hostOps1 (W2 m ρ c) (Proc.devRef .tc main_v20) = _
  after_results
  rfl

/-! ## What neither a stretch nor a region touches -/

/-- An argument array holds its launch contents at the head region's entry. -/
theorem V3_arg (c : Dev nD) (r : Ref sig .tc) (h3 : r ∉ hostOps1_W) (h2 : ∀ w, Pipeline.arrRef spec0 w ≠ r) (h1 : r ∉ hostOps0_W) :
    V3 m ρ c r = m ((c : Thread nD τ).loc r) :=
  (W3_of m ρ c r h3).trans <| (W2_of_ne m ρ c r h2).trans <| (W1_of m ρ c r h1).trans rfl

/-- … and at the second stretch's entry. -/
theorem V2_arg (c : Dev nD) (r : Ref sig .tc) (h2 : ∀ w, Pipeline.arrRef spec0 w ≠ r) (h1 : r ∉ hostOps0_W) :
    V2 m ρ c r = m ((c : Thread nD τ).loc r) :=
  (W2_of_ne m ρ c r h2).trans <| (W1_of m ρ c r h1).trans rfl

/-- The fused bias vector passes the projection region unchanged. -/
theorem V2_v1 (c : Dev nD) : V2 m ρ c main_v1 = V1 m ρ c main_v1 := W2_of_ne m ρ c main_v1 (by decide)

/-- The projection region's result array at the second stretch's entry. -/
theorem V2_v2 (c : Dev nD) : V2 m ρ c main_v2 = (dat0 (V1 m ρ) c).arrAt 2 cfg0.N := W2_arr m ρ c 2

/-- The feature array at the projection region's entry. -/
theorem V1_arg0 (c : Dev nD) : V1 m ρ c main_arg0 = m ((c : Thread nD τ).loc main_arg0) :=
  (W1_of m ρ c main_arg0 (by decide)).trans rfl

end Cert.KernelIdeal.Hand

end
-- ==== Proof.Spec.lean ====
/-
  The GRU head of the graph-convolution cell, one node (one row) at a time, on the extended reals.

  A node's row of the three aggregated convolutions (cz, cr, ch : 32 entries each, bias already added) and its
  hidden row hid give

    z  = logistic ([cz | hid] · Wz + bz)            r = logistic ([cr | hid] · Wr + br)
    h~ = tanh ([ch | hid * r] · Wh + bh)            h' = z * hid + (1 - z) * h~
    y  = max(h', 0) · Wlin + blin

  where [a | b] is the row of 64 entries made of a then b, u · W is the row (∑ k, u k * W k j) and every operation
  is the exact one on the extended reals.  Both programs compute exactly these rows; they differ only in how the
  rows cz, cr, ch are laid out in memory before the head is applied.  The literal words 1.0 and 0.0 are kept as
  words: the same word stands on both sides.
-/
import Idealize.ShloMosaic.PureOps.Ideal
import Idealize.ShloMosaic.Lib.ValueIdx

noncomputable section

open scoped BigOperators

namespace Cert.Spec

open Idealize.ShloMosaic

/-- The word of the float 1.0 and of the float 0.0, read at the extended reals. -/
abbrev one : EReal := Ideal.ofBits .f32 0x3F800000#32
abbrev zero : EReal := Ideal.ofBits .f32 0x00000000#32

/-- Two rows of 32 entries side by side: entry k of the row of 64 is a k for k < 32 and b (k - 32) after. -/
def cat (a b : Fin 32 → EReal) : Fin 64 → EReal :=
  fun k => if h : k.val < 32 then a ⟨k.val, h⟩ else b ⟨k.val - 32, by omega⟩

/-- The row u · W + b, entry j. -/
def affine {K : Nat} (u : Fin K → EReal) (W : Fin K → Fin 32 → EReal) (b : Fin 32 → EReal) (j : Fin 32) : EReal :=
  (∑ k : Fin K, u k * W k j) + b j

/-- A gate: logistic ([c | hid] · W + b), entry j. -/
def gate (W : Fin 64 → Fin 32 → EReal) (b : Fin 32 → EReal) (c hid : Fin 32 → EReal) (j : Fin 32) : EReal :=
  Ideal.logistic (affine (cat c hid) W b j)

/-- The candidate state: tanh ([ch | hid * r] · W + b), entry j. -/
def cand (W : Fin 64 → Fin 32 → EReal) (b : Fin 32 → EReal) (ch hid r : Fin 32 → EReal) (j : Fin 32) : EReal :=
  Ideal.tanh (affine (cat ch (fun k => hid k * r k)) W b j)

/-- The new hidden row: z * hid + (1 - z) * h~, entry j. -/
def hnew (Wz : Fin 64 → Fin 32 → EReal) (bz : Fin 32 → EReal) (Wr : Fin 64 → Fin 32 → EReal) (br : Fin 32 → EReal)
    (Wh : Fin 64 → Fin 32 → EReal) (bh : Fin 32 → EReal) (cz cr ch hid : Fin 32 → EReal) (j : Fin 32) : EReal :=
  gate Wz bz cz hid j * hid j + (one - gate Wz bz cz hid j) * cand Wh bh ch hid (gate Wr br cr hid) j

/-- The output row: max(h', 0) · Wlin + blin, entry j. -/
def yout (Wz : Fin 64 → Fin 32 → EReal) (bz : Fin 32 → EReal) (Wr : Fin 64 → Fin 32 → EReal) (br : Fin 32 → EReal)
    (Wh : Fin 64 → Fin 32 → EReal) (bh : Fin 32 → EReal) (Wlin : Fin 32 → Fin 32 → EReal) (blin : Fin 32 → EReal)
    (cz cr ch hid : Fin 32 → EReal) (j : Fin 32) : EReal :=
  affine (fun k => max (hnew Wz bz Wr br Wh bh cz cr ch hid k) zero) Wlin blin j

end Cert.Spec

end
-- ==== Proof.LibPlainMatmul.lean ====
/-
  A plain matrix product read at one entry.

  The matrix unit's contraction with dimension numbers "rows × contraction times contraction × columns"
  (left contracting axis 1, right contracting axis 0, no batch axis), accumulated into the zero splat, is at the
  ideal values the textbook product: entry (i, j) is the sum over the contraction coordinate k of
  l (i, k) · r (k, j).  The statement is over any dimension record whose six lists are those of the plain
  product, so it applies to a printed record whatever name it carries.
-/
import Idealize.ShloMosaic.Lib.ValueIdx
import Idealize.ShloMosaic.PureOps.Ideal.Laws

noncomputable section

open scoped BigOperators

namespace Idealize.ShloMosaic.PlainMatmul

open Idealize.ShloMosaic Idealize.ShloMosaic.ValueIdx

/-- Entry (i, j) of an M×K by K×N `tpu.matmul` into the zero accumulator, at the ideal values: the sum over the
    K contraction coordinates of the left operand's row entry times the right operand's column entry. -/
theorem matmul_zero_apply {M K N : Nat} {φ₁ φ₂ : FTy}
    (D : DotDims ⟨2, ![M, K]⟩ ⟨2, ![K, N]⟩ ⟨2, ![M, N]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (i : Fin M) (j : Fin N) :
    matmul D prec l r (constant ⟨2, ![M, N]⟩ .f32 0x00000000#32) (ix2 i j)
      = ∑ k : Fin K, l (ix2 i k) * r (ix2 k j) := by
  obtain ⟨lc, rc, ln, rn, lb, rb, wf⟩ := D
  dsimp only at hlc hrc hln hrn hlb hrb
  subst hlc hrc hln hrn hlb hrb
  refine (Ideal.matmul_constant_zero_apply _ prec l r (ix2 i j)).trans ?_
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : DotDims.lhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 i k :=
    funext fun a => Fin.ext (by
      match a with
      | ⟨0, _⟩ =>
        unfold DotDims.lhsIdx
        rw [dif_neg (by exact List.not_mem_nil), dif_pos (by exact List.mem_singleton.mpr rfl)]
        rfl
      | ⟨1, _⟩ => exact (DotDims.lhsIdx_val_of_single _ rfl _ _).trans hk)
  have er : DotDims.rhsIdx (⟨[1], [0], [0], [1], [], [], wf⟩ : DotDims ⟨2, ![M, K]⟩ ⟨2, ![K, N]⟩ ⟨2, ![M, N]⟩) (ix2 i j)
      ((contrEquiv1 (⟨[1], [0], [0], [1], [], [], wf⟩ : DotDims ⟨2, ![M, K]⟩ ⟨2, ![K, N]⟩ ⟨2, ![M, N]⟩) K rfl rfl).symm k) = ix2 k j :=
    funext fun a => Fin.ext (by
      match a with
      | ⟨0, _⟩ => exact (DotDims.rhsIdx_val_of_single _ rfl _ _).trans hk
      | ⟨1, _⟩ =>
        unfold DotDims.rhsIdx
        rw [dif_neg (by exact List.not_mem_nil), dif_pos (by exact List.mem_singleton.mpr rfl)]
        rfl)
  rw [el, er]

end Idealize.ShloMosaic.PlainMatmul

end
-- ==== Proof.PayValue.lean ====
/-
  The arithmetic of the two kernel bodies, read one entry at a time, is the specification's.

  Body 0 is one matrix product into the zero accumulator: entry (p, q) of the projection is
  ∑ k, x (p, k) · w (k, q).

  Body 1 is the GRU head.  It adds the 1×96 bias row to the 5000×96 aggregated block, cuts the sum into three
  pieces of 32 columns (at columns 0, 32, 64: the rows cz, cr, ch of a node), joins a piece with the hidden block
  along the columns, multiplies the 5000×64 join by a 64×32 weight, adds a 1×32 bias row broadcast down the rows
  and applies the logistic function (the gates z and r) or the hyperbolic tangent (the candidate h~, whose join is
  [ch | hid * r]); then h' = z * hid + (1 - z) * h~ with 1 the broadcast word of 1.0, and
  y = max(h', 0) · Wlin + blin with 0 the broadcast word of 0.0.

  Each step below reads one operation at an entry (p, q): a broadcast row reads its row 0, a slice reads the
  operand shifted by its column offset, a join of two 32-column blocks reads the left block below column 32 and
  the right block from column 32 on (the specification's `cat`), a product into the zero accumulator reads the
  sum over the contraction coordinate.  Put together, row p of what body 1 computes is the specification's
  `hnew` and `yout` at the rows cz, cr, ch, hid of node p, for arbitrary input blocks.
-/
import proofs.«152456_j55130200211791_1_alg».proof.Proof.Gen.KernelIdeal.Skeleton
import proofs.«152456_j55130200211791_1_alg».proof.Proof.Spec
import proofs.«152456_j55130200211791_1_alg».proof.Proof.LibPlainMatmul
import Idealize.ShloMosaic.Lib.Pipeline.Value
import Idealize.ShloMosaic.Lib.ValueIdx

noncomputable section

open scoped BigOperators

namespace Cert.KernelIdeal.PayValue

open Idealize.ShloMosaic Idealize.ShloMosaic.ValueIdx

/-! ## The projection of body 0 -/

/-- Entry (p, q) of the projection is the textbook product of row p of the features with column q of the weights. -/
theorem proj_apply (v0 : Vec Ideal S10000x32 .f32) (v1 : Vec Ideal S32x96 .f32) (p : Fin 10000) (q : Fin 96) :
    Gen.k0_pay1 (F := Ideal) v0 v1 (ix2 p q) = ∑ k : Fin 32, v0 (ix2 p k) * v1 (ix2 k q) := by
  unfold Gen.k0_pay1
  rw [shapeCast_self]
  exact PlainMatmul.matmul_zero_apply dot_S10000x32_S32x96_S10000x96_1_0_0_1_n_n rfl rfl rfl rfl rfl rfl none v0 v1 p q

/-! ## The pieces of body 1, read at one entry -/

/-- The aggregated block with the bias row added, at (p, c). -/
theorem biased_apply (v0 : Vec Ideal S5000x96 .f32) (v2 : Vec Ideal S1x96 .f32) (p : Fin 5000) (c : Fin 96) :
    Gen.k1_pay3 (F := Ideal) v0 v2 (ix2 p c) = v0 (ix2 p c) + v2 (ix2 0 c) := by
  unfold Gen.k1_pay3
  rw [shapeCast_self, shapeCast_self]
  refine congrArg (fun x => v0 (ix2 p c) + x) ?_
  exact broadcastTo_apply v2 Gen.broadcasts_S1x96_S5000x96 (ix2 p c) (ix2 0 c)
    (fun a => match a with | ⟨0, _⟩ => rfl | ⟨1, _⟩ => rfl)

/-- The piece of 32 columns that starts at column 0, row p. -/
theorem slice0_row (v0 : Vec Ideal S5000x96 .f32) (v2 : Vec Ideal S1x96 .f32) (p : Fin 5000) :
    (fun k : Fin 32 => extractStridedSlice S5000x32 ![0, 0] (Gen.k1_pay3 (F := Ideal) v0 v2) Gen.slices_S5000x96_o0_0_S5000x32 (ix2 p k))
      = fun k => v0 (ix2 p ⟨k.val, by omega⟩) + v2 (ix2 0 ⟨k.val, by omega⟩) :=
  funext fun k =>
    (extractStridedSlice_apply ![0, 0] (Gen.k1_pay3 (F := Ideal) v0 v2) Gen.slices_S5000x96_o0_0_S5000x32 (ix2 p k)
      (ix2 p ⟨k.val, by omega⟩)
      (fun a => match a with
        | ⟨0, _⟩ => by show p.val = 0 + p.val; omega
        | ⟨1, _⟩ => by show k.val = 0 + k.val; omega)).trans
    (biased_apply v0 v2 p ⟨k.val, by omega⟩)

/-- The piece that starts at column 32, row p. -/
theorem slice32_row (v0 : Vec Ideal S5000x96 .f32) (v2 : Vec Ideal S1x96 .f32) (p : Fin 5000) :
    (fun k : Fin 32 => extractStridedSlice S5000x32 ![0, 32] (Gen.k1_pay3 (F := Ideal) v0 v2) Gen.slices_S5000x96_o0_32_S5000x32 (ix2 p k))
      = fun k => v0 (ix2 p ⟨32 + k.val, by omega⟩) + v2 (ix2 0 ⟨32 + k.val, by omega⟩) :=
  funext fun k =>
    (extractStridedSlice_apply ![0, 32] (Gen.k1_pay3 (F := Ideal) v0 v2) Gen.slices_S5000x96_o0_32_S5000x32 (ix2 p k)
      (ix2 p ⟨32 + k.val, by omega⟩)
      (fun a => match a with
        | ⟨0, _⟩ => by show p.val = 0 + p.val; omega
        | ⟨1, _⟩ => by show 32 + k.val = 32 + k.val; rfl)).trans
    (biased_apply v0 v2 p ⟨32 + k.val, by omega⟩)

/-- The piece that starts at column 64, row p. -/
theorem slice64_row (v0 : Vec Ideal S5000x96 .f32) (v2 : Vec Ideal S1x96 .f32) (p : Fin 5000) :
    (fun k : Fin 32 => extractStridedSlice S5000x32 ![0, 64] (Gen.k1_pay3 (F := Ideal) v0 v2) Gen.slices_S5000x96_o0_64_S5000x32 (ix2 p k))
      = fun k => v0 (ix2 p ⟨64 + k.val, by omega⟩) + v2 (ix2 0 ⟨64 + k.val, by omega⟩) :=
  funext fun k =>
    (extractStridedSlice_apply ![0, 64] (Gen.k1_pay3 (F := Ideal) v0 v2) Gen.slices_S5000x96_o0_64_S5000x32 (ix2 p k)
      (ix2 p ⟨64 + k.val, by omega⟩)
      (fun a => match a with
        | ⟨0, _⟩ => by show p.val = 0 + p.val; omega
        | ⟨1, _⟩ => by show 64 + k.val = 64 + k.val; rfl)).trans
    (biased_apply v0 v2 p ⟨64 + k.val, by omega⟩)

/-- Two blocks of 32 columns joined along the columns: row p of the join is the two rows side by side. -/
theorem joined_apply (x₁ x₂ : FVec Ideal S5000x32 .f32) (p : Fin 5000) (k : Fin 64) :
    concatenate S5000x64 1 [⟨S5000x32, x₁⟩, ⟨S5000x32, x₂⟩] Gen.concatenates_S5000x32_S5000x32_S5000x64_d1 (ix2 p k)
      = Cert.Spec.cat (fun k => x₁ (ix2 p k)) (fun k => x₂ (ix2 p k)) k := by
  unfold Cert.Spec.cat
  by_cases h : k.val < 32
  · rw [dif_pos h]
    exact concatenate_pair_apply_left (t := S5000x64) 1 x₁ x₂ Gen.concatenates_S5000x32_S5000x32_S5000x64_d1 (ix2 p k) rfl
      (ix2 p ⟨k.val, h⟩) (fun b => match b with | ⟨0, _⟩ => rfl | ⟨1, _⟩ => rfl)
  · rw [dif_neg h]
    exact concatenate_pair_apply_right (t := S5000x64) 1 x₁ x₂ Gen.concatenates_S5000x32_S5000x32_S5000x64_d1 (ix2 p k) rfl rfl
      (ix2 p ⟨k.val - 32, by omega⟩)
      (fun b hb => match b, hb with
        | ⟨0, _⟩, _ => rfl
        | ⟨1, _⟩, hb => absurd rfl hb)
      (by show k.val - 32 + 32 = k.val; omega)

/-- One dense layer: a 5000×64 block times a 64×32 weight into the zero accumulator, plus the broadcast 1×32 bias,
    at (p, q), is the affine row of the specification. -/
theorem dense64_apply (u : FVec Ideal S5000x64 .f32) (W : FVec Ideal S64x32 .f32) (b : FVec Ideal S1x32 .f32)
    (p : Fin 5000) (q : Fin 32) :
    addf (matmul dot_S5000x64_S64x32_S5000x32_1_0_0_1_n_n none u W (constant (F := Ideal) S5000x32 .f32 0x00000000#32))
        (broadcastTo S5000x32 (shapeCast S1x32 b Gen.shapeCasts_S1x32_S1x32) Gen.broadcasts_S1x32_S5000x32) (ix2 p q)
      = Cert.Spec.affine (fun k => u (ix2 p k)) (fun k j => W (ix2 k j)) (fun j => b (ix2 0 j)) q := by
  rw [shapeCast_self]
  unfold Cert.Spec.affine
  refine (addf_apply _ _ _).trans ?_
  refine congrArg₂ (· + ·) ?_ ?_
  · exact PlainMatmul.matmul_zero_apply dot_S5000x64_S64x32_S5000x32_1_0_0_1_n_n rfl rfl rfl rfl rfl rfl none u W p q
  · exact broadcastTo_apply b Gen.broadcasts_S1x32_S5000x32 (ix2 p q) (ix2 0 q)
      (fun a => match a with | ⟨0, _⟩ => rfl | ⟨1, _⟩ => rfl)

/-- The same layer for a 5000×32 block and a 32×32 weight. -/
theorem dense32_apply (u : FVec Ideal S5000x32 .f32) (W : FVec Ideal S32x32 .f32) (b : FVec Ideal S1x32 .f32)
    (p : Fin 5000) (q : Fin 32) :
    addf (matmul dot_S5000x32_S32x32_S5000x32_1_0_0_1_n_n none u W (constant (F := Ideal) S5000x32 .f32 0x00000000#32))
        (broadcastTo S5000x32 (shapeCast S1x32 b Gen.shapeCasts_S1x32_S1x32) Gen.broadcasts_S1x32_S5000x32) (ix2 p q)
      = Cert.Spec.affine (fun k => u (ix2 p k)) (fun k j => W (ix2 k j)) (fun j => b (ix2 0 j)) q := by
  rw [shapeCast_self]
  unfold Cert.Spec.affine
  refine (addf_apply _ _ _).trans ?_
  refine congrArg₂ (· + ·) ?_ ?_
  · exact PlainMatmul.matmul_zero_apply dot_S5000x32_S32x32_S5000x32_1_0_0_1_n_n rfl rfl rfl rfl rfl rfl none u W p q
  · exact broadcastTo_apply b Gen.broadcasts_S1x32_S5000x32 (ix2 p q) (ix2 0 q)
      (fun a => match a with | ⟨0, _⟩ => rfl | ⟨1, _⟩ => rfl)

/-- A gate over a joined block: logistic of the dense layer of [x | hid], at (p, q). -/
theorem gate_apply (x hid : FVec Ideal S5000x32 .f32) (W : FVec Ideal S64x32 .f32) (b : FVec Ideal S1x32 .f32)
    (p : Fin 5000) (q : Fin 32) :
    logistic (addf (matmul dot_S5000x64_S64x32_S5000x32_1_0_0_1_n_n none
          (concatenate S5000x64 1 [⟨S5000x32, x⟩, ⟨S5000x32, hid⟩] Gen.concatenates_S5000x32_S5000x32_S5000x64_d1) W
          (constant (F := Ideal) S5000x32 .f32 0x00000000#32))
        (broadcastTo S5000x32 (shapeCast S1x32 b Gen.shapeCasts_S1x32_S1x32) Gen.broadcasts_S1x32_S5000x32)) (ix2 p q)
      = Cert.Spec.gate (fun k j => W (ix2 k j)) (fun j => b (ix2 0 j)) (fun k => x (ix2 p k)) (fun k => hid (ix2 p k)) q := by
  unfold Cert.Spec.gate
  refine congrArg Ideal.logistic ?_
  refine (dense64_apply _ W b p q).trans ?_
  exact congrArg (fun u => Cert.Spec.affine u (fun k j => W (ix2 k j)) (fun j => b (ix2 0 j)) q)
    (funext fun k => joined_apply x hid p k)

/-! ## The payloads of body 1, row by row -/

/-- The update gate z at (p, q). -/
theorem pay4_apply (v0 : Vec Ideal S5000x96 .f32) (v2 : Vec Ideal S1x96 .f32) (v9 : Vec Ideal S5000x32 .f32)
    (v11 : Vec Ideal S64x32 .f32) (v13 : Vec Ideal S1x32 .f32) (p : Fin 5000) (q : Fin 32) :
    Gen.k1_pay4 (F := Ideal) v0 v2 v9 v11 v13 (ix2 p q)
      = Cert.Spec.gate (fun k j => v11 (ix2 k j)) (fun j => v13 (ix2 0 j))
          (fun k => v0 (ix2 p ⟨k.val, by omega⟩) + v2 (ix2 0 ⟨k.val, by omega⟩)) (fun k => v9 (ix2 p k)) q := by
  unfold Gen.k1_pay4
  refine (gate_apply _ v9 v11 v13 p q).trans ?_
  exact congrArg (fun c => Cert.Spec.gate (fun k j => v11 (ix2 k j)) (fun j => v13 (ix2 0 j)) c (fun k => v9 (ix2 p k)) q)
    (slice0_row v0 v2 p)

/-- The candidate state h~ at (p, q); the reset gate r sits inside it. -/
theorem pay5_apply (v0 : Vec Ideal S5000x96 .f32) (v2 : Vec Ideal S1x96 .f32) (v9 : Vec Ideal S5000x32 .f32)
    (v19 : Vec Ideal S64x32 .f32) (v21 : Vec Ideal S1x32 .f32) (v28 : Vec Ideal S64x32 .f32) (v30 : Vec Ideal S1x32 .f32)
    (p : Fin 5000) (q : Fin 32) :
    Gen.k1_pay5 (F := Ideal) v0 v2 v9 v19 v21 v28 v30 (ix2 p q)
      = Cert.Spec.cand (fun k j => v28 (ix2 k j)) (fun j => v30 (ix2 0 j))
          (fun k => v0 (ix2 p ⟨64 + k.val, by omega⟩) + v2 (ix2 0 ⟨64 + k.val, by omega⟩)) (fun k => v9 (ix2 p k))
          (Cert.Spec.gate (fun k j => v19 (ix2 k j)) (fun j => v21 (ix2 0 j))
            (fun k => v0 (ix2 p ⟨32 + k.val, by omega⟩) + v2 (ix2 0 ⟨32 + k.val, by omega⟩)) (fun k => v9 (ix2 p k))) q := by
  unfold Gen.k1_pay5
  unfold Cert.Spec.cand
  refine congrArg Ideal.tanh ?_
  refine (dense64_apply _ v28 v30 p q).trans ?_
  refine congrArg (fun u => Cert.Spec.affine u (fun k j => v28 (ix2 k j)) (fun j => v30 (ix2 0 j)) q) ?_
  funext k
  refine (joined_apply _ _ p k).trans ?_
  refine congrArg₂ (fun a b => Cert.Spec.cat a b k) (slice64_row v0 v2 p) ?_
  funext k'
  refine (mulf_apply _ _ _).trans ?_
  refine congrArg (fun x => v9 (ix2 p k') * x) ?_
  refine (gate_apply _ v9 v19 v21 p k').trans ?_
  exact congrArg (fun c => Cert.Spec.gate (fun k j => v19 (ix2 k j)) (fun j => v21 (ix2 0 j)) c (fun k => v9 (ix2 p k)) k')
    (slice32_row v0 v2 p)

/-- The combination z * hid + (1 - z) * h~ of four blocks, at one index. -/
theorem pay1_apply (z h zh one : FVec Ideal S5000x32 .f32) (i : S5000x32.Idx) :
    Gen.k1_pay1 (F := Ideal) z h zh one i = zh i + (one i - z i) * h i := rfl

/-- The new hidden row h' at (p, q). -/
theorem head_h (v0 : Vec Ideal S5000x96 .f32) (v2 : Vec Ideal S1x96 .f32) (v9 : Vec Ideal S5000x32 .f32)
    (v11 v19 v28 : Vec Ideal S64x32 .f32) (v13 v21 v30 : Vec Ideal S1x32 .f32) (p : Fin 5000) (q : Fin 32) :
    Gen.k1_pay1 (F := Ideal) (Gen.k1_pay4 v0 v2 v9 v11 v13) (Gen.k1_pay5 v0 v2 v9 v19 v21 v28 v30)
        (Gen.k1_pay6 v0 v2 v9 v11 v13) Gen.k1_pay7 (ix2 p q)
      = Cert.Spec.hnew (fun k j => v11 (ix2 k j)) (fun j => v13 (ix2 0 j)) (fun k j => v19 (ix2 k j)) (fun j => v21 (ix2 0 j))
          (fun k j => v28 (ix2 k j)) (fun j => v30 (ix2 0 j))
          (fun k => v0 (ix2 p ⟨k.val, by omega⟩) + v2 (ix2 0 ⟨k.val, by omega⟩))
          (fun k => v0 (ix2 p ⟨32 + k.val, by omega⟩) + v2 (ix2 0 ⟨32 + k.val, by omega⟩))
          (fun k => v0 (ix2 p ⟨64 + k.val, by omega⟩) + v2 (ix2 0 ⟨64 + k.val, by omega⟩))
          (fun k => v9 (ix2 p k)) q := by
  refine (pay1_apply _ _ _ _ _).trans ?_
  unfold Cert.Spec.hnew
  have hz := pay4_apply v0 v2 v9 v11 v13 p q
  have hc := pay5_apply v0 v2 v9 v19 v21 v28 v30 p q
  have h6 : Gen.k1_pay6 (F := Ideal) v0 v2 v9 v11 v13 (ix2 p q)
      = Gen.k1_pay4 (F := Ideal) v0 v2 v9 v11 v13 (ix2 p q) * v9 (ix2 p q) := rfl
  have h7 : Gen.k1_pay7 (F := Ideal) (ix2 p q) = Cert.Spec.one := rfl
  rw [h6, h7, hz, hc]

/-- The output row y at (p, q). -/
theorem head_y (v0 : Vec Ideal S5000x96 .f32) (v2 : Vec Ideal S1x96 .f32) (v9 : Vec Ideal S5000x32 .f32)
    (v11 v19 v28 : Vec Ideal S64x32 .f32) (v13 v21 v30 : Vec Ideal S1x32 .f32)
    (v42 : Vec Ideal S32x32 .f32) (v44 : Vec Ideal S1x32 .f32) (p : Fin 5000) (q : Fin 32) :
    Gen.k1_pay2 (F := Ideal) (Gen.k1_pay4 v0 v2 v9 v11 v13) (Gen.k1_pay5 v0 v2 v9 v19 v21 v28 v30)
        (Gen.k1_pay6 v0 v2 v9 v11 v13) Gen.k1_pay7 v42 v44 (ix2 p q)
      = Cert.Spec.yout (fun k j => v11 (ix2 k j)) (fun j => v13 (ix2 0 j)) (fun k j => v19 (ix2 k j)) (fun j => v21 (ix2 0 j))
          (fun k j => v28 (ix2 k j)) (fun j => v30 (ix2 0 j)) (fun k j => v42 (ix2 k j)) (fun j => v44 (ix2 0 j))
          (fun k => v0 (ix2 p ⟨k.val, by omega⟩) + v2 (ix2 0 ⟨k.val, by omega⟩))
          (fun k => v0 (ix2 p ⟨32 + k.val, by omega⟩) + v2 (ix2 0 ⟨32 + k.val, by omega⟩))
          (fun k => v0 (ix2 p ⟨64 + k.val, by omega⟩) + v2 (ix2 0 ⟨64 + k.val, by omega⟩))
          (fun k => v9 (ix2 p k)) q := by
  unfold Gen.k1_pay2
  unfold Cert.Spec.yout
  refine (dense32_apply _ v42 v44 p q).trans ?_
  refine congrArg (fun u => Cert.Spec.affine u (fun k j => v42 (ix2 k j)) (fun j => v44 (ix2 0 j)) q) ?_
  funext k
  refine (maximumf_apply _ _ _).trans ?_
  exact congrArg (fun x => max x Cert.Spec.zero) (head_h v0 v2 v9 v11 v19 v28 v13 v21 v30 p k)

end Cert.KernelIdeal.PayValue

end
-- ==== Proof.KVal0.lean ====
/-
  What the projection region leaves in its result array, at the extended reals: the product of the node features and
  the fused weight matrix, entry by entry.  Grid point t handles rows 10000·t … 10000·t + 9999: its feature block is
  those rows of the feature array, its weight block is the whole weight matrix, and the block it writes back is the
  same rows of the product.  The ten blocks cover the array (row r lies in block r / 10000).
-/
import proofs.«152456_j55130200211791_1_alg».proof.Proof.KIFrame0
import proofs.«152456_j55130200211791_1_alg».proof.Proof.PayValue
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz : (![0, 0] : Fin 2 → Nat) = fun _ => 0 := funext fun a => by fin_cases a <;> rfl

/-- The product of a feature array and a 32×96 weight matrix, entry (n, c): ∑ k, X (n, k) * W (k, c). -/
def proj (X : S100000x32.Idx → EReal) (Wc : S32x96.Idx → EReal) : S100000x96.Idx → EReal :=
  fun i => ∑ k : Fin 32, X (ix2 (i 0) k) * Wc (ix2 k (i 1))

theorem proj_apply (X : S100000x32.Idx → EReal) (Wc : S32x96.Idx → EReal) (n : Fin 100000) (q : Fin 96) :
    proj X Wc (ix2 n q) = ∑ k : Fin 32, X (ix2 n k) * Wc (ix2 k q) := rfl

/-- The printed block index maps over the grid: the feature and result windows move one block of rows per point, the
    weight window stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

theorem point_lt (t : Fin cfg0.N) : t.val < 10 := lt_of_lt_of_eq t.isLt N_0

/-- Row p of block t is row 10000·t + p of the array. -/
theorem row_lt (t : Fin cfg0.N) (p : Fin 10000) : 10000 * t.val + p.val < 100000 := by
  have := point_lt t; have := p.isLt; omega

section
variable (V : (c : Dev nD) → (b : Ref sig .tc) → Buf (Elt Ideal) ((c : Thread nD τ).loc b))

/-- The feature block at point t, entry (p, k), is the feature array's entry (10000·t + p, k). -/
theorem iblk0_0_at (c : Dev nD) (t : Fin cfg0.N) (p : Fin 10000) (k : Fin 32) :
    iblk0 V c 0 t (ix2 p k) = V c main_arg0 (ix2 ⟨10000 * t.val + p.val, row_lt t p⟩ k) := by
  obtain ⟨e0, e1, -, -, -, -⟩ := idx0 t
  unfold iblk0
  show V c main_arg0 (((cfg0.win 0).blk t).view.emb (ix2 p k)) = _
  refine congrArg _ ?_
  funext a; apply Fin.ext
  match a with
  | ⟨0, _⟩ => show win0_0.index t (0 : Fin 2) * 10000 + 1 * p.val = 10000 * t.val + p.val; rw [e0]; omega
  | ⟨1, _⟩ => show win0_0.index t (1 : Fin 2) * 32 + 1 * k.val = k.val; rw [e1]; omega

/-- The weight block at every point is the whole fused weight matrix. -/
theorem iblk0_1_at (c : Dev nD) (t : Fin cfg0.N) (k : Fin 32) (q : Fin 96) :
    iblk0 V c 1 t (ix2 k q) = V c main_v0 (ix2 k q) := by
  obtain ⟨-, -, e2, e3, -, -⟩ := idx0 t
  unfold iblk0
  show V c main_v0 (((cfg0.win 1).blk t).view.emb (ix2 k q)) = _
  refine congrArg _ ?_
  funext a; apply Fin.ext
  match a with
  | ⟨0, _⟩ => show win0_1.index t (0 : Fin 2) * 32 + 1 * k.val = k.val; rw [e2]; omega
  | ⟨1, _⟩ => show win0_1.index t (1 : Fin 2) * 96 + 1 * q.val = q.val; rw [e3]; omega

/-- Entry (p, q) of the result block at point t sits at (10000·t + p, q) in the result array. -/
theorem emb0_2_at (t : Fin cfg0.N) (p : Fin 10000) (q : Fin 96) :
    ((cfg0.win 2).blk t).view.emb (ix2 p q) = ix2 ⟨10000 * t.val + p.val, row_lt t p⟩ q := by
  obtain ⟨-, -, -, -, e4, e5⟩ := idx0 t
  funext a; apply Fin.ext
  match a with
  | ⟨0, _⟩ => show win0_2.index t (0 : Fin 2) * 10000 + 1 * p.val = 10000 * t.val + p.val; rw [e4]; omega
  | ⟨1, _⟩ => show win0_2.index t (1 : Fin 2) * 96 + 1 * q.val = q.val; rw [e5]; omega

/-- What point t writes back is block t of the product of the two arrays as the region finds them. -/
theorem flushed0_eq (c : Dev nD) (t : Fin cfg0.N) :
    (dat0 V c).flushed 2 t = ((cfg0.win 2).blk t).view.read (Elt Ideal) (proj (V c main_arg0) (V c main_v0)) := by
  show (cfg0.win 2).cut (grid0.coords t) ((dat0 V c).after 2 t) = _
  rw [after0_2]
  unfold out0_2
  rw [View.canon_unit_zero hz]
  simp only [View.ld_unit_zero (S := S10000x32) hz, View.ld_unit_zero (S := S32x96) hz]
  funext j
  obtain ⟨p, q, rfl⟩ : ∃ (p : Fin 10000) (q : Fin 96), j = ix2 p q := ⟨j 0, j 1, eq_ix2 j⟩
  refine (PayValue.proj_apply (iblk0 V c 0 t) (iblk0 V c 1 t) p q).trans ?_
  show _ = proj (V c main_arg0) (V c main_v0) (((cfg0.win 2).blk t).view.emb (ix2 p q))
  rw [emb0_2_at t p q, proj_apply]
  exact Finset.sum_congr rfl fun k _ => by rw [iblk0_0_at V c t p k, iblk0_1_at V c t k q]

/-- An index of the result array is in point t's block iff each coordinate is in the block's range on its axis. -/
theorem mem_blk0 (t : Fin cfg0.N) (i : S100000x96.Idx) :
    i ∈ ((cfg0.win 2).blk t).view.set ↔ ∀ a : Fin 2, win0_2.index t a * S10000x96.size a ≤ (i a).val
      ∧ (i a).val < win0_2.index t a * S10000x96.size a + S10000x96.size a := by
  show i ∈ ((View.whole main_v2).slice (win0_2.rect t)).set ↔ _
  rw [View.set_slice_whole, Rect.mem_set_unit]
  exact Iff.rfl

/-- Every entry of the result array lies in some point's block: row r in block r / 10000. -/
theorem cover0 (i : S100000x96.Idx) :
    ∃ t : Fin cfg0.N, (cfg0.win 2).flush t = true ∧ i ∈ ((cfg0.win 2).blk t).view.set := by
  have hi0 : (i 0).val < 100000 := (i 0).isLt
  have hi1 : (i 1).val < 96 := (i 1).isLt
  have hN : (i 0).val / 10000 < cfg0.N := by rw [show cfg0.N = 10 from N_0]; omega
  obtain ⟨-, -, -, -, e4, e5⟩ := idx0 ⟨(i 0).val / 10000, hN⟩
  refine ⟨⟨(i 0).val / 10000, hN⟩, flush0_2 _, ?_⟩
  rw [mem_blk0]
  intro a
  match a with
  | ⟨0, _⟩ =>
    show win0_2.index ⟨(i 0).val / 10000, hN⟩ (0 : Fin 2) * 10000 ≤ (i 0).val
      ∧ (i 0).val < win0_2.index ⟨(i 0).val / 10000, hN⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, hN⟩ (1 : Fin 2) * 96 ≤ (i 1).val
      ∧ (i 1).val < win0_2.index ⟨(i 0).val / 10000, hN⟩ (1 : Fin 2) * 96 + 96
    rw [e5]; omega

/-- The projection region's result array after the region: the product of the feature array and the fused weight
    matrix as the region found them. -/
theorem final0 (c : Dev nD) : (dat0 V c).arrAt 2 cfg0.N = proj (V c main_arg0) (V c main_v0) :=
  (dat0 V c).arrAt_eq_of_cover 2 (proj (V c main_arg0) (V c main_v0)) (fun t _ => flushed0_eq V c t) cover0

end

end Cert.KernelIdeal.Hand

end
-- ==== Proof.KVal1.lean ====
/-
  What the GRU-head region leaves in its two result arrays, at the extended reals: row n of the new hidden state is
  the specification's h' of node n's rows, and row n of the output is the specification's y of them.

  Grid point t handles rows 5000·t … 5000·t + 4999.  Its aggregate block and its hidden block are those rows of the
  aggregate array and of the hidden-state array; the bias rows and the weight matrices are read whole at every point;
  the two blocks it writes back are the same rows of the two result arrays.  So what point t writes back is block t of
  one function of the array index (the head applied to the rows of node 5000·t + p), and since the twenty blocks
  cover the 100000 rows (row r lies in block r / 5000), each result array ends as that function.
-/
import proofs.«152456_j55130200211791_1_alg».proof.Proof.KIFrame1
import proofs.«152456_j55130200211791_1_alg».proof.Proof.PayValue
import proofs.«152456_j55130200211791_1_alg».proof.Proof.Spec
import Idealize.ShloMosaic.Lib.Pipeline.Value
import Idealize.ShloMosaic.Lib.ValueIdx

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

theorem hz1 : (![0, 0] : Fin 2 → Nat) = fun _ => 0 := funext fun a => by fin_cases a <;> rfl

/-! ## The block index maps, decided over the twenty grid points

The aggregate, hidden-state and result windows move one block of 5000 rows per point; every other window stays. -/

theorem idx1_0 : ∀ t : Fin cfg1.N, win1_0.index t (0 : Fin 2) = t.val ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = 0 ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = 0 ∧ win1_5.index t (1 : Fin 2) = 0 :=
  (by decide +kernel : ∀ t : Fin grid1.N, _)

theorem idx1_6 : ∀ t : Fin cfg1.N, win1_6.index t (0 : Fin 2) = 0 ∧ win1_6.index t (1 : Fin 2) = 0 :=
  (by decide +kernel : ∀ t : Fin grid1.N, _)

theorem idx1_7 : ∀ t : Fin cfg1.N, win1_7.index t (0 : Fin 2) = 0 ∧ win1_7.index t (1 : Fin 2) = 0 :=
  (by decide +kernel : ∀ t : Fin grid1.N, _)

theorem idx1_8 : ∀ t : Fin cfg1.N, win1_8.index t (0 : Fin 2) = 0 ∧ win1_8.index t (1 : Fin 2) = 0 :=
  (by decide +kernel : ∀ t : Fin grid1.N, _)

theorem idx1_9 : ∀ t : Fin cfg1.N, win1_9.index t (0 : Fin 2) = 0 ∧ win1_9.index t (1 : Fin 2) = 0 :=
  (by decide +kernel : ∀ t : Fin grid1.N, _)

theorem idx1_10 : ∀ t : Fin cfg1.N, win1_10.index t (0 : Fin 2) = 0 ∧ win1_10.index t (1 : Fin 2) = 0 :=
  (by decide +kernel : ∀ t : Fin grid1.N, _)

theorem idx1_11 : ∀ t : Fin cfg1.N, win1_11.index t (0 : Fin 2) = t.val ∧ win1_11.index t (1 : Fin 2) = 0 :=
  (by decide +kernel : ∀ t : Fin grid1.N, _)

theorem idx1_12 : ∀ t : Fin cfg1.N, win1_12.index t (0 : Fin 2) = t.val ∧ win1_12.index t (1 : Fin 2) = 0 :=
  (by decide +kernel : ∀ t : Fin grid1.N, _)

/-- Row p of block t is row 5000·t + p of the array. -/
theorem row1_lt (t : Fin cfg1.N) (p : Fin 5000) : 5000 * t.val + p.val < 100000 := by
  have := lt_of_lt_of_eq t.isLt Gen.N_1; omega

def rowOf1 (t : Fin cfg1.N) (p : Fin 5000) : Fin 100000 := ⟨5000 * t.val + p.val, row1_lt t p⟩

/-- The head's two rows depend on their arguments only. -/
theorem hnew_congr {Wz Wz' Wr Wr' Wh Wh' : Fin 64 → Fin 32 → EReal} {bz bz' br br' bh bh' cz cz' cr cr' ch ch' hid hid' : Fin 32 → EReal}
    (h1 : Wz = Wz') (h2 : bz = bz') (h3 : Wr = Wr') (h4 : br = br') (h5 : Wh = Wh') (h6 : bh = bh')
    (h7 : cz = cz') (h8 : cr = cr') (h9 : ch = ch') (h10 : hid = hid') (j : Fin 32) :
    Cert.Spec.hnew Wz bz Wr br Wh bh cz cr ch hid j = Cert.Spec.hnew Wz' bz' Wr' br' Wh' bh' cz' cr' ch' hid' j := by
  subst h1 h2 h3 h4 h5 h6 h7 h8 h9 h10; rfl
theorem yout_congr {Wz Wz' Wr Wr' Wh Wh' : Fin 64 → Fin 32 → EReal} {Wl Wl' : Fin 32 → Fin 32 → EReal}
    {bz bz' br br' bh bh' bl bl' cz cz' cr cr' ch ch' hid hid' : Fin 32 → EReal}
    (h1 : Wz = Wz') (h2 : bz = bz') (h3 : Wr = Wr') (h4 : br = br') (h5 : Wh = Wh') (h6 : bh = bh')
    (h11 : Wl = Wl') (h12 : bl = bl')
    (h7 : cz = cz') (h8 : cr = cr') (h9 : ch = ch') (h10 : hid = hid') (j : Fin 32) :
    Cert.Spec.yout Wz bz Wr br Wh bh Wl bl cz cr ch hid j = Cert.Spec.yout Wz' bz' Wr' br' Wh' bh' Wl' bl' cz' cr' ch' hid' j := by
  subst h1 h2 h3 h4 h5 h6 h7 h8 h9 h10 h11 h12; rfl

section
variable (V : (c : Dev nD) → (b : Ref sig .tc) → Buf (Elt Ideal) ((c : Thread nD τ).loc b))

/-! ## The two result arrays as functions of the entry contents -/

/-- The head region's operands as it finds them, each at its array type. -/
abbrev inAgg (c : Dev nD) : S100000x96.Idx → EReal := V c main_v15
abbrev inHid (c : Dev nD) : S100000x32.Idx → EReal := V c main_arg2
abbrev inBias (c : Dev nD) : S1x96.Idx → EReal := V c main_v20
abbrev inWz (c : Dev nD) : S64x32.Idx → EReal := V c main_arg11
abbrev inBz (c : Dev nD) : S1x32.Idx → EReal := V c main_v16
abbrev inWr (c : Dev nD) : S64x32.Idx → EReal := V c main_arg13
abbrev inBr (c : Dev nD) : S1x32.Idx → EReal := V c main_v17
abbrev inWh (c : Dev nD) : S64x32.Idx → EReal := V c main_arg15
abbrev inBh (c : Dev nD) : S1x32.Idx → EReal := V c main_v18
abbrev inWlin (c : Dev nD) : S32x32.Idx → EReal := V c main_arg17
abbrev inBlin (c : Dev nD) : S1x32.Idx → EReal := V c main_v19

/-- The rows the head is applied to at node n: the three pieces of the aggregate row with the bias row added, and
    the hidden row. -/
def czRow (c : Dev nD) (n : Fin 100000) : Fin 32 → EReal := fun k => inAgg V c (ix2 n ⟨k.val, by omega⟩) + inBias V c (ix2 0 ⟨k.val, by omega⟩)
def crRow (c : Dev nD) (n : Fin 100000) : Fin 32 → EReal := fun k => inAgg V c (ix2 n ⟨32 + k.val, by omega⟩) + inBias V c (ix2 0 ⟨32 + k.val, by omega⟩)
def chRow (c : Dev nD) (n : Fin 100000) : Fin 32 → EReal := fun k => inAgg V c (ix2 n ⟨64 + k.val, by omega⟩) + inBias V c (ix2 0 ⟨64 + k.val, by omega⟩)
def hidRow (c : Dev nD) (n : Fin 100000) : Fin 32 → EReal := fun k => inHid V c (ix2 n k)

/-- The new hidden state: entry (n, j) is h' of node n's rows, entry j. -/
def hnewArr (c : Dev nD) : S100000x32.Idx → EReal := fun i =>
  Cert.Spec.hnew (fun k j => inWz V c (ix2 k j)) (fun j => inBz V c (ix2 0 j)) (fun k j => inWr V c (ix2 k j)) (fun j => inBr V c (ix2 0 j))
    (fun k j => inWh V c (ix2 k j)) (fun j => inBh V c (ix2 0 j)) (czRow V c (i 0)) (crRow V c (i 0)) (chRow V c (i 0)) (hidRow V c (i 0)) (i 1)

/-- The output: entry (n, j) is y of node n's rows, entry j. -/
def youtArr (c : Dev nD) : S100000x32.Idx → EReal := fun i =>
  Cert.Spec.yout (fun k j => inWz V c (ix2 k j)) (fun j => inBz V c (ix2 0 j)) (fun k j => inWr V c (ix2 k j)) (fun j => inBr V c (ix2 0 j))
    (fun k j => inWh V c (ix2 k j)) (fun j => inBh V c (ix2 0 j)) (fun k j => inWlin V c (ix2 k j)) (fun j => inBlin V c (ix2 0 j))
    (czRow V c (i 0)) (crRow V c (i 0)) (chRow V c (i 0)) (hidRow V c (i 0)) (i 1)

/-! ## The input blocks, read at an entry -/

theorem iblk1_0_apply (c : Dev nD) (t : Fin cfg1.N) (p : Fin 5000) (q : Fin 96) :
    iblk1 V c 0 t (ix2 p q) = V c main_v15 (ix2 (rowOf1 t p) q) := by
  obtain ⟨e0, e1⟩ := idx1_0 t
  unfold iblk1
  show V c main_v15 (((cfg1.win 0).blk t).view.emb (ix2 p q)) = _
  refine congrArg _ ?_
  funext a; apply Fin.ext
  match a with
  | ⟨0, _⟩ => show win1_0.index t (0 : Fin 2) * 5000 + 1 * p.val = 5000 * t.val + p.val; rw [e0]; omega
  | ⟨1, _⟩ => show win1_0.index t (1 : Fin 2) * 96 + 1 * q.val = q.val; rw [e1]; omega

theorem iblk1_1_apply (c : Dev nD) (t : Fin cfg1.N) (p : Fin 5000) (q : Fin 32) :
    iblk1 V c 1 t (ix2 p q) = V c main_arg2 (ix2 (rowOf1 t p) q) := by
  obtain ⟨e0, e1⟩ := idx1_1 t
  unfold iblk1
  show V c main_arg2 (((cfg1.win 1).blk t).view.emb (ix2 p q)) = _
  refine congrArg _ ?_
  funext a; apply Fin.ext
  match a with
  | ⟨0, _⟩ => show win1_1.index t (0 : Fin 2) * 5000 + 1 * p.val = 5000 * t.val + p.val; rw [e0]; omega
  | ⟨1, _⟩ => show win1_1.index t (1 : Fin 2) * 32 + 1 * q.val = q.val; rw [e1]; omega

theorem iblk1_2_apply (c : Dev nD) (t : Fin cfg1.N) (p : Fin 1) (q : Fin 96) :
    iblk1 V c 2 t (ix2 p q) = V c main_v20 (ix2 p q) := by
  obtain ⟨e0, e1⟩ := idx1_2 t
  unfold iblk1
  show V c main_v20 (((cfg1.win 2).blk t).view.emb (ix2 p q)) = _
  refine congrArg _ ?_
  funext a; apply Fin.ext
  match a with
  | ⟨0, _⟩ => show win1_2.index t (0 : Fin 2) * 1 + 1 * p.val = p.val; rw [e0]; omega
  | ⟨1, _⟩ => show win1_2.index t (1 : Fin 2) * 96 + 1 * q.val = q.val; rw [e1]; omega

theorem iblk1_3_apply (c : Dev nD) (t : Fin cfg1.N) (p : Fin 64) (q : Fin 32) :
    iblk1 V c 3 t (ix2 p q) = V c main_arg11 (ix2 p q) := by
  obtain ⟨e0, e1⟩ := idx1_3 t
  unfold iblk1
  show V c main_arg11 (((cfg1.win 3).blk t).view.emb (ix2 p q)) = _
  refine congrArg _ ?_
  funext a; apply Fin.ext
  match a with
  | ⟨0, _⟩ => show win1_3.index t (0 : Fin 2) * 64 + 1 * p.val = p.val; rw [e0]; omega
  | ⟨1, _⟩ => show win1_3.index t (1 : Fin 2) * 32 + 1 * q.val = q.val; rw [e1]; omega

theorem iblk1_4_apply (c : Dev nD) (t : Fin cfg1.N) (p : Fin 1) (q : Fin 32) :
    iblk1 V c 4 t (ix2 p q) = V c main_v16 (ix2 p q) := by
  obtain ⟨e0, e1⟩ := idx1_4 t
  unfold iblk1
  show V c main_v16 (((cfg1.win 4).blk t).view.emb (ix2 p q)) = _
  refine congrArg _ ?_
  funext a; apply Fin.ext
  match a with
  | ⟨0, _⟩ => show win1_4.index t (0 : Fin 2) * 1 + 1 * p.val = p.val; rw [e0]; omega
  | ⟨1, _⟩ => show win1_4.index t (1 : Fin 2) * 32 + 1 * q.val = q.val; rw [e1]; omega

theorem iblk1_5_apply (c : Dev nD) (t : Fin cfg1.N) (p : Fin 64) (q : Fin 32) :
    iblk1 V c 5 t (ix2 p q) = V c main_arg13 (ix2 p q) := by
  obtain ⟨e0, e1⟩ := idx1_5 t
  unfold iblk1
  show V c main_arg13 (((cfg1.win 5).blk t).view.emb (ix2 p q)) = _
  refine congrArg _ ?_
  funext a; apply Fin.ext
  match a with
  | ⟨0, _⟩ => show win1_5.index t (0 : Fin 2) * 64 + 1 * p.val = p.val; rw [e0]; omega
  | ⟨1, _⟩ => show win1_5.index t (1 : Fin 2) * 32 + 1 * q.val = q.val; rw [e1]; omega

theorem iblk1_6_apply (c : Dev nD) (t : Fin cfg1.N) (p : Fin 1) (q : Fin 32) :
    iblk1 V c 6 t (ix2 p q) = V c main_v17 (ix2 p q) := by
  obtain ⟨e0, e1⟩ := idx1_6 t
  unfold iblk1
  show V c main_v17 (((cfg1.win 6).blk t).view.emb (ix2 p q)) = _
  refine congrArg _ ?_
  funext a; apply Fin.ext
  match a with
  | ⟨0, _⟩ => show win1_6.index t (0 : Fin 2) * 1 + 1 * p.val = p.val; rw [e0]; omega
  | ⟨1, _⟩ => show win1_6.index t (1 : Fin 2) * 32 + 1 * q.val = q.val; rw [e1]; omega

theorem iblk1_7_apply (c : Dev nD) (t : Fin cfg1.N) (p : Fin 64) (q : Fin 32) :
    iblk1 V c 7 t (ix2 p q) = V c main_arg15 (ix2 p q) := by
  obtain ⟨e0, e1⟩ := idx1_7 t
  unfold iblk1
  show V c main_arg15 (((cfg1.win 7).blk t).view.emb (ix2 p q)) = _
  refine congrArg _ ?_
  funext a; apply Fin.ext
  match a with
  | ⟨0, _⟩ => show win1_7.index t (0 : Fin 2) * 64 + 1 * p.val = p.val; rw [e0]; omega
  | ⟨1, _⟩ => show win1_7.index t (1 : Fin 2) * 32 + 1 * q.val = q.val; rw [e1]; omega

theorem iblk1_8_apply (c : Dev nD) (t : Fin cfg1.N) (p : Fin 1) (q : Fin 32) :
    iblk1 V c 8 t (ix2 p q) = V c main_v18 (ix2 p q) := by
  obtain ⟨e0, e1⟩ := idx1_8 t
  unfold iblk1
  show V c main_v18 (((cfg1.win 8).blk t).view.emb (ix2 p q)) = _
  refine congrArg _ ?_
  funext a; apply Fin.ext
  match a with
  | ⟨0, _⟩ => show win1_8.index t (0 : Fin 2) * 1 + 1 * p.val = p.val; rw [e0]; omega
  | ⟨1, _⟩ => show win1_8.index t (1 : Fin 2) * 32 + 1 * q.val = q.val; rw [e1]; omega

theorem iblk1_9_apply (c : Dev nD) (t : Fin cfg1.N) (p : Fin 32) (q : Fin 32) :
    iblk1 V c 9 t (ix2 p q) = V c main_arg17 (ix2 p q) := by
  obtain ⟨e0, e1⟩ := idx1_9 t
  unfold iblk1
  show V c main_arg17 (((cfg1.win 9).blk t).view.emb (ix2 p q)) = _
  refine congrArg _ ?_
  funext a; apply Fin.ext
  match a with
  | ⟨0, _⟩ => show win1_9.index t (0 : Fin 2) * 32 + 1 * p.val = p.val; rw [e0]; omega
  | ⟨1, _⟩ => show win1_9.index t (1 : Fin 2) * 32 + 1 * q.val = q.val; rw [e1]; omega

theorem iblk1_10_apply (c : Dev nD) (t : Fin cfg1.N) (p : Fin 1) (q : Fin 32) :
    iblk1 V c 10 t (ix2 p q) = V c main_v19 (ix2 p q) := by
  obtain ⟨e0, e1⟩ := idx1_10 t
  unfold iblk1
  show V c main_v19 (((cfg1.win 10).blk t).view.emb (ix2 p q)) = _
  refine congrArg _ ?_
  funext a; apply Fin.ext
  match a with
  | ⟨0, _⟩ => show win1_10.index t (0 : Fin 2) * 1 + 1 * p.val = p.val; rw [e0]; omega
  | ⟨1, _⟩ => show win1_10.index t (1 : Fin 2) * 32 + 1 * q.val = q.val; rw [e1]; omega

/-! ## What a point writes back -/

/-- Entry (p, q) of result block t sits at row 5000·t + p, column q of the array. -/
theorem emb1_12 (t : Fin cfg1.N) (p : Fin 5000) (q : Fin 32) :
    ((cfg1.win 12).blk t).view.emb (ix2 p q) = ix2 (rowOf1 t p) q := by
  obtain ⟨e0, e1⟩ := idx1_12 t
  funext a; apply Fin.ext
  match a with
  | ⟨0, _⟩ => show win1_12.index t (0 : Fin 2) * 5000 + 1 * p.val = 5000 * t.val + p.val; rw [e0]; omega
  | ⟨1, _⟩ => show win1_12.index t (1 : Fin 2) * 32 + 1 * q.val = q.val; rw [e1]; omega

/-- Entry (p, q) of result block t sits at row 5000·t + p, column q of the array. -/
theorem emb1_11 (t : Fin cfg1.N) (p : Fin 5000) (q : Fin 32) :
    ((cfg1.win 11).blk t).view.emb (ix2 p q) = ix2 (rowOf1 t p) q := by
  obtain ⟨e0, e1⟩ := idx1_11 t
  funext a; apply Fin.ext
  match a with
  | ⟨0, _⟩ => show win1_11.index t (0 : Fin 2) * 5000 + 1 * p.val = 5000 * t.val + p.val; rw [e0]; omega
  | ⟨1, _⟩ => show win1_11.index t (1 : Fin 2) * 32 + 1 * q.val = q.val; rw [e1]; omega

/-- Row p of the blocks at point t is node 5000·t + p's rows. -/
theorem czRow_blk (c : Dev nD) (t : Fin cfg1.N) (p : Fin 5000) :
    (fun k : Fin 32 => HAdd.hAdd (α := EReal) (β := EReal) (γ := EReal) (iblk1 V c 0 t (ix2 p ⟨k.val, by omega⟩)) (iblk1 V c 2 t (ix2 0 ⟨k.val, by omega⟩)))
      = czRow V c (rowOf1 t p) :=
  funext fun k => congrArg₂ (HAdd.hAdd (α := EReal) (β := EReal) (γ := EReal)) (iblk1_0_apply V c t p ⟨k.val, by omega⟩) (iblk1_2_apply V c t 0 ⟨k.val, by omega⟩)
theorem crRow_blk (c : Dev nD) (t : Fin cfg1.N) (p : Fin 5000) :
    (fun k : Fin 32 => HAdd.hAdd (α := EReal) (β := EReal) (γ := EReal) (iblk1 V c 0 t (ix2 p ⟨32 + k.val, by omega⟩)) (iblk1 V c 2 t (ix2 0 ⟨32 + k.val, by omega⟩)))
      = crRow V c (rowOf1 t p) :=
  funext fun k => congrArg₂ (HAdd.hAdd (α := EReal) (β := EReal) (γ := EReal)) (iblk1_0_apply V c t p ⟨32 + k.val, by omega⟩) (iblk1_2_apply V c t 0 ⟨32 + k.val, by omega⟩)
theorem chRow_blk (c : Dev nD) (t : Fin cfg1.N) (p : Fin 5000) :
    (fun k : Fin 32 => HAdd.hAdd (α := EReal) (β := EReal) (γ := EReal) (iblk1 V c 0 t (ix2 p ⟨64 + k.val, by omega⟩)) (iblk1 V c 2 t (ix2 0 ⟨64 + k.val, by omega⟩)))
      = chRow V c (rowOf1 t p) :=
  funext fun k => congrArg₂ (HAdd.hAdd (α := EReal) (β := EReal) (γ := EReal)) (iblk1_0_apply V c t p ⟨64 + k.val, by omega⟩) (iblk1_2_apply V c t 0 ⟨64 + k.val, by omega⟩)
theorem hidRow_blk (c : Dev nD) (t : Fin cfg1.N) (p : Fin 5000) :
    (fun k : Fin 32 => iblk1 V c 1 t (ix2 p k)) = hidRow V c (rowOf1 t p) :=
  funext fun k => iblk1_1_apply V c t p k

/-- What point t writes back to the hidden-state result is block t of hnewArr. -/
theorem flushed1_12_eq (c : Dev nD) (t : Fin cfg1.N) :
    (dat1 V c).flushed 12 t = ((cfg1.win 12).blk t).view.read (Elt Ideal) (hnewArr V c) := by
  show (cfg1.win 12).cut (grid1.coords t) ((dat1 V c).after 12 t) = _
  rw [after1_12]
  unfold out1_12
  rw [View.canon_unit_zero hz1]
  simp only [View.ld_unit_zero (S := S5000x96) hz1, View.ld_unit_zero (S := S5000x32) hz1, View.ld_unit_zero (S := S1x96) hz1,
    View.ld_unit_zero (S := S64x32) hz1, View.ld_unit_zero (S := S1x32) hz1, View.ld_unit_zero (S := S32x32) hz1]
  funext j
  obtain ⟨p, q, rfl⟩ : ∃ (p : Fin 5000) (q : Fin 32), j = ix2 p q := ⟨j 0, j 1, eq_ix2 j⟩
  refine (PayValue.head_h (iblk1 V c 0 t) (iblk1 V c 2 t) (iblk1 V c 1 t) (iblk1 V c 3 t) (iblk1 V c 5 t) (iblk1 V c 7 t)
    (iblk1 V c 4 t) (iblk1 V c 6 t) (iblk1 V c 8 t) p q).trans ?_
  show _ = hnewArr V c (((cfg1.win 12).blk t).view.emb (ix2 p q))
  rw [emb1_12]
  exact hnew_congr (funext fun k => funext fun j => iblk1_3_apply V c t k j) (funext fun j => iblk1_4_apply V c t 0 j)
    (funext fun k => funext fun j => iblk1_5_apply V c t k j) (funext fun j => iblk1_6_apply V c t 0 j)
    (funext fun k => funext fun j => iblk1_7_apply V c t k j) (funext fun j => iblk1_8_apply V c t 0 j)
    (czRow_blk V c t p) (crRow_blk V c t p) (chRow_blk V c t p) (hidRow_blk V c t p) q

/-- What point t writes back to the output result is block t of youtArr. -/
theorem flushed1_11_eq (c : Dev nD) (t : Fin cfg1.N) :
    (dat1 V c).flushed 11 t = ((cfg1.win 11).blk t).view.read (Elt Ideal) (youtArr V c) := by
  show (cfg1.win 11).cut (grid1.coords t) ((dat1 V c).after 11 t) = _
  rw [after1_11]
  unfold out1_11
  rw [View.canon_unit_zero hz1]
  simp only [View.ld_unit_zero (S := S5000x96) hz1, View.ld_unit_zero (S := S5000x32) hz1, View.ld_unit_zero (S := S1x96) hz1,
    View.ld_unit_zero (S := S64x32) hz1, View.ld_unit_zero (S := S1x32) hz1, View.ld_unit_zero (S := S32x32) hz1]
  funext j
  obtain ⟨p, q, rfl⟩ : ∃ (p : Fin 5000) (q : Fin 32), j = ix2 p q := ⟨j 0, j 1, eq_ix2 j⟩
  refine (PayValue.head_y (iblk1 V c 0 t) (iblk1 V c 2 t) (iblk1 V c 1 t) (iblk1 V c 3 t) (iblk1 V c 5 t) (iblk1 V c 7 t)
    (iblk1 V c 4 t) (iblk1 V c 6 t) (iblk1 V c 8 t) (iblk1 V c 9 t) (iblk1 V c 10 t) p q).trans ?_
  show _ = youtArr V c (((cfg1.win 11).blk t).view.emb (ix2 p q))
  rw [emb1_11]
  exact yout_congr (funext fun k => funext fun j => iblk1_3_apply V c t k j) (funext fun j => iblk1_4_apply V c t 0 j)
    (funext fun k => funext fun j => iblk1_5_apply V c t k j) (funext fun j => iblk1_6_apply V c t 0 j)
    (funext fun k => funext fun j => iblk1_7_apply V c t k j) (funext fun j => iblk1_8_apply V c t 0 j)
    (funext fun k => funext fun j => iblk1_9_apply V c t k j) (funext fun j => iblk1_10_apply V c t 0 j)
    (czRow_blk V c t p) (crRow_blk V c t p) (chRow_blk V c t p) (hidRow_blk V c t p) q

/-! ## The blocks cover the arrays -/

/-- An index of the array is in point t's block iff each coordinate is in the block's range on its axis. -/
theorem mem_blk1_12 (t : Fin cfg1.N) (i : S100000x32.Idx) :
    i ∈ ((cfg1.win 12).blk t).view.set ↔ ∀ a : Fin 2, win1_12.index t a * S5000x32.size a ≤ (i a).val ∧ (i a).val < win1_12.index t a * S5000x32.size a + S5000x32.size a := by
  show i ∈ ((View.whole main_v21_1).slice (win1_12.rect t)).set ↔ _
  rw [View.set_slice_whole, Rect.mem_set_unit]
  exact Iff.rfl

/-- Every row lies in some point's block: row r in block r / 5000. -/
theorem covered1_12 (i : S100000x32.Idx) :
    ∃ t : Fin cfg1.N, (cfg1.win 12).flush t = true ∧ i ∈ ((cfg1.win 12).blk t).view.set := by
  have hi0 : (i 0).val < 100000 := (i 0).isLt
  have hi1 : (i 1).val < 32 := (i 1).isLt
  have hN : cfg1.N = 20 := Gen.N_1
  have ht : (i 0).val / 5000 < cfg1.N := by rw [hN]; omega
  refine ⟨⟨(i 0).val / 5000, ht⟩, Gen.flush1_12 _, ?_⟩
  obtain ⟨e0, e1⟩ := idx1_12 ⟨(i 0).val / 5000, ht⟩
  rw [mem_blk1_12]
  intro a
  match a with
  | ⟨0, _⟩ =>
    show win1_12.index ⟨(i 0).val / 5000, ht⟩ (0 : Fin 2) * 5000 ≤ (i 0).val ∧ (i 0).val < win1_12.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_12.index ⟨(i 0).val / 5000, ht⟩ (1 : Fin 2) * 32 ≤ (i 1).val ∧ (i 1).val < win1_12.index ⟨(i 0).val / 5000, ht⟩ (1 : Fin 2) * 32 + 32
    rw [e1]; omega

/-- An index of the array is in point t's block iff each coordinate is in the block's range on its axis. -/
theorem mem_blk1_11 (t : Fin cfg1.N) (i : S100000x32.Idx) :
    i ∈ ((cfg1.win 11).blk t).view.set ↔ ∀ a : Fin 2, win1_11.index t a * S5000x32.size a ≤ (i a).val ∧ (i a).val < win1_11.index t a * S5000x32.size a + S5000x32.size a := by
  show i ∈ ((View.whole main_v21_0).slice (win1_11.rect t)).set ↔ _
  rw [View.set_slice_whole, Rect.mem_set_unit]
  exact Iff.rfl

/-- Every row lies in some point's block: row r in block r / 5000. -/
theorem covered1_11 (i : S100000x32.Idx) :
    ∃ t : Fin cfg1.N, (cfg1.win 11).flush t = true ∧ i ∈ ((cfg1.win 11).blk t).view.set := by
  have hi0 : (i 0).val < 100000 := (i 0).isLt
  have hi1 : (i 1).val < 32 := (i 1).isLt
  have hN : cfg1.N = 20 := Gen.N_1
  have ht : (i 0).val / 5000 < cfg1.N := by rw [hN]; omega
  refine ⟨⟨(i 0).val / 5000, ht⟩, Gen.flush1_11 _, ?_⟩
  obtain ⟨e0, e1⟩ := idx1_11 ⟨(i 0).val / 5000, ht⟩
  rw [mem_blk1_11]
  intro a
  match a with
  | ⟨0, _⟩ =>
    show win1_11.index ⟨(i 0).val / 5000, ht⟩ (0 : Fin 2) * 5000 ≤ (i 0).val ∧ (i 0).val < win1_11.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win1_11.index ⟨(i 0).val / 5000, ht⟩ (1 : Fin 2) * 32 ≤ (i 1).val ∧ (i 1).val < win1_11.index ⟨(i 0).val / 5000, ht⟩ (1 : Fin 2) * 32 + 32
    rw [e1]; omega

/-! ## The two result arrays after the region -/

/-- The hidden-state result array after the region: h' of every node. -/
theorem final1_12 (c : Dev nD) : (dat1 V c).arrAt 12 cfg1.N = hnewArr V c :=
  (dat1 V c).arrAt_eq_of_cover 12 (hnewArr V c) (fun t _ => flushed1_12_eq V c t) covered1_12

/-- The output result array after the region: y of every node. -/
theorem final1_11 (c : Dev nD) : (dat1 V c).arrAt 11 cfg1.N = youtArr V c :=
  (dat1 V c).arrAt_eq_of_cover 11 (youtArr V c) (fun t _ => flushed1_11_eq V c t) covered1_11

end

end Cert.KernelIdeal.Hand

end
-- ==== Proof.LibRowGatherScatter.lean ====
/-
  ROW GATHER AND ROW SCATTER READ AT AN INDEX. A general lemma file: it names no program.

  What `x[idx]` of the ROWS of a matrix `x : [N, C]` at a column of integer indices `idx : [R, 1]` lowers to is a
  `stablehlo.gather` with offset_dims `[1]`, collapsed_slice_dims `[0]`, start_index_map `[0]`, index_vector_dim 1 and
  slice_sizes `[1, C]`; result element `(e, j)` is `x` at `(r, j)`, where `r` is the start index `idx[e, 0]` read as a
  signed integer and clamped into `[0, N − 1]` (`rowOf`, `rowGather_apply`). The same with a vector `x : [N]` in place
  of the matrix (`vecGather_apply`). The matching row scatter (update_window_dims `[1]`, inserted_window_dims `[0]`,
  scatter_dims_to_operand_dims `[0]`, index_vector_dim 1) sends update element `(e, j)` to `(idx[e, 0], j)`, the index
  read signed and NOT clamped, and drops it when that is outside the operand: so an update that lands at `(r, k)` has
  `idx[e, 0] = r` and `j = k` (`rowScatter_lands`), and, the landing row being inside `[0, N)`, the gather's clamp of
  that same index does nothing: the row the gather reads for entry `e` is the row the scatter writes (`rowOf_of_lands`).
-/
import Idealize.ShloMosaic.PureOps.Ideal
import Idealize.ShloMosaic.Lib.ValueIdx

noncomputable section

namespace Idealize.ShloMosaic.RowOps

open Idealize.ShloMosaic Idealize.ShloMosaic.ValueIdx

/-! ## Gathering rows of a matrix -/

/-- The dimension numbers of a gather of ROWS: operand `[N, C]`, start indices `[R, 1]` (one row number per entry),
    result `[R, C]`; axis 0 of the operand is collapsed and indexed, axis 1 is copied whole. Their conditions `wf` are
    decided on a program's literal shapes. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The row an entry of the start indices names: read signed, clamped into `[0, N − 1]`. -/
def rowOf {R w : Nat} (N : Nat) (hN : 0 < N) (idx : IVec ⟨2, ![R, 1]⟩ w) (e : Fin R) : Fin N :=
  ⟨min (idx (ix2 e 0)).toInt.toNat (N - 1), by omega⟩

/-- THE ROW GATHER READ AT `(e, j)`: the operand at row `rowOf idx e`, column `j`. -/
theorem rowGather_apply {α : Type} {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowGatherDims N R C wf) x idx (ix2 e j) = x (ix2 (rowOf N hN idx e) j) := by
  unfold Host.gather
  congr 1
  funext a
  refine Fin.ext ?_
  show (rowGatherDims N R C wf).start (ix2 e j) idx a + (rowGatherDims N R C wf).batchCoord (ix2 e j) a
    + (rowGatherDims N R C wf).offCoord (ix2 e j) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N R C wf).startIndexMap from List.mem_singleton.mpr rfl)]
    have hsi : (rowGatherDims N R C wf).siIdx (ix2 e j)
        ⟨List.idxOf (⟨0, by decide⟩ : Fin 2) (rowGatherDims N R C wf).startIndexMap,
          List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    have h10 : (⟨1, by decide⟩ : Fin 2) ∉ ([0] : List (Fin 2)) := by decide
    have h1 : (⟨1, by decide⟩ : Fin 2) ∉ (rowGatherDims N R C wf).startIndexMap := h10
    have hk : (⟨1, by decide⟩ : Fin 2) ∈ (rowGatherDims N R C wf).sKept :=
      (GatherDims.mem_sKept _ _).mpr ⟨h10, List.not_mem_nil⟩
    unfold GatherDims.start GatherDims.offCoord
    rw [dif_neg h1, dif_pos hk]
    simp only [Nat.zero_add, Nat.add_zero]
    rfl

/-! ## Gathering entries of a vector at the same column of indices -/

/-- The dimension numbers of the same gather over a VECTOR operand `[N]`: start indices `[R, 1]`, result `[R]`; the
    operand's one axis is collapsed and indexed. Their conditions `wf` are decided on a program's literal shapes. -/
abbrev vecGatherDims (N R : Nat)
    (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE VECTOR GATHER READ AT `e`: the operand at `rowOf idx e`, the same clamped signed reading of `idx[e, 0]`. -/
theorem vecGather_apply {α : Type} {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) :
    Host.gather (vecGatherDims N R wf) x idx (ix1 e) = x (ix1 (rowOf N hN idx e)) := by
  unfold Host.gather
  congr 1
  funext a
  obtain rfl : a = 0 := Subsingleton.elim _ _
  refine Fin.ext ?_
  show (vecGatherDims N R wf).start (ix1 e) idx 0 + (vecGatherDims N R wf).batchCoord (ix1 e) 0
    + (vecGatherDims N R wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 e) ⟨List.idxOf (0 : Fin 1) (vecGatherDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows into a matrix -/

/-- The dimension numbers of the matching scatter of ROWS: operand `[N, C]`, scatter indices `[R, 1]`, updates
    `[R, C]`; update row `e` goes to operand row `idx[e, 0]`, column by column. Their conditions `wf` are decided on
    a program's literal shapes. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- WHERE A ROW SCATTER LANDS: an update element `(e, j)` that lands at `(r, k)` has its scatter index `idx[e, 0]`, read
    signed, equal to `r`, and `j = k`. -/
theorem rowScatter_lands {N R C w : Nat}
    (wf : ScatterDims.WF ⟨2, ![N, C]⟩ ⟨2, ![R, 1]⟩ ⟨2, ![R, C]⟩ [1] [0] [0] 1)
    (idx : IVec ⟨2, ![R, 1]⟩ w) (u : (⟨2, ![R, C]⟩ : Shape).Idx) (i : (⟨2, ![N, C]⟩ : Shape).Idx)
    (h : (rowScatterDims N R C wf).resultIdx? u idx = some i) :
    (idx (ix2 ⟨(u 0).val, idx2_lt0 u⟩ 0)).toInt = ((i 0).val : Int) ∧ (u 1).val = (i 1).val := by
  have h10 : (1 : Fin 2) ∉ ([0] : List (Fin 2)) := by decide
  have h00 : (0 : Fin 2) ∈ ([0] : List (Fin 2)) := List.mem_singleton.mpr rfl
  -- the scatter-indices entry update element `u` reads: row `u 0`, the one component
  have hsi : (rowScatterDims N R C wf).siIdx u
      ⟨List.idxOf (0 : Fin 2) (rowScatterDims N R C wf).scatterDimsToOperandDims,
        List.idxOf_lt_length_iff.2 h00⟩ = ix2 ⟨(u 0).val, idx2_lt0 u⟩ 0 := by
    funext b; refine Fin.ext ?_
    match b with
    | ⟨0, _⟩ => rfl
    | ⟨1, _⟩ => rfl
  -- axis 0: the start is the index read signed, the window coordinate is 0 (the axis is inserted)
  have hs0 : (rowScatterDims N R C wf).start u idx (0 : Fin 2) = (idx (ix2 ⟨(u 0).val, idx2_lt0 u⟩ 0)).toInt := by
    unfold ScatterDims.start
    rw [dif_pos (show (0 : Fin 2) ∈ (rowScatterDims N R C wf).scatterDimsToOperandDims from h00), hsi]
  have hw0 : (rowScatterDims N R C wf).window u (0 : Fin 2) = 0 := by
    unfold ScatterDims.window
    rw [dif_neg]
    intro hk
    have : (0 : Fin 2) ∉ ([0] : List (Fin 2)) := by
      simpa [ScatterDims.sKept, Shape.kept, List.mem_filter] using hk
    exact this h00
  -- axis 1: the start is 0 (the map does not name it), the window coordinate is the update's column
  have hs1 : (rowScatterDims N R C wf).start u idx (1 : Fin 2) = 0 := by
    unfold ScatterDims.start
    rw [dif_neg (show (1 : Fin 2) ∉ (rowScatterDims N R C wf).scatterDimsToOperandDims from h10)]
  have hw1 : (rowScatterDims N R C wf).window u (1 : Fin 2) = (u 1).val := by
    unfold ScatterDims.window
    rw [dif_pos (show (1 : Fin 2) ∈ (rowScatterDims N R C wf).sKept by
      simp [ScatterDims.sKept, Shape.kept, List.mem_filter])]
    rfl
  unfold ScatterDims.resultIdx? at h
  split at h
  · rename_i hc
    have hi := Option.some.inj h
    subst hi
    have c0 := (hc (0 : Fin 2)).1
    rw [hs0, hw0] at c0
    refine ⟨?_, ?_⟩
    · show _ = (((((rowScatterDims N R C wf).start u idx (0 : Fin 2)
        + ((rowScatterDims N R C wf).window u (0 : Fin 2) : Nat) : Int)).toNat : Nat) : Int)
      rw [hs0, hw0]
      omega
    · show _ = ((rowScatterDims N R C wf).start u idx (1 : Fin 2)
        + ((rowScatterDims N R C wf).window u (1 : Fin 2) : Nat) : Int).toNat
      rw [hs1, hw1]
      omega
  · exact absurd h (by simp)

/-- THE GATHER'S ROW IS THE SCATTER'S ROW: when update element `u` lands at `i` under the scatter indices `idx`, and
    `idx'` agrees with `idx` at `u`'s entry whenever that entry is not negative (as an index array wrapped pointwise for
    negative entries does), the row the gather reads for that entry off `idx'` is the landing row `i 0`: the landing
    row is inside `[0, N)`, so the clamp does nothing. -/
theorem rowOf_of_lands {N R C w : Nat} (hN : 0 < N)
    (wf : ScatterDims.WF ⟨2, ![N, C]⟩ ⟨2, ![R, 1]⟩ ⟨2, ![R, C]⟩ [1] [0] [0] 1)
    (idx idx' : IVec ⟨2, ![R, 1]⟩ w) (u : (⟨2, ![R, C]⟩ : Shape).Idx) (i : (⟨2, ![N, C]⟩ : Shape).Idx)
    (h : (rowScatterDims N R C wf).resultIdx? u idx = some i)
    (hsame : 0 ≤ (idx (ix2 ⟨(u 0).val, idx2_lt0 u⟩ 0)).toInt →
      idx' (ix2 ⟨(u 0).val, idx2_lt0 u⟩ 0) = idx (ix2 ⟨(u 0).val, idx2_lt0 u⟩ 0)) :
    (rowOf N hN idx' ⟨(u 0).val, idx2_lt0 u⟩).val = (i 0).val := by
  obtain ⟨h0, _⟩ := rowScatter_lands wf idx u i h
  have hs := hsame (by rw [h0]; exact Int.natCast_nonneg _)
  have hlt := idx2_lt0 i
  show min (idx' (ix2 ⟨(u 0).val, idx2_lt0 u⟩ 0)).toInt.toNat (N - 1) = (i 0).val
  rw [hs, h0]
  omega

end Idealize.ShloMosaic.RowOps

end
-- ==== Proof.LibScatterAddAt.lean ====
/-
  A general lemma file (it names no kernel). The exact scatter-add read at an element: the operand's entry plus the sum of the updates over the LANDING SET of
  that element (the updates whose result index is the element), the landing set kept as a named finite set with its
  membership rule, so that two scatter-adds with the same dimension numbers and index array are compared as sums over
  one and the same set. And the congruence of the scatter-add in its four arguments.
-/
import Idealize.ShloMosaic.PureOps.Ideal

noncomputable section

open scoped BigOperators

namespace Idealize.ShloMosaic.ScatterAddAt

open Idealize.ShloMosaic

theorem hostScatterAdd_congr {s si su : Shape} {w : Nat} {d d' : ScatterDims s si su} {x x' : s.Idx → EReal}
    {idx idx' : IVec si w} {u u' : su.Idx → EReal} (hd : d = d') (hx : x = x') (hi : idx = idx') (hu : u = u') :
    Ideal.hostScatterAdd d x idx u = Ideal.hostScatterAdd d' x' idx' u' := by
  subst hd hx hi hu
  rfl

open Classical in
/-- The updates that land on element i. -/
def landing {s si su : Shape} {w : Nat} (d : ScatterDims s si su) (idx : IVec si w) (i : s.Idx) : Finset su.Idx :=
  Finset.univ.filter (fun j => d.resultIdx? j idx = some i)

theorem mem_landing {s si su : Shape} {w : Nat} (d : ScatterDims s si su) (idx : IVec si w) (i : s.Idx) (j : su.Idx) :
    j ∈ landing d idx i ↔ d.resultIdx? j idx = some i := by
  unfold landing
  simp only [Finset.mem_filter, Finset.mem_univ, true_and]

/-- The exact scatter-add at element i: the operand there plus the updates landing there. -/
theorem hostScatterAdd_apply {s si su : Shape} {w : Nat} (d : ScatterDims s si su) (x : s.Idx → EReal) (idx : IVec si w)
    (u : su.Idx → EReal) (i : s.Idx) :
    Ideal.hostScatterAdd d x idx u i = x i + ∑ j ∈ landing d idx i, u j := by
  unfold Ideal.hostScatterAdd landing
  refine congrArg (x i + ·) (Finset.sum_congr ?_ fun _ _ => rfl)
  ext j
  simp only [Finset.mem_filter, Finset.mem_univ, true_and]

/-- The same for the host operation at the ideal instance. -/
theorem host_scatterAdd_apply {s si su : Shape} {w : Nat} {φ : FTy} (d : ScatterDims s si su) (x : FVec Ideal s φ) (idx : IVec si w)
    (u : FVec Ideal su φ) (i : s.Idx) :
    Host.scatterAdd (F := Ideal) d x idx u i = x i + ∑ j ∈ landing d idx i, u j :=
  hostScatterAdd_apply d x idx u i

attribute [irreducible] landing

end Idealize.ShloMosaic.ScatterAddAt

end
-- ==== Proof.LibRowScatterCols.lean ====
/-
  A general lemma file (it names no kernel): where a row scatter lands, as an equivalence, and the transport of a row
  scatter-add between two column widths.

  The row scatter (update row e goes to operand row idx[e, 0], column by column) sends update element (e, c) to
  (r, k) exactly when idx[e, 0], read signed, is r and c = k.  So the updates that land on (r, c) are indexed by the
  entries e with idx[e, 0] = r alone, whatever the number of columns: if two update arrays of different widths agree
  on column c of the one and column c' of the other, and so do the operands at (r, c) and (r, c'), the two
  scatter-adds agree at (r, c) and (r, c').  The same for the edge aggregation (rows gathered, then row
  scatter-added), with the dimension records given by name.
-/
import proofs.«152456_j55130200211791_1_alg».proof.Proof.LibRowGatherScatter
import proofs.«152456_j55130200211791_1_alg».proof.Proof.LibScatterAddAt

noncomputable section

open scoped BigOperators

namespace Idealize.ShloMosaic.RowOps

open Idealize.ShloMosaic Idealize.ShloMosaic.ValueIdx Idealize.ShloMosaic.ScatterAddAt

/-- WHERE A ROW SCATTER LANDS, both ways: update element (e, c) lands at (r, k) iff idx[e, 0] read signed is r and c = k. -/
theorem rowScatter_lands_iff {N R C w : Nat}
    (wf : ScatterDims.WF ⟨2, ![N, C]⟩ ⟨2, ![R, 1]⟩ ⟨2, ![R, C]⟩ [1] [0] [0] 1)
    (idx : IVec ⟨2, ![R, 1]⟩ w) (e : Fin R) (c : Fin C) (r : Fin N) (k : Fin C) :
    (rowScatterDims N R C wf).resultIdx? (ix2 e c) idx = some (ix2 r k)
      ↔ (idx (ix2 e 0)).toInt = (r.val : Int) ∧ c = k := by
  constructor
  · intro h
    obtain ⟨h0, h1⟩ := rowScatter_lands wf idx (ix2 e c) (ix2 r k) h
    exact ⟨h0, Fin.ext h1⟩
  · rintro ⟨h0, rfl⟩
    have h10 : (1 : Fin 2) ∉ ([0] : List (Fin 2)) := by decide
    have h00 : (0 : Fin 2) ∈ ([0] : List (Fin 2)) := List.mem_singleton.mpr rfl
    have hsi : (rowScatterDims N R C wf).siIdx (ix2 e c)
        ⟨List.idxOf (0 : Fin 2) (rowScatterDims N R C wf).scatterDimsToOperandDims,
          List.idxOf_lt_length_iff.2 h00⟩ = ix2 e 0 := by
      funext b; refine Fin.ext ?_
      match b with
      | ⟨0, _⟩ => rfl
      | ⟨1, _⟩ => rfl
    have hs0 : (rowScatterDims N R C wf).start (ix2 e c) idx (0 : Fin 2) = (idx (ix2 e 0)).toInt := by
      unfold ScatterDims.start
      rw [dif_pos (show (0 : Fin 2) ∈ (rowScatterDims N R C wf).scatterDimsToOperandDims from h00), hsi]
    have hw0 : (rowScatterDims N R C wf).window (ix2 e c) (0 : Fin 2) = 0 := by
      unfold ScatterDims.window
      rw [dif_neg]
      intro hk
      have : (0 : Fin 2) ∉ ([0] : List (Fin 2)) := by
        simpa [ScatterDims.sKept, Shape.kept, List.mem_filter] using hk
      exact this h00
    have hs1 : (rowScatterDims N R C wf).start (ix2 e c) idx (1 : Fin 2) = 0 := by
      unfold ScatterDims.start
      rw [dif_neg (show (1 : Fin 2) ∉ (rowScatterDims N R C wf).scatterDimsToOperandDims from h10)]
    have hw1 : (rowScatterDims N R C wf).window (ix2 e c) (1 : Fin 2) = c.val := by
      unfold ScatterDims.window
      rw [dif_pos (show (1 : Fin 2) ∈ (rowScatterDims N R C wf).sKept by
        simp [ScatterDims.sKept, Shape.kept, List.mem_filter])]
      rfl
    have hcond : ∀ a : Fin 2, 0 ≤ (rowScatterDims N R C wf).start (ix2 e c) idx a + ((rowScatterDims N R C wf).window (ix2 e c) a : Nat)
        ∧ (rowScatterDims N R C wf).start (ix2 e c) idx a + ((rowScatterDims N R C wf).window (ix2 e c) a : Nat)
          < ((⟨2, ![N, C]⟩ : Shape).size a : Nat) := by
      intro a
      match a with
      | ⟨0, _⟩ =>
        show 0 ≤ (rowScatterDims N R C wf).start (ix2 e c) idx (0 : Fin 2) + ((rowScatterDims N R C wf).window (ix2 e c) (0 : Fin 2) : Nat)
          ∧ (rowScatterDims N R C wf).start (ix2 e c) idx (0 : Fin 2) + ((rowScatterDims N R C wf).window (ix2 e c) (0 : Fin 2) : Nat) < (N : Nat)
        rw [hs0, hw0, h0]
        have := r.isLt
        omega
      | ⟨1, _⟩ =>
        show 0 ≤ (rowScatterDims N R C wf).start (ix2 e c) idx (1 : Fin 2) + ((rowScatterDims N R C wf).window (ix2 e c) (1 : Fin 2) : Nat)
          ∧ (rowScatterDims N R C wf).start (ix2 e c) idx (1 : Fin 2) + ((rowScatterDims N R C wf).window (ix2 e c) (1 : Fin 2) : Nat) < (C : Nat)
        rw [hs1, hw1]
        have := c.isLt
        omega
    unfold ScatterDims.resultIdx?
    rw [dif_pos hcond]
    refine congrArg some (funext fun a => Fin.ext ?_)
    match a with
    | ⟨0, _⟩ =>
      show ((rowScatterDims N R C wf).start (ix2 e c) idx (0 : Fin 2) + ((rowScatterDims N R C wf).window (ix2 e c) (0 : Fin 2) : Nat) : Int).toNat = r.val
      rw [hs0, hw0, h0]
      omega
    | ⟨1, _⟩ =>
      show ((rowScatterDims N R C wf).start (ix2 e c) idx (1 : Fin 2) + ((rowScatterDims N R C wf).window (ix2 e c) (1 : Fin 2) : Nat) : Int).toNat = c.val
      rw [hs1, hw1]
      omega

/-- A ROW SCATTER-ADD TRANSPORTED BETWEEN COLUMN WIDTHS: the same scatter indices, two update arrays that agree on
    column c of the one and column c' of the other, operands that agree at (r, c) and (r, c'): the two exact
    scatter-adds agree there.  The updates landing on (r, c) and on (r, c') are matched entry by entry. -/
theorem rowScatterAdd_col {N R C C' w : Nat}
    (wf : ScatterDims.WF ⟨2, ![N, C]⟩ ⟨2, ![R, 1]⟩ ⟨2, ![R, C]⟩ [1] [0] [0] 1)
    (wf' : ScatterDims.WF ⟨2, ![N, C']⟩ ⟨2, ![R, 1]⟩ ⟨2, ![R, C']⟩ [1] [0] [0] 1)
    (x : (⟨2, ![N, C]⟩ : Shape).Idx → EReal) (x' : (⟨2, ![N, C']⟩ : Shape).Idx → EReal)
    (idx : IVec ⟨2, ![R, 1]⟩ w)
    (U : (⟨2, ![R, C]⟩ : Shape).Idx → EReal) (U' : (⟨2, ![R, C']⟩ : Shape).Idx → EReal)
    (r : Fin N) (c : Fin C) (c' : Fin C')
    (hx : x (ix2 r c) = x' (ix2 r c')) (hU : ∀ e : Fin R, U (ix2 e c) = U' (ix2 e c')) :
    Ideal.hostScatterAdd (rowScatterDims N R C wf) x idx U (ix2 r c)
      = Ideal.hostScatterAdd (rowScatterDims N R C' wf') x' idx U' (ix2 r c') := by
  rw [hostScatterAdd_apply, hostScatterAdd_apply, hx]
  refine congrArg (x' (ix2 r c') + ·) ?_
  refine Finset.sum_nbij' (fun u => ix2 (u 0) c') (fun u' => ix2 (u' 0) c) ?_ ?_ ?_ ?_ ?_
  · intro u hu
    rw [mem_landing] at hu ⊢
    rw [eq_ix2 u] at hu
    have h := (rowScatter_lands_iff wf idx (u 0) (u 1) r c).mp hu
    exact (rowScatter_lands_iff wf' idx (u 0) c' r c').mpr ⟨h.1, rfl⟩
  · intro u hu
    rw [mem_landing] at hu ⊢
    rw [eq_ix2 u] at hu
    have h := (rowScatter_lands_iff wf' idx (u 0) (u 1) r c').mp hu
    exact (rowScatter_lands_iff wf idx (u 0) c r c).mpr ⟨h.1, rfl⟩
  · intro u hu
    rw [mem_landing] at hu
    rw [eq_ix2 u] at hu
    have h := (rowScatter_lands_iff wf idx (u 0) (u 1) r c).mp hu
    show ix2 (u 0) c = u
    rw [← h.2]
    exact (eq_ix2 u).symm
  · intro u hu
    rw [mem_landing] at hu
    rw [eq_ix2 u] at hu
    have h := (rowScatter_lands_iff wf' idx (u 0) (u 1) r c').mp hu
    show ix2 (u 0) c' = u
    rw [← h.2]
    exact (eq_ix2 u).symm
  · intro u hu
    rw [mem_landing] at hu
    rw [eq_ix2 u] at hu
    have h := (rowScatter_lands_iff wf idx (u 0) (u 1) r c).mp hu
    show U u = U' (ix2 (u 0) c')
    rw [← hU (u 0)]
    exact congrArg U ((eq_ix2 u).trans (congrArg (fun k => ix2 (u 0) k) h.2))

/-- THE EDGE AGGREGATION TRANSPORTED BETWEEN COLUMN WIDTHS, for dimension records given by name: a row scatter-add of
    gathered rows, at two column widths.  The records are row scatters and row gathers (hd, hd', hg, hg'), the scatter
    indices and the gather indices agree (hidx, hsrc), the operands agree at the two entries (hx), and the gathered
    arrays agree on column c of the one and column c' of the other (hXY): then the two aggregates agree at (r, c) and
    (r, c').  Every datum is a variable here, so applying it matches names only. -/
theorem rowAggregate_col {N R C C' w : Nat}
    {d : ScatterDims ⟨2, ![N, C]⟩ ⟨2, ![R, 1]⟩ ⟨2, ![R, C]⟩} {d' : ScatterDims ⟨2, ![N, C']⟩ ⟨2, ![R, 1]⟩ ⟨2, ![R, C']⟩}
    {g : GatherDims ⟨2, ![N, C]⟩ ⟨2, ![R, 1]⟩ ⟨2, ![R, C]⟩} {g' : GatherDims ⟨2, ![N, C']⟩ ⟨2, ![R, 1]⟩ ⟨2, ![R, C']⟩}
    {wf : ScatterDims.WF ⟨2, ![N, C]⟩ ⟨2, ![R, 1]⟩ ⟨2, ![R, C]⟩ [1] [0] [0] 1}
    {wf' : ScatterDims.WF ⟨2, ![N, C']⟩ ⟨2, ![R, 1]⟩ ⟨2, ![R, C']⟩ [1] [0] [0] 1}
    {gwf : GatherDims.WF ⟨2, ![N, C]⟩ ⟨2, ![R, 1]⟩ ⟨2, ![R, C]⟩ [1] [0] [] [0] [] 1 ![1, C]}
    {gwf' : GatherDims.WF ⟨2, ![N, C']⟩ ⟨2, ![R, 1]⟩ ⟨2, ![R, C']⟩ [1] [0] [] [0] [] 1 ![1, C']}
    {x : (⟨2, ![N, C]⟩ : Shape).Idx → EReal} {x' : (⟨2, ![N, C']⟩ : Shape).Idx → EReal}
    {idx idx' src src' : IVec ⟨2, ![R, 1]⟩ w}
    {X : (⟨2, ![N, C]⟩ : Shape).Idx → EReal} {Y : (⟨2, ![N, C']⟩ : Shape).Idx → EReal}
    {r : Fin N} {c : Fin C} {c' : Fin C'}
    (hd : d = rowScatterDims N R C wf) (hd' : d' = rowScatterDims N R C' wf')
    (hg : g = rowGatherDims N R C gwf) (hg' : g' = rowGatherDims N R C' gwf')
    (hN : 0 < N) (hidx : idx' = idx) (hsrc : src' = src)
    (hx : x (ix2 r c) = x' (ix2 r c')) (hXY : ∀ n : Fin N, X (ix2 n c) = Y (ix2 n c')) :
    Ideal.hostScatterAdd d x idx (Host.gather g X src) (ix2 r c)
      = Ideal.hostScatterAdd d' x' idx' (Host.gather g' Y src') (ix2 r c') := by
  subst hd hd' hg hg' hidx hsrc
  refine rowScatterAdd_col wf wf' x x' idx' _ _ r c c' hx fun e => ?_
  rw [rowGather_apply hN, rowGather_apply hN]
  exact hXY _

end Idealize.ShloMosaic.RowOps

end
-- ==== Proof.Bridge.lean ====
import proofs.«152456_j55130200211791_1_alg».proof.Proof.KDefs
import proofs.«152456_j55130200211791_1_alg».proof.Proof.Gen.ReferenceIdeal.Read
import proofs.«152456_j55130200211791_1_alg».proof.Proof.LibRowScatterCols

/-
  THE FUSED 96-COLUMN AGGREGATION IS THE THREE 32-COLUMN ONES.

  The fused program joins the three 32×32 convolution weights side by side into one 32×96 matrix Wcat, projects the
  node features once (H3 = x · Wcat, 96 columns) and aggregates over the edges once:
  out[v, c] = ∑ over the edges e into v of ew[e] · H3[src e, c].  The reference projects and aggregates three times,
  32 columns each, with the weights W_z, W_r, W_h.  Column 32g + k of Wcat is column k of the g-th weight, so column
  32g + k of H3 is column k of x · W_g; the edge aggregation treats the columns independently (which updates land on
  row v is decided by the destination column alone), so column 32g + k of the fused aggregate is column k of the g-th
  reference aggregate.  In the same way entry 32g + k of the fused bias, 96 entries reshaped to one row, is entry k of
  the g-th bias.
-/

noncomputable section

open scoped BigOperators

namespace Cert.Bridge

open Idealize.ShloMosaic Idealize.ShloMosaic.ValueIdx Idealize.ShloMosaic.RowOps Idealize.ShloMosaic.ScatterAddAt

/-! ## The reference's aggregation as a function of the projected features -/

section RefAgg

open Cert.ReferenceIdeal Cert.ReferenceIdeal.Gen

variable {F : FTy → Type} [FloatOps F]

/-- The reference's edge aggregation of a projected feature array P [N, 32]: rows of P gathered at the edges'
    sources, scaled by the edge weights and summed into the edges' destinations, 32 columns wide. -/
def refAgg (P : (⟨S100000x32, .f32⟩ : BufTy).Contents (Elt F)) (a1 : (⟨S1600000, .f32⟩ : BufTy).Contents (Elt F))
    (a3 a4 : (⟨S1600000, .i32⟩ : BufTy).Contents (Elt F)) : (⟨S100000x32, .f32⟩ : BufTy).Contents (Elt F) :=
  Host.scatterAdd scatter_S100000x32_S1600000x1_S1600000x32_1_0_0_1
    (broadcastInDim S100000x32 ![] bcast_S_S100000x32 (constant S_ .f32 0x00000000#32))
    (broadcastInDim S1600000x1 ![0] bcast_S1600000_S1600000x1_0 a4)
    (mulf (Host.gather gather_S100000x32_S1600000x1_S1600000x32_1_0_n_n_0_1_132 P (Read.val_main_v6 (F := F) a3))
      (broadcastInDim S1600000x32 ![0, 1] bcast_S1600000x1_S1600000x32_0_1
        (broadcastInDim S1600000x1 ![0] bcast_S1600000_S1600000x1_0 a1)))

end RefAgg

/-! ## The dimension records are the row scatter and the row gather -/

/-- At the extended reals the host's scatter-add is the exact one, as functions of the whole result. -/
theorem host_scatterAdd_fun {s si su : Shape} {w : Nat} {φ : FTy} (d : ScatterDims s si su) (x : FVec Ideal s φ)
    (idx : IVec si w) (u : FVec Ideal su φ) :
    Host.scatterAdd (F := Ideal) d x idx u = Ideal.hostScatterAdd d x idx u := rfl

/-- The two programs' scatter and gather records are the row scatter and the row gather of their widths. -/
theorem kScatter_eq : Cert.KernelIdeal.scatter_S100000x96_S1600000x1_S1600000x96_1_0_0_1
    = rowScatterDims 100000 1600000 96 Cert.KernelIdeal.Gen.scatter_S100000x96_S1600000x1_S1600000x96_1_0_0_1_wf := rfl

theorem kGather_eq : Cert.KernelIdeal.gather_S100000x96_S1600000x1_S1600000x96_1_0_n_n_0_1_196
    = rowGatherDims 100000 1600000 96 Cert.KernelIdeal.Gen.gather_S100000x96_S1600000x1_S1600000x96_1_0_n_n_0_1_196_wf := rfl

theorem rScatter_eq : Cert.ReferenceIdeal.scatter_S100000x32_S1600000x1_S1600000x32_1_0_0_1
    = rowScatterDims 100000 1600000 32 Cert.ReferenceIdeal.Gen.scatter_S100000x32_S1600000x1_S1600000x32_1_0_0_1_wf := rfl

theorem rGather_eq : Cert.ReferenceIdeal.gather_S100000x32_S1600000x1_S1600000x32_1_0_n_n_0_1_132
    = rowGatherDims 100000 1600000 32 Cert.ReferenceIdeal.Gen.gather_S100000x32_S1600000x1_S1600000x32_1_0_n_n_0_1_132_wf := rfl

/-! ## The reference's three aggregations are one function of the projected features -/

theorem refAgg_v13 (x0 : (⟨Cert.ReferenceIdeal.S100000x32, .f32⟩ : BufTy).Contents (Elt Ideal))
    (x1 : (⟨Cert.ReferenceIdeal.S1600000, .f32⟩ : BufTy).Contents (Elt Ideal))
    (x3 x4 : (⟨Cert.ReferenceIdeal.S1600000, .i32⟩ : BufTy).Contents (Elt Ideal))
    (x5 : (⟨Cert.ReferenceIdeal.S32x32, .f32⟩ : BufTy).Contents (Elt Ideal)) :
    Cert.ReferenceIdeal.Read.val_main_v13 (F := Ideal) x0 x1 x3 x4 x5
      = refAgg (F := Ideal) (Cert.ReferenceIdeal.Read.val_main_v0 (F := Ideal) x0 x5) x1 x3 x4 := rfl

theorem refAgg_v41 (x0 : (⟨Cert.ReferenceIdeal.S100000x32, .f32⟩ : BufTy).Contents (Elt Ideal))
    (x1 : (⟨Cert.ReferenceIdeal.S1600000, .f32⟩ : BufTy).Contents (Elt Ideal))
    (x3 x4 : (⟨Cert.ReferenceIdeal.S1600000, .i32⟩ : BufTy).Contents (Elt Ideal))
    (x7 : (⟨Cert.ReferenceIdeal.S32x32, .f32⟩ : BufTy).Contents (Elt Ideal)) :
    Cert.ReferenceIdeal.Read.val_main_v41 (F := Ideal) x0 x1 x3 x4 x7
      = refAgg (F := Ideal) (Cert.ReferenceIdeal.Read.val_main_v28 (F := Ideal) x0 x7) x1 x3 x4 := rfl

theorem refAgg_v69 (x0 : (⟨Cert.ReferenceIdeal.S100000x32, .f32⟩ : BufTy).Contents (Elt Ideal))
    (x1 : (⟨Cert.ReferenceIdeal.S1600000, .f32⟩ : BufTy).Contents (Elt Ideal))
    (x3 x4 : (⟨Cert.ReferenceIdeal.S1600000, .i32⟩ : BufTy).Contents (Elt Ideal))
    (x9 : (⟨Cert.ReferenceIdeal.S32x32, .f32⟩ : BufTy).Contents (Elt Ideal)) :
    Cert.ReferenceIdeal.Read.val_main_v69 (F := Ideal) x0 x1 x3 x4 x9
      = refAgg (F := Ideal) (Cert.ReferenceIdeal.Read.val_main_v56 (F := Ideal) x0 x9) x1 x3 x4 := rfl

/-- The two programs wrap the edges' source rows by the same operations. -/
theorem src_eq (x3 : (⟨Cert.KernelIdeal.S1600000, .i32⟩ : BufTy).Contents (Elt Ideal)) :
    Cert.KernelIdeal.Hand.srcCol (F := Ideal) x3 = Cert.ReferenceIdeal.Read.val_main_v6 (F := Ideal) x3 := rfl

/-! ## The edge weights and the zero operand read at an index -/

/-- The edge weights broadcast to an [E, 1] column and then across C columns: entry (e, c) is ew[e]. -/
theorem ew_apply {α : Type} {C : Nat}
    (h1 : (⟨1, ![1600000]⟩ : Shape).BroadcastsInDim ⟨2, ![1600000, 1]⟩ ![0])
    (h2 : (⟨2, ![1600000, 1]⟩ : Shape).BroadcastsInDim ⟨2, ![1600000, C]⟩ ![0, 1])
    (x1 : (⟨1, ![1600000]⟩ : Shape).Idx → α) (e : Fin 1600000) (c : Fin C) :
    broadcastInDim ⟨2, ![1600000, C]⟩ ![0, 1] h2 (broadcastInDim ⟨2, ![1600000, 1]⟩ ![0] h1 x1) (ix2 e c) = x1 (ix1 e) := by
  refine (broadcastInDim_apply _ h2 _ (ix2 e c) (ix2 e 0) (fun a => ?_)).trans
    (broadcastInDim_apply _ h1 x1 (ix2 e 0) (ix1 e) (fun a => ?_))
  · match a with
    | ⟨0, _⟩ => show e.val = if (1600000 : Nat) = 1 then 0 else e.val; rw [if_neg (by decide)]
    | ⟨1, _⟩ => show 0 = if (1 : Nat) = 1 then 0 else c.val; rw [if_pos rfl]
  · match a with
    | ⟨0, _⟩ => show e.val = if (1600000 : Nat) = 1 then 0 else e.val; rw [if_neg (by decide)]

/-- A scalar broadcast to a matrix reads the scalar everywhere. -/
theorem scalar_apply {α : Type} {N C : Nat} (h : (⟨0, ![]⟩ : Shape).BroadcastsInDim ⟨2, ![N, C]⟩ ![])
    (y : (⟨0, ![]⟩ : Shape).Idx → α) (j : (⟨2, ![N, C]⟩ : Shape).Idx) :
    broadcastInDim ⟨2, ![N, C]⟩ ![] h y j = y ix0 :=
  broadcastInDim_apply _ h y j ix0 (fun a => a.elim0)

/-! ## One column of the fused aggregate against one column of a 32-column aggregate -/

/-- If column c of H3 is column k of P, then column c of the fused aggregate of H3 is column k of the 32-column
    aggregate of P: the destination column, the wrapped source column and the edge weights are the same arrays on
    both sides, the zero operands agree, and the scaled gathered rows agree on the two columns entry by entry. -/
theorem agg_col (H3 : (⟨Cert.KernelIdeal.S100000x96, .f32⟩ : BufTy).Contents (Elt Ideal))
    (P : (⟨Cert.ReferenceIdeal.S100000x32, .f32⟩ : BufTy).Contents (Elt Ideal))
    (x1 : (⟨Cert.KernelIdeal.S1600000, .f32⟩ : BufTy).Contents (Elt Ideal))
    (x3 x4 : (⟨Cert.KernelIdeal.S1600000, .i32⟩ : BufTy).Contents (Elt Ideal))
    (c : Fin 96) (k : Fin 32) (hcol : ∀ n : Fin 100000, H3 (ix2 n c) = P (ix2 n k)) (i : Fin 100000) :
    Cert.KernelIdeal.Hand.agg (F := Ideal) H3 x1 x3 x4 (ix2 i c) = refAgg (F := Ideal) P x1 x3 x4 (ix2 i k) := by
  unfold Cert.KernelIdeal.Hand.agg refAgg
  rw [host_scatterAdd_fun, host_scatterAdd_fun, kScatter_eq, rScatter_eq]
  refine rowScatterAdd_col _ _ _ _ _ _ _ i c k ?_ fun e => ?_
  · exact (scalar_apply _ _ _).trans (scalar_apply _ _ _).symm
  · rw [mulf_apply, mulf_apply, kGather_eq, rGather_eq, rowGather_apply (by decide), rowGather_apply (by decide),
      src_eq, ew_apply, ew_apply, hcol]

/-! ## The fused weight matrix, column by column, and the projected features -/

/-- Columns 0 … 31 of the joined matrix are the first weight's. -/
theorem wcat_z (x5 x7 x9 : (⟨Cert.KernelIdeal.S32x32, .f32⟩ : BufTy).Contents (Elt Ideal)) (q k : Fin 32) :
    Cert.KernelIdeal.Hand.wcat (F := Ideal) x5 x7 x9 (ix2 q ⟨k.val, by omega⟩) = x5 (ix2 q k) := by
  unfold Cert.KernelIdeal.Hand.wcat
  refine concatenate_apply_piece (t := Cert.KernelIdeal.S32x96) (1 : Fin 2)
    [⟨Cert.KernelIdeal.S32x32, x5⟩, ⟨Cert.KernelIdeal.S32x32, x7⟩, ⟨Cert.KernelIdeal.S32x32, x9⟩]
    _ _ 0 (show (0 : Nat) < 3 by decide) Cert.KernelIdeal.S32x32 x5 rfl rfl 0 rfl (ix2 q k) ?_ ?_
  · intro b hb
    match b with
    | ⟨0, _⟩ => rfl
    | ⟨1, _⟩ => exact absurd rfl hb
  · exact Nat.zero_add _

/-- Columns 32 … 63 of the joined matrix are the second weight's. -/
theorem wcat_r (x5 x7 x9 : (⟨Cert.KernelIdeal.S32x32, .f32⟩ : BufTy).Contents (Elt Ideal)) (q k : Fin 32) :
    Cert.KernelIdeal.Hand.wcat (F := Ideal) x5 x7 x9 (ix2 q ⟨32 + k.val, by omega⟩) = x7 (ix2 q k) := by
  unfold Cert.KernelIdeal.Hand.wcat
  refine concatenate_apply_piece (t := Cert.KernelIdeal.S32x96) (1 : Fin 2)
    [⟨Cert.KernelIdeal.S32x32, x5⟩, ⟨Cert.KernelIdeal.S32x32, x7⟩, ⟨Cert.KernelIdeal.S32x32, x9⟩]
    _ _ 1 (show (1 : Nat) < 3 by decide) Cert.KernelIdeal.S32x32 x7 rfl rfl 32 rfl (ix2 q k) ?_ ?_
  · intro b hb
    match b with
    | ⟨0, _⟩ => rfl
    | ⟨1, _⟩ => exact absurd rfl hb
  · rfl

/-- Columns 64 … 95 of the joined matrix are the third weight's. -/
theorem wcat_h (x5 x7 x9 : (⟨Cert.KernelIdeal.S32x32, .f32⟩ : BufTy).Contents (Elt Ideal)) (q k : Fin 32) :
    Cert.KernelIdeal.Hand.wcat (F := Ideal) x5 x7 x9 (ix2 q ⟨64 + k.val, by omega⟩) = x9 (ix2 q k) := by
  unfold Cert.KernelIdeal.Hand.wcat
  refine concatenate_apply_piece (t := Cert.KernelIdeal.S32x96) (1 : Fin 2)
    [⟨Cert.KernelIdeal.S32x32, x5⟩, ⟨Cert.KernelIdeal.S32x32, x7⟩, ⟨Cert.KernelIdeal.S32x32, x9⟩]
    _ _ 2 (show (2 : Nat) < 3 by decide) Cert.KernelIdeal.S32x32 x9 rfl rfl 64 rfl (ix2 q k) ?_ ?_
  · intro b hb
    match b with
    | ⟨0, _⟩ => rfl
    | ⟨1, _⟩ => exact absurd rfl hb
  · rfl

/-- Column k of H3 = x · Wcat is column k of x · W_z. -/
theorem proj_z (H3 : (⟨Cert.KernelIdeal.S100000x96, .f32⟩ : BufTy).Contents (Elt Ideal))
    (x0 : (⟨Cert.KernelIdeal.S100000x32, .f32⟩ : BufTy).Contents (Elt Ideal))
    (x5 x7 x9 : (⟨Cert.KernelIdeal.S32x32, .f32⟩ : BufTy).Contents (Elt Ideal))
    (hH3 : ∀ (n : Fin 100000) (c : Fin 96),
      H3 (ix2 n c) = ∑ q : Fin 32, x0 (ix2 n q) * Cert.KernelIdeal.Hand.wcat (F := Ideal) x5 x7 x9 (ix2 q c))
    (n : Fin 100000) (k : Fin 32) :
    H3 (ix2 n ⟨k.val, by omega⟩) = Cert.ReferenceIdeal.Read.val_main_v0 (F := Ideal) x0 x5 (ix2 n k) := by
  rw [hH3, Cert.ReferenceIdeal.Read.val_main_v0_apply]
  refine Finset.sum_congr rfl fun q _ => ?_
  rw [wcat_z]
  have el : Cert.ReferenceIdeal.Read.lidx_main_v0 (ix2 n k) q = ix2 n q := by
    funext a; match a with | ⟨0, _⟩ => rfl | ⟨1, _⟩ => rfl
  have er : Cert.ReferenceIdeal.Read.ridx_main_v0 (ix2 n k) q = ix2 q k := by
    funext a; match a with | ⟨0, _⟩ => rfl | ⟨1, _⟩ => rfl
  rw [el, er]

/-- Column 32 + k of H3 = x · Wcat is column k of x · W_r. -/
theorem proj_r (H3 : (⟨Cert.KernelIdeal.S100000x96, .f32⟩ : BufTy).Contents (Elt Ideal))
    (x0 : (⟨Cert.KernelIdeal.S100000x32, .f32⟩ : BufTy).Contents (Elt Ideal))
    (x5 x7 x9 : (⟨Cert.KernelIdeal.S32x32, .f32⟩ : BufTy).Contents (Elt Ideal))
    (hH3 : ∀ (n : Fin 100000) (c : Fin 96),
      H3 (ix2 n c) = ∑ q : Fin 32, x0 (ix2 n q) * Cert.KernelIdeal.Hand.wcat (F := Ideal) x5 x7 x9 (ix2 q c))
    (n : Fin 100000) (k : Fin 32) :
    H3 (ix2 n ⟨32 + k.val, by omega⟩) = Cert.ReferenceIdeal.Read.val_main_v28 (F := Ideal) x0 x7 (ix2 n k) := by
  rw [hH3, Cert.ReferenceIdeal.Read.val_main_v28_apply]
  refine Finset.sum_congr rfl fun q _ => ?_
  rw [wcat_r]
  have el : Cert.ReferenceIdeal.Read.lidx_main_v28 (ix2 n k) q = ix2 n q := by
    funext a; match a with | ⟨0, _⟩ => rfl | ⟨1, _⟩ => rfl
  have er : Cert.ReferenceIdeal.Read.ridx_main_v28 (ix2 n k) q = ix2 q k := by
    funext a; match a with | ⟨0, _⟩ => rfl | ⟨1, _⟩ => rfl
  rw [el, er]

/-- Column 64 + k of H3 = x · Wcat is column k of x · W_h. -/
theorem proj_h (H3 : (⟨Cert.KernelIdeal.S100000x96, .f32⟩ : BufTy).Contents (Elt Ideal))
    (x0 : (⟨Cert.KernelIdeal.S100000x32, .f32⟩ : BufTy).Contents (Elt Ideal))
    (x5 x7 x9 : (⟨Cert.KernelIdeal.S32x32, .f32⟩ : BufTy).Contents (Elt Ideal))
    (hH3 : ∀ (n : Fin 100000) (c : Fin 96),
      H3 (ix2 n c) = ∑ q : Fin 32, x0 (ix2 n q) * Cert.KernelIdeal.Hand.wcat (F := Ideal) x5 x7 x9 (ix2 q c))
    (n : Fin 100000) (k : Fin 32) :
    H3 (ix2 n ⟨64 + k.val, by omega⟩) = Cert.ReferenceIdeal.Read.val_main_v56 (F := Ideal) x0 x9 (ix2 n k) := by
  rw [hH3, Cert.ReferenceIdeal.Read.val_main_v56_apply]
  refine Finset.sum_congr rfl fun q _ => ?_
  rw [wcat_h]
  have el : Cert.ReferenceIdeal.Read.lidx_main_v56 (ix2 n k) q = ix2 n q := by
    funext a; match a with | ⟨0, _⟩ => rfl | ⟨1, _⟩ => rfl
  have er : Cert.ReferenceIdeal.Read.ridx_main_v56 (ix2 n k) q = ix2 q k := by
    funext a; match a with | ⟨0, _⟩ => rfl | ⟨1, _⟩ => rfl
  rw [el, er]

/-! ## The three instances -/

/-- Columns 0 … 31 of the fused aggregate are the reference's aggregate of x · W_z. -/
theorem agg_z (H3 : (⟨Cert.KernelIdeal.S100000x96, .f32⟩ : BufTy).Contents (Elt Ideal))
    (x0 : (⟨Cert.KernelIdeal.S100000x32, .f32⟩ : BufTy).Contents (Elt Ideal))
    (x1 : (⟨Cert.KernelIdeal.S1600000, .f32⟩ : BufTy).Contents (Elt Ideal))
    (x3 x4 : (⟨Cert.KernelIdeal.S1600000, .i32⟩ : BufTy).Contents (Elt Ideal))
    (x5 x7 x9 : (⟨Cert.KernelIdeal.S32x32, .f32⟩ : BufTy).Contents (Elt Ideal))
    (hH3 : ∀ (n : Fin 100000) (c : Fin 96),
      H3 (ix2 n c) = ∑ q : Fin 32, x0 (ix2 n q) * Cert.KernelIdeal.Hand.wcat (F := Ideal) x5 x7 x9 (ix2 q c))
    (i : Fin 100000) (k : Fin 32) :
    Cert.KernelIdeal.Hand.agg (F := Ideal) H3 x1 x3 x4 (ix2 i ⟨k.val, by omega⟩)
      = Cert.ReferenceIdeal.Read.val_main_v13 (F := Ideal) x0 x1 x3 x4 x5 (ix2 i k) :=
  (agg_col H3 (Cert.ReferenceIdeal.Read.val_main_v0 (F := Ideal) x0 x5) x1 x3 x4 ⟨k.val, by omega⟩ k
    (fun n => proj_z H3 x0 x5 x7 x9 hH3 n k) i).trans (congrFun (refAgg_v13 x0 x1 x3 x4 x5).symm (ix2 i k))

/-- Columns 32 … 63 of the fused aggregate are the reference's aggregate of x · W_r. -/
theorem agg_r (H3 : (⟨Cert.KernelIdeal.S100000x96, .f32⟩ : BufTy).Contents (Elt Ideal))
    (x0 : (⟨Cert.KernelIdeal.S100000x32, .f32⟩ : BufTy).Contents (Elt Ideal))
    (x1 : (⟨Cert.KernelIdeal.S1600000, .f32⟩ : BufTy).Contents (Elt Ideal))
    (x3 x4 : (⟨Cert.KernelIdeal.S1600000, .i32⟩ : BufTy).Contents (Elt Ideal))
    (x5 x7 x9 : (⟨Cert.KernelIdeal.S32x32, .f32⟩ : BufTy).Contents (Elt Ideal))
    (hH3 : ∀ (n : Fin 100000) (c : Fin 96),
      H3 (ix2 n c) = ∑ q : Fin 32, x0 (ix2 n q) * Cert.KernelIdeal.Hand.wcat (F := Ideal) x5 x7 x9 (ix2 q c))
    (i : Fin 100000) (k : Fin 32) :
    Cert.KernelIdeal.Hand.agg (F := Ideal) H3 x1 x3 x4 (ix2 i ⟨32 + k.val, by omega⟩)
      = Cert.ReferenceIdeal.Read.val_main_v41 (F := Ideal) x0 x1 x3 x4 x7 (ix2 i k) :=
  (agg_col H3 (Cert.ReferenceIdeal.Read.val_main_v28 (F := Ideal) x0 x7) x1 x3 x4 ⟨32 + k.val, by omega⟩ k
    (fun n => proj_r H3 x0 x5 x7 x9 hH3 n k) i).trans (congrFun (refAgg_v41 x0 x1 x3 x4 x7).symm (ix2 i k))

/-- Columns 64 … 95 of the fused aggregate are the reference's aggregate of x · W_h. -/
theorem agg_h (H3 : (⟨Cert.KernelIdeal.S100000x96, .f32⟩ : BufTy).Contents (Elt Ideal))
    (x0 : (⟨Cert.KernelIdeal.S100000x32, .f32⟩ : BufTy).Contents (Elt Ideal))
    (x1 : (⟨Cert.KernelIdeal.S1600000, .f32⟩ : BufTy).Contents (Elt Ideal))
    (x3 x4 : (⟨Cert.KernelIdeal.S1600000, .i32⟩ : BufTy).Contents (Elt Ideal))
    (x5 x7 x9 : (⟨Cert.KernelIdeal.S32x32, .f32⟩ : BufTy).Contents (Elt Ideal))
    (hH3 : ∀ (n : Fin 100000) (c : Fin 96),
      H3 (ix2 n c) = ∑ q : Fin 32, x0 (ix2 n q) * Cert.KernelIdeal.Hand.wcat (F := Ideal) x5 x7 x9 (ix2 q c))
    (i : Fin 100000) (k : Fin 32) :
    Cert.KernelIdeal.Hand.agg (F := Ideal) H3 x1 x3 x4 (ix2 i ⟨64 + k.val, by omega⟩)
      = Cert.ReferenceIdeal.Read.val_main_v69 (F := Ideal) x0 x1 x3 x4 x9 (ix2 i k) :=
  (agg_col H3 (Cert.ReferenceIdeal.Read.val_main_v56 (F := Ideal) x0 x9) x1 x3 x4 ⟨64 + k.val, by omega⟩ k
    (fun n => proj_h H3 x0 x5 x7 x9 hH3 n k) i).trans (congrFun (refAgg_v69 x0 x1 x3 x4 x9).symm (ix2 i k))

/-! ## The fused bias -/

/-- The reshape of n entries to one row of n reads entry c at (0, c): the two row-major positions are both c. -/
theorem row_apply {α : Type} {n : Nat} (y : (⟨1, ![n]⟩ : Shape).Idx → α)
    (h : (⟨1, ![n]⟩ : Shape).ShapeCasts ⟨2, ![1, n]⟩) (c : Fin n) :
    shapeCast ⟨2, ![1, n]⟩ y h (ix2 0 c) = y (ix1 c) := by
  refine shapeCast_apply y h (ix2 0 c) (ix1 c) ?_
  rw [Shape.rowMajor_val_one, Shape.rowMajor_val_two]
  show c.val = 0 * n + c.val
  omega

/-- The reshape of 96 entries to one row of 96 reads entry c at (0, c). -/
theorem row96_apply {α : Type} (y : (⟨1, ![96]⟩ : Shape).Idx → α) (h : (⟨1, ![96]⟩ : Shape).ShapeCasts ⟨2, ![1, 96]⟩) (c : Fin 96) :
    shapeCast ⟨2, ![1, 96]⟩ y h (ix2 0 c) = y (ix1 c) :=
  row_apply y h c

/-- A bias of 32 entries reshaped to one row of 32 reads entry j at (0, j). -/
theorem row32_apply (v : (⟨Cert.KernelIdeal.S32, .f32⟩ : BufTy).Contents (Elt Ideal)) (j : Fin 32) :
    shapeCast Cert.KernelIdeal.S1x32 v Cert.KernelIdeal.Gen.shapeCasts_S32_S1x32 (ix2 0 j) = v (ix1 j) :=
  row_apply v Cert.KernelIdeal.Gen.shapeCasts_S32_S1x32 j

/-- Entries 0 … 31 of the fused bias row are the first bias. -/
theorem bias_z (x6 x8 x10 : (⟨Cert.KernelIdeal.S32, .f32⟩ : BufTy).Contents (Elt Ideal)) (k : Fin 32) :
    shapeCast Cert.KernelIdeal.S1x96 (Cert.KernelIdeal.Hand.bcat (F := Ideal) x6 x8 x10) Cert.KernelIdeal.Gen.shapeCasts_S96_S1x96
      (ix2 0 ⟨k.val, by omega⟩) = x6 (ix1 k) := by
  refine (row96_apply _ _ _).trans ?_
  unfold Cert.KernelIdeal.Hand.bcat
  refine concatenate_apply_piece (t := Cert.KernelIdeal.S96) (0 : Fin 1)
    [⟨Cert.KernelIdeal.S32, x6⟩, ⟨Cert.KernelIdeal.S32, x8⟩, ⟨Cert.KernelIdeal.S32, x10⟩]
    _ _ 0 (show (0 : Nat) < 3 by decide) Cert.KernelIdeal.S32 x6 rfl rfl 0 rfl (ix1 k) ?_ ?_
  · intro b hb
    match b with
    | ⟨0, _⟩ => exact absurd rfl hb
  · exact Nat.zero_add _

/-- Entries 32 … 63 of the fused bias row are the second bias. -/
theorem bias_r (x6 x8 x10 : (⟨Cert.KernelIdeal.S32, .f32⟩ : BufTy).Contents (Elt Ideal)) (k : Fin 32) :
    shapeCast Cert.KernelIdeal.S1x96 (Cert.KernelIdeal.Hand.bcat (F := Ideal) x6 x8 x10) Cert.KernelIdeal.Gen.shapeCasts_S96_S1x96
      (ix2 0 ⟨32 + k.val, by omega⟩) = x8 (ix1 k) := by
  refine (row96_apply _ _ _).trans ?_
  unfold Cert.KernelIdeal.Hand.bcat
  refine concatenate_apply_piece (t := Cert.KernelIdeal.S96) (0 : Fin 1)
    [⟨Cert.KernelIdeal.S32, x6⟩, ⟨Cert.KernelIdeal.S32, x8⟩, ⟨Cert.KernelIdeal.S32, x10⟩]
    _ _ 1 (show (1 : Nat) < 3 by decide) Cert.KernelIdeal.S32 x8 rfl rfl 32 rfl (ix1 k) ?_ ?_
  · intro b hb
    match b with
    | ⟨0, _⟩ => exact absurd rfl hb
  · rfl

/-- Entries 64 … 95 of the fused bias row are the third bias. -/
theorem bias_h (x6 x8 x10 : (⟨Cert.KernelIdeal.S32, .f32⟩ : BufTy).Contents (Elt Ideal)) (k : Fin 32) :
    shapeCast Cert.KernelIdeal.S1x96 (Cert.KernelIdeal.Hand.bcat (F := Ideal) x6 x8 x10) Cert.KernelIdeal.Gen.shapeCasts_S96_S1x96
      (ix2 0 ⟨64 + k.val, by omega⟩) = x10 (ix1 k) := by
  refine (row96_apply _ _ _).trans ?_
  unfold Cert.KernelIdeal.Hand.bcat
  refine concatenate_apply_piece (t := Cert.KernelIdeal.S96) (0 : Fin 1)
    [⟨Cert.KernelIdeal.S32, x6⟩, ⟨Cert.KernelIdeal.S32, x8⟩, ⟨Cert.KernelIdeal.S32, x10⟩]
    _ _ 2 (show (2 : Nat) < 3 by decide) Cert.KernelIdeal.S32 x10 rfl rfl 64 rfl (ix1 k) ?_ ?_
  · intro b hb
    match b with
    | ⟨0, _⟩ => exact absurd rfl hb
  · rfl

end Cert.Bridge

end
-- ==== Proof.KValue.lean ====
/-
  The kernel's two results as functions of the launch memory, at the extended reals.  The head region's result arrays
  are the head applied row by row to what the region finds; what it finds is read back through the host operations:
  the gate weights and the hidden state are argument arrays, the one-row biases are the bias vectors, and the
  aggregated block with the fused bias row added is, third by third, the reference's three aggregates with their
  biases — column 32·g + k of the fused projection is column k of the g-th projection, and the edge aggregation acts
  column by column.
-/
import proofs.«152456_j55130200211791_1_alg».proof.Proof.KIRun
import proofs.«152456_j55130200211791_1_alg».proof.Proof.KHost
import proofs.«152456_j55130200211791_1_alg».proof.Proof.KVal0
import proofs.«152456_j55130200211791_1_alg».proof.Proof.KVal1
import proofs.«152456_j55130200211791_1_alg».proof.Proof.Bridge

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## The argument arrays at launch, each at its array type -/

abbrev A0 (c : Dev nD) : (⟨S100000x32, .f32⟩ : BufTy).Contents (Elt Ideal) := m ((c : Thread nD τ).loc main_arg0)
abbrev A1 (c : Dev nD) : (⟨S1600000, .f32⟩ : BufTy).Contents (Elt Ideal) := m ((c : Thread nD τ).loc main_arg1)
abbrev A2 (c : Dev nD) : (⟨S100000x32, .f32⟩ : BufTy).Contents (Elt Ideal) := m ((c : Thread nD τ).loc main_arg2)
abbrev A3 (c : Dev nD) : (⟨S1600000, .i32⟩ : BufTy).Contents (Elt Ideal) := m ((c : Thread nD τ).loc main_arg3)
abbrev A4 (c : Dev nD) : (⟨S1600000, .i32⟩ : BufTy).Contents (Elt Ideal) := m ((c : Thread nD τ).loc main_arg4)
abbrev A5 (c : Dev nD) : (⟨S32x32, .f32⟩ : BufTy).Contents (Elt Ideal) := m ((c : Thread nD τ).loc main_arg5)
abbrev A6 (c : Dev nD) : (⟨S32, .f32⟩ : BufTy).Contents (Elt Ideal) := m ((c : Thread nD τ).loc main_arg6)
abbrev A7 (c : Dev nD) : (⟨S32x32, .f32⟩ : BufTy).Contents (Elt Ideal) := m ((c : Thread nD τ).loc main_arg7)
abbrev A8 (c : Dev nD) : (⟨S32, .f32⟩ : BufTy).Contents (Elt Ideal) := m ((c : Thread nD τ).loc main_arg8)
abbrev A9 (c : Dev nD) : (⟨S32x32, .f32⟩ : BufTy).Contents (Elt Ideal) := m ((c : Thread nD τ).loc main_arg9)
abbrev A10 (c : Dev nD) : (⟨S32, .f32⟩ : BufTy).Contents (Elt Ideal) := m ((c : Thread nD τ).loc main_arg10)
abbrev A11 (c : Dev nD) : (⟨S64x32, .f32⟩ : BufTy).Contents (Elt Ideal) := m ((c : Thread nD τ).loc main_arg11)
abbrev A12 (c : Dev nD) : (⟨S32, .f32⟩ : BufTy).Contents (Elt Ideal) := m ((c : Thread nD τ).loc main_arg12)
abbrev A13 (c : Dev nD) : (⟨S64x32, .f32⟩ : BufTy).Contents (Elt Ideal) := m ((c : Thread nD τ).loc main_arg13)
abbrev A14 (c : Dev nD) : (⟨S32, .f32⟩ : BufTy).Contents (Elt Ideal) := m ((c : Thread nD τ).loc main_arg14)
abbrev A15 (c : Dev nD) : (⟨S64x32, .f32⟩ : BufTy).Contents (Elt Ideal) := m ((c : Thread nD τ).loc main_arg15)
abbrev A16 (c : Dev nD) : (⟨S32, .f32⟩ : BufTy).Contents (Elt Ideal) := m ((c : Thread nD τ).loc main_arg16)
abbrev A17 (c : Dev nD) : (⟨S32x32, .f32⟩ : BufTy).Contents (Elt Ideal) := m ((c : Thread nD τ).loc main_arg17)
abbrev A18 (c : Dev nD) : (⟨S32, .f32⟩ : BufTy).Contents (Elt Ideal) := m ((c : Thread nD τ).loc main_arg18)

/-! ## The rows the head is applied to, from the launch memory -/

/-- Node n's row of the first aggregate with its bias: the reference's aggregate of x · Wzc plus bzc. -/
def czM (c : Dev nD) (n : Fin 100000) : Fin 32 → EReal := fun k =>
  Cert.ReferenceIdeal.Read.val_main_v13 (F := Ideal) (A0 m c) (A1 m c) (A3 m c) (A4 m c) (A5 m c) (ix2 n k) + (A6 m c) (ix1 k)
/-- The second: the aggregate of x · Wrc plus brc. -/
def crM (c : Dev nD) (n : Fin 100000) : Fin 32 → EReal := fun k =>
  Cert.ReferenceIdeal.Read.val_main_v41 (F := Ideal) (A0 m c) (A1 m c) (A3 m c) (A4 m c) (A7 m c) (ix2 n k) + (A8 m c) (ix1 k)
/-- The third: the aggregate of x · Whc plus bhc. -/
def chM (c : Dev nD) (n : Fin 100000) : Fin 32 → EReal := fun k =>
  Cert.ReferenceIdeal.Read.val_main_v69 (F := Ideal) (A0 m c) (A1 m c) (A3 m c) (A4 m c) (A9 m c) (ix2 n k) + (A10 m c) (ix1 k)
/-- Node n's hidden row. -/
def hidM (c : Dev nD) (n : Fin 100000) : Fin 32 → EReal := fun k => (A2 m c) (ix2 n k)

/-- The new hidden state, entry by entry, from the launch memory. -/
def hRes (c : Dev nD) : S100000x32.Idx → EReal := fun i =>
  Cert.Spec.hnew (fun k j => (A11 m c) (ix2 k j)) (fun j => (A12 m c) (ix1 j)) (fun k j => (A13 m c) (ix2 k j)) (fun j => (A14 m c) (ix1 j))
      (fun k j => (A15 m c) (ix2 k j)) (fun j => (A16 m c) (ix1 j))
      (czM m c (i 0)) (crM m c (i 0)) (chM m c (i 0)) (hidM m c (i 0)) (i 1)
/-- The output, entry by entry, from the launch memory. -/
def yRes (c : Dev nD) : S100000x32.Idx → EReal := fun i =>
  Cert.Spec.yout (fun k j => (A11 m c) (ix2 k j)) (fun j => (A12 m c) (ix1 j)) (fun k j => (A13 m c) (ix2 k j)) (fun j => (A14 m c) (ix1 j))
      (fun k j => (A15 m c) (ix2 k j)) (fun j => (A16 m c) (ix1 j))
      (fun k j => (A17 m c) (ix2 k j)) (fun j => (A18 m c) (ix1 j))
      (czM m c (i 0)) (crM m c (i 0)) (chM m c (i 0)) (hidM m c (i 0)) (i 1)

/-! ## What the head region finds -/

/-- The projection region's result at the second stretch's entry, as an array. -/
abbrev H3 (c : Dev nD) : (⟨S100000x96, .f32⟩ : BufTy).Contents (Elt Ideal) := V2 m ρ c main_v2

/-- Its entry (n, c'): row n of the features times column c' of the fused weight matrix. -/
theorem H3_at (c : Dev nD) (n : Fin 100000) (c' : Fin 96) :
    H3 m ρ c (ix2 n c') = ∑ q : Fin 32, (A0 m c) (ix2 n q) * wcat (F := Ideal) (A5 m c) (A7 m c) (A9 m c) (ix2 q c') := by
  have e : H3 m ρ c = proj (A0 m c) (wcat (F := Ideal) (A5 m c) (A7 m c) (A9 m c)) :=
    (V2_v2 m ρ c).trans ((final0 (V1 m ρ) c).trans (by rw [V1_arg0 m ρ c, V1_v0 m ρ c]))
  rw [e, proj_apply]

theorem agg_found (c : Dev nD) : inAgg (V3 m ρ) c = agg (F := Ideal) (H3 m ρ c) (A1 m c) (A3 m c) (A4 m c) := by
  show V3 m ρ c main_v15 = _
  rw [V3_v15 m ρ c, V2_arg m ρ c main_arg1 (by decide) (by decide), V2_arg m ρ c main_arg3 (by decide) (by decide),
    V2_arg m ρ c main_arg4 (by decide) (by decide)]

theorem bias_found (c : Dev nD) : inBias (V3 m ρ) c
    = shapeCast S1x96 (bcat (F := Ideal) (A6 m c) (A8 m c) (A10 m c)) shapeCasts_S96_S1x96 := by
  show V3 m ρ c main_v20 = _
  rw [V3_v20 m ρ c, V2_v1 m ρ c, V1_v1 m ρ c]

theorem czRow_eq (c : Dev nD) (n : Fin 100000) : czRow (V3 m ρ) c n = czM m c n := by
  funext k
  unfold czRow czM
  rw [agg_found m ρ c, bias_found m ρ c]
  exact congrArg₂ (· + ·)
    (Cert.Bridge.agg_z (H3 m ρ c) (A0 m c) (A1 m c) (A3 m c) (A4 m c) (A5 m c) (A7 m c) (A9 m c) (H3_at m ρ c) n k)
    (Cert.Bridge.bias_z (A6 m c) (A8 m c) (A10 m c) k)

theorem crRow_eq (c : Dev nD) (n : Fin 100000) : crRow (V3 m ρ) c n = crM m c n := by
  funext k
  unfold crRow crM
  rw [agg_found m ρ c, bias_found m ρ c]
  exact congrArg₂ (· + ·)
    (Cert.Bridge.agg_r (H3 m ρ c) (A0 m c) (A1 m c) (A3 m c) (A4 m c) (A5 m c) (A7 m c) (A9 m c) (H3_at m ρ c) n k)
    (Cert.Bridge.bias_r (A6 m c) (A8 m c) (A10 m c) k)

theorem chRow_eq (c : Dev nD) (n : Fin 100000) : chRow (V3 m ρ) c n = chM m c n := by
  funext k
  unfold chRow chM
  rw [agg_found m ρ c, bias_found m ρ c]
  exact congrArg₂ (· + ·)
    (Cert.Bridge.agg_h (H3 m ρ c) (A0 m c) (A1 m c) (A3 m c) (A4 m c) (A5 m c) (A7 m c) (A9 m c) (H3_at m ρ c) n k)
    (Cert.Bridge.bias_h (A6 m c) (A8 m c) (A10 m c) k)

theorem hid_found (c : Dev nD) : inHid (V3 m ρ) c = (A2 m c) := V3_arg m ρ c main_arg2 (by decide) (by decide) (by decide)

theorem hidRow_eq (c : Dev nD) (n : Fin 100000) : hidRow (V3 m ρ) c n = hidM m c n := by
  funext k
  unfold hidRow hidM
  rw [hid_found m ρ c]

/-- A weight matrix at the head region's entry is the argument array. -/
theorem wz_found (c : Dev nD) : inWz (V3 m ρ) c = (A11 m c) := V3_arg m ρ c main_arg11 (by decide) (by decide) (by decide)
theorem wr_found (c : Dev nD) : inWr (V3 m ρ) c = (A13 m c) := V3_arg m ρ c main_arg13 (by decide) (by decide) (by decide)
theorem wh_found (c : Dev nD) : inWh (V3 m ρ) c = (A15 m c) := V3_arg m ρ c main_arg15 (by decide) (by decide) (by decide)
theorem wlin_found (c : Dev nD) : inWlin (V3 m ρ) c = (A17 m c) := V3_arg m ρ c main_arg17 (by decide) (by decide) (by decide)

/-- A one-row bias at the head region's entry, entry (0, j), is entry j of the bias vector. -/
theorem bz_found (c : Dev nD) : (fun j : Fin 32 => inBz (V3 m ρ) c (ix2 0 j)) = fun j => (A12 m c) (ix1 j) := by
  funext j
  have e : inBz (V3 m ρ) c = shapeCast S1x32 (A12 m c) shapeCasts_S32_S1x32 :=
    (V3_v16 m ρ c).trans (by rw [V2_arg m ρ c main_arg12 (by decide) (by decide)])
  rw [e]; exact Cert.Bridge.row32_apply _ j
theorem br_found (c : Dev nD) : (fun j : Fin 32 => inBr (V3 m ρ) c (ix2 0 j)) = fun j => (A14 m c) (ix1 j) := by
  funext j
  have e : inBr (V3 m ρ) c = shapeCast S1x32 (A14 m c) shapeCasts_S32_S1x32 :=
    (V3_v17 m ρ c).trans (by rw [V2_arg m ρ c main_arg14 (by decide) (by decide)])
  rw [e]; exact Cert.Bridge.row32_apply _ j
theorem bh_found (c : Dev nD) : (fun j : Fin 32 => inBh (V3 m ρ) c (ix2 0 j)) = fun j => (A16 m c) (ix1 j) := by
  funext j
  have e : inBh (V3 m ρ) c = shapeCast S1x32 (A16 m c) shapeCasts_S32_S1x32 :=
    (V3_v18 m ρ c).trans (by rw [V2_arg m ρ c main_arg16 (by decide) (by decide)])
  rw [e]; exact Cert.Bridge.row32_apply _ j
theorem blin_found (c : Dev nD) : (fun j : Fin 32 => inBlin (V3 m ρ) c (ix2 0 j)) = fun j => (A18 m c) (ix1 j) := by
  funext j
  have e : inBlin (V3 m ρ) c = shapeCast S1x32 (A18 m c) shapeCasts_S32_S1x32 :=
    (V3_v19 m ρ c).trans (by rw [V2_arg m ρ c main_arg18 (by decide) (by decide)])
  rw [e]; exact Cert.Bridge.row32_apply _ j

/-! ## The results -/

theorem kernel_h (c : Dev nD) : (dat1 (V3 m ρ) c).arrAt 12 cfg1.N = hRes m c := by
  rw [final1_12 (V3 m ρ) c]
  funext i
  obtain ⟨p, q, rfl⟩ : ∃ (p : Fin 100000) (q : Fin 32), i = ix2 p q := ⟨i 0, i 1, eq_ix2 i⟩
  show Cert.Spec.hnew (fun k j => inWz (V3 m ρ) c (ix2 k j)) (fun j => inBz (V3 m ρ) c (ix2 0 j)) (fun k j => inWr (V3 m ρ) c (ix2 k j)) (fun j => inBr (V3 m ρ) c (ix2 0 j))
      (fun k j => inWh (V3 m ρ) c (ix2 k j)) (fun j => inBh (V3 m ρ) c (ix2 0 j))
      (czRow (V3 m ρ) c p) (crRow (V3 m ρ) c p) (chRow (V3 m ρ) c p) (hidRow (V3 m ρ) c p) q
    = Cert.Spec.hnew (fun k j => (A11 m c) (ix2 k j)) (fun j => (A12 m c) (ix1 j)) (fun k j => (A13 m c) (ix2 k j)) (fun j => (A14 m c) (ix1 j))
      (fun k j => (A15 m c) (ix2 k j)) (fun j => (A16 m c) (ix1 j))
      (czM m c p) (crM m c p) (chM m c p) (hidM m c p) q
  rw [czRow_eq m ρ c p, crRow_eq m ρ c p, chRow_eq m ρ c p, hidRow_eq m ρ c p, wz_found m ρ c, wr_found m ρ c, wh_found m ρ c,
    bz_found m ρ c, br_found m ρ c, bh_found m ρ c]

theorem kernel_y (c : Dev nD) : (dat1 (V3 m ρ) c).arrAt 11 cfg1.N = yRes m c := by
  rw [final1_11 (V3 m ρ) c]
  funext i
  obtain ⟨p, q, rfl⟩ : ∃ (p : Fin 100000) (q : Fin 32), i = ix2 p q := ⟨i 0, i 1, eq_ix2 i⟩
  show Cert.Spec.yout (fun k j => inWz (V3 m ρ) c (ix2 k j)) (fun j => inBz (V3 m ρ) c (ix2 0 j)) (fun k j => inWr (V3 m ρ) c (ix2 k j)) (fun j => inBr (V3 m ρ) c (ix2 0 j))
      (fun k j => inWh (V3 m ρ) c (ix2 k j)) (fun j => inBh (V3 m ρ) c (ix2 0 j))
      (fun k j => inWlin (V3 m ρ) c (ix2 k j)) (fun j => inBlin (V3 m ρ) c (ix2 0 j))
      (czRow (V3 m ρ) c p) (crRow (V3 m ρ) c p) (chRow (V3 m ρ) c p) (hidRow (V3 m ρ) c p) q
    = Cert.Spec.yout (fun k j => (A11 m c) (ix2 k j)) (fun j => (A12 m c) (ix1 j)) (fun k j => (A13 m c) (ix2 k j)) (fun j => (A14 m c) (ix1 j))
      (fun k j => (A15 m c) (ix2 k j)) (fun j => (A16 m c) (ix1 j))
      (fun k j => (A17 m c) (ix2 k j)) (fun j => (A18 m c) (ix1 j))
      (czM m c p) (crM m c p) (chM m c p) (hidM m c p) q
  rw [czRow_eq m ρ c p, crRow_eq m ρ c p, chRow_eq m ρ c p, hidRow_eq m ρ c p, wz_found m ρ c, wr_found m ρ c, wh_found m ρ c,
    wlin_found m ρ c, bz_found m ρ c, br_found m ρ c, bh_found m ρ c, blin_found m ρ c]

end Cert.KernelIdeal.Hand

end
-- ==== Proof.RefValue.lean ====
/-
  The reference program is the specification.

  The reference computes three graph convolutions (rows of x · W gathered at the source indices, scaled by the edge
  weights and summed into the destination rows, plus a bias) and then a gated recurrent cell, one node (one row) at a
  time.  This module reads the reference's two results at a row i and a column j, one operation after the other, and
  finds exactly the rows of Cert.Spec: the update gate z and the reset gate r are the logistic of an affine map of the
  row [c | hid] of 64 entries, the candidate is the hyperbolic tangent of an affine map of [ch | hid * r], the new
  hidden row is z * hid + (1 - z) * candidate and the output row is an affine map of max(h', 0).

  Three facts do the work.  A bias of 32 entries broadcast along the rows reads its entry j in every row.  Two arrays
  of 32 columns joined along the columns read the first array at a column below 32 and the second, 32 columns to the
  left, from column 32 on: this is Cert.Spec.cat of the two rows.  A contraction of a row with a matrix is the sum
  over the contracted index of the products.  The logistic is spelt 1 / (1 + exp (-x)) with the word of the float 1.0,
  which denotes the extended real 1.  The three aggregates themselves (the scatter-adds) are never opened: they enter
  only through their value at (i, k), and are stated as terms at the end for whoever compares them with another
  program's aggregates.
-/
import proofs.«152456_j55130200211791_1_alg».proof.Proof.Gen.ReferenceIdeal.Read
import proofs.«152456_j55130200211791_1_alg».proof.Proof.Spec

noncomputable section

open scoped BigOperators

namespace Cert.ReferenceIdeal.RefValue

open Cert.ReferenceIdeal Cert.ReferenceIdeal.Gen Idealize.ShloMosaic Idealize.ShloMosaic.TcCoe Idealize.SL.Sem Idealize.ShloMosaic.StableHlo
open Idealize.ShloMosaic.ValueIdx

variable (x0 : (⟨S100000x32, .f32⟩ : BufTy).Contents (Elt Ideal)) (x1 : (⟨S1600000, .f32⟩ : BufTy).Contents (Elt Ideal)) (x2 : (⟨S100000x32, .f32⟩ : BufTy).Contents (Elt Ideal)) (x3 x4 : (⟨S1600000, .i32⟩ : BufTy).Contents (Elt Ideal))
  (x5 : (⟨S32x32, .f32⟩ : BufTy).Contents (Elt Ideal)) (x6 : (⟨S32, .f32⟩ : BufTy).Contents (Elt Ideal)) (x7 : (⟨S32x32, .f32⟩ : BufTy).Contents (Elt Ideal)) (x8 : (⟨S32, .f32⟩ : BufTy).Contents (Elt Ideal)) (x9 : (⟨S32x32, .f32⟩ : BufTy).Contents (Elt Ideal)) (x10 : (⟨S32, .f32⟩ : BufTy).Contents (Elt Ideal))
  (x11 : (⟨S64x32, .f32⟩ : BufTy).Contents (Elt Ideal)) (x12 : (⟨S32, .f32⟩ : BufTy).Contents (Elt Ideal)) (x13 : (⟨S64x32, .f32⟩ : BufTy).Contents (Elt Ideal)) (x14 : (⟨S32, .f32⟩ : BufTy).Contents (Elt Ideal)) (x15 : (⟨S64x32, .f32⟩ : BufTy).Contents (Elt Ideal)) (x16 : (⟨S32, .f32⟩ : BufTy).Contents (Elt Ideal))
  (x17 : (⟨S32x32, .f32⟩ : BufTy).Contents (Elt Ideal)) (x18 : (⟨S32, .f32⟩ : BufTy).Contents (Elt Ideal))

/-! ## The words of 1.0 and 0.0, and the splat constants -/

/-- The word of the float 1.0 denotes the extended real 1. -/
theorem ofBits_one : Ideal.ofBits .f32 0x3F800000#32 = 1 := by
  simp [Ideal.ofBits, Ideal.ieee, -EReal.coe_mul]; norm_num

/-- The 1 under the update gate's exponential, everywhere the word of 1.0. -/
theorem v24_at (j : S100000x32.Idx) : Read.val_main_v24 (F := Ideal) j = Ideal.ofBits .f32 0x3F800000#32 :=
  (Read.val_main_v24_apply (F := Ideal) j).trans (Read.val_main_cst_1_apply (F := Ideal) _)

/-- The update gate's numerator, everywhere the word of 1.0. -/
theorem v26_at (j : S100000x32.Idx) : Read.val_main_v26 (F := Ideal) j = Ideal.ofBits .f32 0x3F800000#32 :=
  (Read.val_main_v26_apply (F := Ideal) j).trans (Read.val_main_cst_2_apply (F := Ideal) _)

/-- The 1 under the reset gate's exponential, everywhere the word of 1.0. -/
theorem v52_at (j : S100000x32.Idx) : Read.val_main_v52 (F := Ideal) j = Ideal.ofBits .f32 0x3F800000#32 :=
  (Read.val_main_v52_apply (F := Ideal) j).trans (Read.val_main_cst_6_apply (F := Ideal) _)

/-- The reset gate's numerator, everywhere the word of 1.0. -/
theorem v54_at (j : S100000x32.Idx) : Read.val_main_v54 (F := Ideal) j = Ideal.ofBits .f32 0x3F800000#32 :=
  (Read.val_main_v54_apply (F := Ideal) j).trans (Read.val_main_cst_7_apply (F := Ideal) _)

/-- The 1 of `1 - z`, everywhere the word of 1.0. -/
theorem v81_at (j : S100000x32.Idx) : Read.val_main_v81 (F := Ideal) j = Ideal.ofBits .f32 0x3F800000#32 :=
  (Read.val_main_v81_apply (F := Ideal) j).trans (Read.val_main_cst_11_apply (F := Ideal) _)

/-- The 0 of max(h', 0), everywhere the word of 0.0. -/
theorem relu0_at (j : S100000x32.Idx) : Read.val_main_call0_v0 (F := Ideal) j = Ideal.ofBits .f32 0x00000000#32 :=
  (Read.val_main_call0_v0_apply (F := Ideal) j).trans (Read.val_main_call0_cst_apply (F := Ideal) _)

/-! ## A bias broadcast along the rows reads its entry j in every row -/

theorem v15_at (p : Fin 100000) (q : Fin 32) : Read.val_main_v15 (F := Ideal) x6 (ix2 p q) = x6 (ix1 q) :=
  (Read.val_main_v15_apply (F := Ideal) x6 _).trans ((Read.val_main_v14_apply (F := Ideal) x6 _).trans
    (congrArg x6 (funext fun a => match a with | ⟨0, _⟩ => rfl)))

theorem v20_at (p : Fin 100000) (q : Fin 32) : Read.val_main_v20 (F := Ideal) x12 (ix2 p q) = x12 (ix1 q) :=
  (Read.val_main_v20_apply (F := Ideal) x12 _).trans ((Read.val_main_v19_apply (F := Ideal) x12 _).trans
    (congrArg x12 (funext fun a => match a with | ⟨0, _⟩ => rfl)))

theorem v43_at (p : Fin 100000) (q : Fin 32) : Read.val_main_v43 (F := Ideal) x8 (ix2 p q) = x8 (ix1 q) :=
  (Read.val_main_v43_apply (F := Ideal) x8 _).trans ((Read.val_main_v42_apply (F := Ideal) x8 _).trans
    (congrArg x8 (funext fun a => match a with | ⟨0, _⟩ => rfl)))

theorem v48_at (p : Fin 100000) (q : Fin 32) : Read.val_main_v48 (F := Ideal) x14 (ix2 p q) = x14 (ix1 q) :=
  (Read.val_main_v48_apply (F := Ideal) x14 _).trans ((Read.val_main_v47_apply (F := Ideal) x14 _).trans
    (congrArg x14 (funext fun a => match a with | ⟨0, _⟩ => rfl)))

theorem v71_at (p : Fin 100000) (q : Fin 32) : Read.val_main_v71 (F := Ideal) x10 (ix2 p q) = x10 (ix1 q) :=
  (Read.val_main_v71_apply (F := Ideal) x10 _).trans ((Read.val_main_v70_apply (F := Ideal) x10 _).trans
    (congrArg x10 (funext fun a => match a with | ⟨0, _⟩ => rfl)))

theorem v77_at (p : Fin 100000) (q : Fin 32) : Read.val_main_v77 (F := Ideal) x16 (ix2 p q) = x16 (ix1 q) :=
  (Read.val_main_v77_apply (F := Ideal) x16 _).trans ((Read.val_main_v76_apply (F := Ideal) x16 _).trans
    (congrArg x16 (funext fun a => match a with | ⟨0, _⟩ => rfl)))

theorem v88_at (p : Fin 100000) (q : Fin 32) : Read.val_main_v88 (F := Ideal) x18 (ix2 p q) = x18 (ix1 q) :=
  (Read.val_main_v88_apply (F := Ideal) x18 _).trans ((Read.val_main_v87_apply (F := Ideal) x18 _).trans
    (congrArg x18 (funext fun a => match a with | ⟨0, _⟩ => rfl)))

/-! ## Two arrays joined along the columns, read at a row -/

/-- Row p of [a | b] is Cert.Spec.cat of row p of a and row p of b: column k is a's below 32 and b's, 32 columns to
    the left, from 32 on. -/
theorem cat_at (a b : (⟨S100000x32, .f32⟩ : BufTy).Contents (Elt Ideal)) (p : Fin 100000) (k : Fin 64) :
    concatenate S100000x64 1 [⟨S100000x32, a⟩, ⟨S100000x32, b⟩] concatenates_S100000x32_S100000x32_S100000x64_d1 (ix2 p k)
      = Cert.Spec.cat (fun k' => a (ix2 p k')) (fun k' => b (ix2 p k')) k := by
  unfold Cert.Spec.cat
  by_cases h : k.val < 32
  · rw [dif_pos h]
    exact concatenate_pair_apply_left 1 a b concatenates_S100000x32_S100000x32_S100000x64_d1 (ix2 p k) rfl (ix2 p ⟨k.val, h⟩)
      (fun c => match c with | ⟨0, _⟩ => rfl | ⟨1, _⟩ => rfl)
  · rw [dif_neg h]
    exact concatenate_pair_apply_right 1 a b concatenates_S100000x32_S100000x32_S100000x64_d1 (ix2 p k) rfl rfl
      (ix2 p ⟨k.val - 32, by omega⟩)
      (fun c hc => match c, hc with | ⟨0, _⟩, _ => rfl | ⟨1, _⟩, hc => (hc rfl).elim)
      (by show k.val - 32 + 32 = k.val; omega)

/-! ## The update gate -/

/-- The first convolution with its bias, at (p, k): the aggregate plus the bias. -/
theorem v16_at (p : Fin 100000) (k : Fin 32) :
    Read.val_main_v16 (F := Ideal) x0 x1 x3 x4 x5 x6 (ix2 p k) = Read.val_main_v13 (F := Ideal) x0 x1 x3 x4 x5 (ix2 p k) + x6 (ix1 k) := by
  rw [Read.val_main_v16_apply, v15_at]
  rfl

/-- The update gate's input row [cz | hid]. -/
theorem v17_at (p : Fin 100000) (k : Fin 64) :
    Read.val_main_v17 (F := Ideal) x0 x1 x2 x3 x4 x5 x6 (ix2 p k)
      = Cert.Spec.cat (fun k => Read.val_main_v13 (F := Ideal) x0 x1 x3 x4 x5 (ix2 p k) + x6 (ix1 k)) (fun k => x2 (ix2 p k)) k := by
  refine (cat_at (Read.val_main_v16 (F := Ideal) x0 x1 x3 x4 x5 x6) (x2) p k).trans ?_
  simp only [v16_at]

/-- The update gate's contraction: the row [cz | hid] against the columns of Wz. -/
theorem v18_at (p : Fin 100000) (q : Fin 32) :
    Read.val_main_v18 (F := Ideal) x0 x1 x2 x3 x4 x5 x6 x11 (ix2 p q)
      = ∑ k : Fin 64, Cert.Spec.cat (fun k => Read.val_main_v13 (F := Ideal) x0 x1 x3 x4 x5 (ix2 p k) + x6 (ix1 k)) (fun k => x2 (ix2 p k)) k * x11 (ix2 k q) := by
  refine (Read.val_main_v18_apply x0 x1 x2 x3 x4 x5 x6 x11 (ix2 p q)).trans (Finset.sum_congr rfl fun k _ => ?_)
  have e1 : Read.lidx_main_v18 (ix2 p q) k = ix2 p k := funext fun a => match a with | ⟨0, _⟩ => rfl | ⟨1, _⟩ => rfl
  have e2 : Read.ridx_main_v18 (ix2 p q) k = ix2 k q := funext fun a => match a with | ⟨0, _⟩ => rfl | ⟨1, _⟩ => rfl
  rw [e1, e2, v17_at]

/-- THE UPDATE GATE: z = logistic ([cz | hid] · Wz + bz). -/
theorem z_at (p : Fin 100000) (q : Fin 32) :
    Read.val_main_v27 (F := Ideal) x0 x1 x2 x3 x4 x5 x6 x11 x12 (ix2 p q)
      = Cert.Spec.gate (fun k j => x11 (ix2 k j)) (fun j => x12 (ix1 j)) (fun k => Read.val_main_v13 (F := Ideal) x0 x1 x3 x4 x5 (ix2 p k) + x6 (ix1 k)) (fun k => x2 (ix2 p k)) q := by
  rw [Read.val_main_v27_apply, Read.val_main_v25_apply, Read.val_main_v23_apply, Read.val_main_v22_apply,
    Read.val_main_v21_apply, v26_at, v24_at, v20_at, v18_at, ofBits_one]
  unfold Cert.Spec.gate Cert.Spec.affine Ideal.logistic
  simp only [Ideal.hostDivf_def, Ideal.addf_def, Ideal.hostUnary_exp_def, Ideal.hostNegf_def, Ideal.negf_def]

/-! ## The reset gate -/

/-- The second convolution with its bias, at (p, k). -/
theorem v44_at (p : Fin 100000) (k : Fin 32) :
    Read.val_main_v44 (F := Ideal) x0 x1 x3 x4 x7 x8 (ix2 p k) = Read.val_main_v41 (F := Ideal) x0 x1 x3 x4 x7 (ix2 p k) + x8 (ix1 k) := by
  rw [Read.val_main_v44_apply, v43_at]
  rfl

/-- The reset gate's input row [cr | hid]. -/
theorem v45_at (p : Fin 100000) (k : Fin 64) :
    Read.val_main_v45 (F := Ideal) x0 x1 x2 x3 x4 x7 x8 (ix2 p k)
      = Cert.Spec.cat (fun k => Read.val_main_v41 (F := Ideal) x0 x1 x3 x4 x7 (ix2 p k) + x8 (ix1 k)) (fun k => x2 (ix2 p k)) k := by
  refine (cat_at (Read.val_main_v44 (F := Ideal) x0 x1 x3 x4 x7 x8) (x2) p k).trans ?_
  simp only [v44_at]

/-- The reset gate's contraction: the row [cr | hid] against the columns of Wr. -/
theorem v46_at (p : Fin 100000) (q : Fin 32) :
    Read.val_main_v46 (F := Ideal) x0 x1 x2 x3 x4 x7 x8 x13 (ix2 p q)
      = ∑ k : Fin 64, Cert.Spec.cat (fun k => Read.val_main_v41 (F := Ideal) x0 x1 x3 x4 x7 (ix2 p k) + x8 (ix1 k)) (fun k => x2 (ix2 p k)) k * x13 (ix2 k q) := by
  refine (Read.val_main_v46_apply x0 x1 x2 x3 x4 x7 x8 x13 (ix2 p q)).trans (Finset.sum_congr rfl fun k _ => ?_)
  have e1 : Read.lidx_main_v46 (ix2 p q) k = ix2 p k := funext fun a => match a with | ⟨0, _⟩ => rfl | ⟨1, _⟩ => rfl
  have e2 : Read.ridx_main_v46 (ix2 p q) k = ix2 k q := funext fun a => match a with | ⟨0, _⟩ => rfl | ⟨1, _⟩ => rfl
  rw [e1, e2, v45_at]

/-- THE RESET GATE: r = logistic ([cr | hid] · Wr + br). -/
theorem r_at (p : Fin 100000) (q : Fin 32) :
    Read.val_main_v55 (F := Ideal) x0 x1 x2 x3 x4 x7 x8 x13 x14 (ix2 p q)
      = Cert.Spec.gate (fun k j => x13 (ix2 k j)) (fun j => x14 (ix1 j)) (fun k => Read.val_main_v41 (F := Ideal) x0 x1 x3 x4 x7 (ix2 p k) + x8 (ix1 k)) (fun k => x2 (ix2 p k)) q := by
  rw [Read.val_main_v55_apply, Read.val_main_v53_apply, Read.val_main_v51_apply, Read.val_main_v50_apply,
    Read.val_main_v49_apply, v54_at, v52_at, v48_at, v46_at, ofBits_one]
  unfold Cert.Spec.gate Cert.Spec.affine Ideal.logistic
  simp only [Ideal.hostDivf_def, Ideal.addf_def, Ideal.hostUnary_exp_def, Ideal.hostNegf_def, Ideal.negf_def]

/-! ## The candidate state -/

/-- The third convolution with its bias, at (p, k). -/
theorem v72_at (p : Fin 100000) (k : Fin 32) :
    Read.val_main_v72 (F := Ideal) x0 x1 x3 x4 x9 x10 (ix2 p k) = Read.val_main_v69 (F := Ideal) x0 x1 x3 x4 x9 (ix2 p k) + x10 (ix1 k) := by
  rw [Read.val_main_v72_apply, v71_at]
  rfl

/-- The hidden row gated by the reset gate, at (p, k): hid * r. -/
theorem v73_at (p : Fin 100000) (k : Fin 32) :
    Read.val_main_v73 (F := Ideal) x0 x1 x2 x3 x4 x7 x8 x13 x14 (ix2 p k) = x2 (ix2 p k) * Cert.Spec.gate (fun k j => x13 (ix2 k j)) (fun j => x14 (ix1 j)) (fun k => Read.val_main_v41 (F := Ideal) x0 x1 x3 x4 x7 (ix2 p k) + x8 (ix1 k)) (fun k => x2 (ix2 p k)) k := by
  rw [Read.val_main_v73_apply, r_at]
  rfl

/-- The candidate's input row [ch | hid * r]. -/
theorem v74_at (p : Fin 100000) (k : Fin 64) :
    Read.val_main_v74 (F := Ideal) x0 x1 x2 x3 x4 x7 x8 x9 x10 x13 x14 (ix2 p k)
      = Cert.Spec.cat (fun k => Read.val_main_v69 (F := Ideal) x0 x1 x3 x4 x9 (ix2 p k) + x10 (ix1 k)) (fun k => x2 (ix2 p k) * Cert.Spec.gate (fun k j => x13 (ix2 k j)) (fun j => x14 (ix1 j)) (fun k => Read.val_main_v41 (F := Ideal) x0 x1 x3 x4 x7 (ix2 p k) + x8 (ix1 k)) (fun k => x2 (ix2 p k)) k) k := by
  refine (cat_at (Read.val_main_v72 (F := Ideal) x0 x1 x3 x4 x9 x10) (Read.val_main_v73 (F := Ideal) x0 x1 x2 x3 x4 x7 x8 x13 x14) p k).trans ?_
  simp only [v72_at, v73_at]

/-- The candidate's contraction: the row [ch | hid * r] against the columns of Wh. -/
theorem v75_at (p : Fin 100000) (q : Fin 32) :
    Read.val_main_v75 (F := Ideal) x0 x1 x2 x3 x4 x7 x8 x9 x10 x13 x14 x15 (ix2 p q)
      = ∑ k : Fin 64, Cert.Spec.cat (fun k => Read.val_main_v69 (F := Ideal) x0 x1 x3 x4 x9 (ix2 p k) + x10 (ix1 k)) (fun k => x2 (ix2 p k) * Cert.Spec.gate (fun k j => x13 (ix2 k j)) (fun j => x14 (ix1 j)) (fun k => Read.val_main_v41 (F := Ideal) x0 x1 x3 x4 x7 (ix2 p k) + x8 (ix1 k)) (fun k => x2 (ix2 p k)) k) k * x15 (ix2 k q) := by
  refine (Read.val_main_v75_apply x0 x1 x2 x3 x4 x7 x8 x9 x10 x13 x14 x15 (ix2 p q)).trans (Finset.sum_congr rfl fun k _ => ?_)
  have e1 : Read.lidx_main_v75 (ix2 p q) k = ix2 p k := funext fun a => match a with | ⟨0, _⟩ => rfl | ⟨1, _⟩ => rfl
  have e2 : Read.ridx_main_v75 (ix2 p q) k = ix2 k q := funext fun a => match a with | ⟨0, _⟩ => rfl | ⟨1, _⟩ => rfl
  rw [e1, e2, v74_at]

/-- THE CANDIDATE: tanh ([ch | hid * r] · Wh + bh). -/
theorem c_at (p : Fin 100000) (q : Fin 32) :
    Read.val_main_v79 (F := Ideal) x0 x1 x2 x3 x4 x7 x8 x9 x10 x13 x14 x15 x16 (ix2 p q)
      = Cert.Spec.cand (fun k j => x15 (ix2 k j)) (fun j => x16 (ix1 j)) (fun k => Read.val_main_v69 (F := Ideal) x0 x1 x3 x4 x9 (ix2 p k) + x10 (ix1 k)) (fun k => x2 (ix2 p k)) (Cert.Spec.gate (fun k j => x13 (ix2 k j)) (fun j => x14 (ix1 j)) (fun k => Read.val_main_v41 (F := Ideal) x0 x1 x3 x4 x7 (ix2 p k) + x8 (ix1 k)) (fun k => x2 (ix2 p k))) q := by
  rw [Read.val_main_v79_apply, Read.val_main_v78_apply, v77_at, v75_at]
  unfold Cert.Spec.cand Cert.Spec.affine
  simp only [Ideal.hostUnary_tanh_def, Ideal.addf_def]

/-! ## The two results -/

/-- THE NEW HIDDEN STATE: h' = z * hid + (1 - z) * candidate, the 1 the word of 1.0. -/
theorem h_eq (i : Fin 100000) (j : Fin 32) :
    Read.val_main_v84 (F := Ideal) x0 x1 x2 x3 x4 x5 x6 x7 x8 x9 x10 x11 x12 x13 x14 x15 x16 (ix2 i j)
      = Cert.Spec.hnew (fun k j => x11 (ix2 k j)) (fun j => x12 (ix1 j)) (fun k j => x13 (ix2 k j)) (fun j => x14 (ix1 j))
          (fun k j => x15 (ix2 k j)) (fun j => x16 (ix1 j))
          (fun k => Read.val_main_v13 (F := Ideal) x0 x1 x3 x4 x5 (ix2 i k) + x6 (ix1 k))
          (fun k => Read.val_main_v41 (F := Ideal) x0 x1 x3 x4 x7 (ix2 i k) + x8 (ix1 k))
          (fun k => Read.val_main_v69 (F := Ideal) x0 x1 x3 x4 x9 (ix2 i k) + x10 (ix1 k))
          (fun k => x2 (ix2 i k)) j := by
  rw [Read.val_main_v84_apply, Read.val_main_v80_apply, Read.val_main_v83_apply, Read.val_main_v82_apply, v81_at, z_at, c_at]
  rfl

/-- The output's contraction: the row max(h', 0) against the columns of Wlin, the 0 the word of 0.0. -/
theorem v86_at (p : Fin 100000) (q : Fin 32) :
    Read.val_main_v86 (F := Ideal) x0 x1 x2 x3 x4 x5 x6 x7 x8 x9 x10 x11 x12 x13 x14 x15 x16 x17 (ix2 p q)
      = ∑ k : Fin 32, max (Cert.Spec.hnew (fun k j => x11 (ix2 k j)) (fun j => x12 (ix1 j)) (fun k j => x13 (ix2 k j)) (fun j => x14 (ix1 j))
          (fun k j => x15 (ix2 k j)) (fun j => x16 (ix1 j))
          (fun k => Read.val_main_v13 (F := Ideal) x0 x1 x3 x4 x5 (ix2 p k) + x6 (ix1 k))
          (fun k => Read.val_main_v41 (F := Ideal) x0 x1 x3 x4 x7 (ix2 p k) + x8 (ix1 k))
          (fun k => Read.val_main_v69 (F := Ideal) x0 x1 x3 x4 x9 (ix2 p k) + x10 (ix1 k))
          (fun k => x2 (ix2 p k)) k) Cert.Spec.zero * x17 (ix2 k q) := by
  refine (Read.val_main_v86_apply x0 x1 x2 x3 x4 x5 x6 x7 x8 x9 x10 x11 x12 x13 x14 x15 x16 x17 (ix2 p q)).trans (Finset.sum_congr rfl fun k _ => ?_)
  have e1 : Read.lidx_main_v86 (ix2 p q) k = ix2 p k := funext fun a => match a with | ⟨0, _⟩ => rfl | ⟨1, _⟩ => rfl
  have e2 : Read.ridx_main_v86 (ix2 p q) k = ix2 k q := funext fun a => match a with | ⟨0, _⟩ => rfl | ⟨1, _⟩ => rfl
  rw [e1, e2, Read.val_main_v85_apply, h_eq, relu0_at]
  rfl

/-- THE OUTPUT: y = max(h', 0) · Wlin + blin. -/
theorem y_eq (i : Fin 100000) (j : Fin 32) :
    Read.val_main_v89 (F := Ideal) x0 x1 x2 x3 x4 x5 x6 x7 x8 x9 x10 x11 x12 x13 x14 x15 x16 x17 x18 (ix2 i j)
      = Cert.Spec.yout (fun k j => x11 (ix2 k j)) (fun j => x12 (ix1 j)) (fun k j => x13 (ix2 k j)) (fun j => x14 (ix1 j))
          (fun k j => x15 (ix2 k j)) (fun j => x16 (ix1 j))
          (fun k j => x17 (ix2 k j)) (fun j => x18 (ix1 j))
          (fun k => Read.val_main_v13 (F := Ideal) x0 x1 x3 x4 x5 (ix2 i k) + x6 (ix1 k))
          (fun k => Read.val_main_v41 (F := Ideal) x0 x1 x3 x4 x7 (ix2 i k) + x8 (ix1 k))
          (fun k => Read.val_main_v69 (F := Ideal) x0 x1 x3 x4 x9 (ix2 i k) + x10 (ix1 k))
          (fun k => x2 (ix2 i k)) j := by
  rw [Read.val_main_v89_apply, v88_at, v86_at]
  rfl

/-! ## The three aggregates as terms -/

/-- The 13 aggregate as a term: the scatter-add, into the zero array at the rows the destination indices name,
    of the gathered rows of `x · W` (at the source indices, a negative one wrapped by the row count) each scaled by its
    edge weight. -/
theorem agg13_term (x0 : (⟨S100000x32, .f32⟩ : BufTy).Contents (Elt Ideal)) (x1 : (⟨S1600000, .f32⟩ : BufTy).Contents (Elt Ideal)) (x3 x4 : (⟨S1600000, .i32⟩ : BufTy).Contents (Elt Ideal)) (x5 : (⟨S32x32, .f32⟩ : BufTy).Contents (Elt Ideal)) :
    Read.val_main_v13 (F := Ideal) x0 x1 x3 x4 x5
      = Host.scatterAdd scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 x4)
          (mulf
            (Host.gather gather_S100000x32_S1600000x1_S1600000x32_1_0_n_n_0_1_132 (Read.val_main_v0 (F := Ideal) x0 x5)
              (broadcastInDim S1600000x1 ![0] bcast_S1600000_S1600000x1_0
                (select (cmpi .slt x3 (broadcastInDim S1600000 ![] bcast_S_S1600000 (constantI S_ 32 0#32)))
                  (addi x3 (broadcastInDim S1600000 ![] bcast_S_S1600000 (constantI S_ 32 100000#32))) x3)))
            (broadcastInDim S1600000x32 ![0, 1] bcast_S1600000x1_S1600000x32_0_1
              (broadcastInDim S1600000x1 ![0] bcast_S1600000_S1600000x1_0 x1))) := rfl

/-- The 41 aggregate as a term: the scatter-add, into the zero array at the rows the destination indices name,
    of the gathered rows of `x · W` (at the source indices, a negative one wrapped by the row count) each scaled by its
    edge weight. -/
theorem agg41_term (x0 : (⟨S100000x32, .f32⟩ : BufTy).Contents (Elt Ideal)) (x1 : (⟨S1600000, .f32⟩ : BufTy).Contents (Elt Ideal)) (x3 x4 : (⟨S1600000, .i32⟩ : BufTy).Contents (Elt Ideal)) (x7 : (⟨S32x32, .f32⟩ : BufTy).Contents (Elt Ideal)) :
    Read.val_main_v41 (F := Ideal) x0 x1 x3 x4 x7
      = Host.scatterAdd scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 x4)
          (mulf
            (Host.gather gather_S100000x32_S1600000x1_S1600000x32_1_0_n_n_0_1_132 (Read.val_main_v28 (F := Ideal) x0 x7)
              (broadcastInDim S1600000x1 ![0] bcast_S1600000_S1600000x1_0
                (select (cmpi .slt x3 (broadcastInDim S1600000 ![] bcast_S_S1600000 (constantI S_ 32 0#32)))
                  (addi x3 (broadcastInDim S1600000 ![] bcast_S_S1600000 (constantI S_ 32 100000#32))) x3)))
            (broadcastInDim S1600000x32 ![0, 1] bcast_S1600000x1_S1600000x32_0_1
              (broadcastInDim S1600000x1 ![0] bcast_S1600000_S1600000x1_0 x1))) := rfl

/-- The 69 aggregate as a term: the scatter-add, into the zero array at the rows the destination indices name,
    of the gathered rows of `x · W` (at the source indices, a negative one wrapped by the row count) each scaled by its
    edge weight. -/
theorem agg69_term (x0 : (⟨S100000x32, .f32⟩ : BufTy).Contents (Elt Ideal)) (x1 : (⟨S1600000, .f32⟩ : BufTy).Contents (Elt Ideal)) (x3 x4 : (⟨S1600000, .i32⟩ : BufTy).Contents (Elt Ideal)) (x9 : (⟨S32x32, .f32⟩ : BufTy).Contents (Elt Ideal)) :
    Read.val_main_v69 (F := Ideal) x0 x1 x3 x4 x9
      = Host.scatterAdd scatter_S100000x32_S1600000x1_S1600000x32_1_0_0_1
          (broadcastInDim S100000x32 ![] bcast_S_S100000x32 (constant (F := Ideal) S_ .f32 0x00000000#32))
          (broadcastInDim S1600000x1 ![0] bcast_S1600000_S1600000x1_0 x4)
          (mulf
            (Host.gather gather_S100000x32_S1600000x1_S1600000x32_1_0_n_n_0_1_132 (Read.val_main_v56 (F := Ideal) x0 x9)
              (broadcastInDim S1600000x1 ![0] bcast_S1600000_S1600000x1_0
                (select (cmpi .slt x3 (broadcastInDim S1600000 ![] bcast_S_S1600000 (constantI S_ 32 0#32)))
                  (addi x3 (broadcastInDim S1600000 ![] bcast_S_S1600000 (constantI S_ 32 100000#32))) x3)))
            (broadcastInDim S1600000x32 ![0, 1] bcast_S1600000x1_S1600000x32_0_1
              (broadcastInDim S1600000x1 ![0] bcast_S1600000_S1600000x1_0 x1))) := rfl

end Cert.ReferenceIdeal.RefValue

end
-- ==== Proof.lean ====
/-
  The certificate of the graph-convolution GRU cell: the Pallas kernel's program (a fused 32×96 projection of the node
  features in one region, the edge aggregation on the host, the GRU head in a second region) against the jnp reference
  (three 32-column projections and aggregations, then the same head on the host), equal at the extended reals.

  The three frames: each program terminates from any memory, faults nowhere, and leaves its argument arrays as
  launched — the kernel's programs by running @main segment by segment (two stretches of host operations, two
  regions), the reference by its generated run.  The idealization rewrote nothing, so it preserves the kernel
  trivially.  The value claim: both programs end with the output y and the new hidden state h' at ONE function of the
  argument arrays, the head of Spec.lean applied node by node to the three aggregates with their biases and the hidden
  row; the kernel computes the three aggregates as the three thirds of one 96-column aggregate, which is the same
  thing column by column (Bridge.lean).  Nothing here needs the inputs finite: the two sides are the same expression,
  term by term, on all extended reals.
-/
import proofs.«152456_j55130200211791_1_alg».proof.Defs
import proofs.«152456_j55130200211791_1_alg».proof.Proof.Gen.Kernel
import proofs.«152456_j55130200211791_1_alg».proof.Proof.Gen.Kernel.Skeleton
import proofs.«152456_j55130200211791_1_alg».proof.Proof.Gen.Kernel.Launch
import proofs.«152456_j55130200211791_1_alg».proof.Proof.Gen.Kernel.Regions
import proofs.«152456_j55130200211791_1_alg».proof.Proof.Gen.Kernel.Points
import proofs.«152456_j55130200211791_1_alg».proof.Proof.Gen.KernelIdeal
import proofs.«152456_j55130200211791_1_alg».proof.Proof.Gen.KernelIdeal.Skeleton
import proofs.«152456_j55130200211791_1_alg».proof.Proof.Gen.KernelIdeal.Launch
import proofs.«152456_j55130200211791_1_alg».proof.Proof.Gen.KernelIdeal.Regions
import proofs.«152456_j55130200211791_1_alg».proof.Proof.Gen.KernelIdeal.Points
import proofs.«152456_j55130200211791_1_alg».proof.Proof.Gen.ReferenceIdeal
import proofs.«152456_j55130200211791_1_alg».proof.Proof.Gen.Pre_finite_inputs
import proofs.«152456_j55130200211791_1_alg».proof.Proof.Gen.ReferenceIdeal.Run
import proofs.«152456_j55130200211791_1_alg».proof.Proof.Gen.ReferenceIdeal.Read
import proofs.«152456_j55130200211791_1_alg».proof.Proof.KRun
import proofs.«152456_j55130200211791_1_alg».proof.Proof.KIRun
import proofs.«152456_j55130200211791_1_alg».proof.Proof.KValue
import proofs.«152456_j55130200211791_1_alg».proof.Proof.RefValue
import Idealize.ShloMosaic.Adequacy
import Idealize.ShloMosaic.Init

set_option maxRecDepth 16384

noncomputable section

namespace Cert.Proof

open Idealize.ShloMosaic Idealize.ShloMosaic.ValueIdx Idealize.SL.Sem

/-- The word-level kernel's program runs and leaves its arguments as launched. -/
theorem frame_k : Cert.frame_Kernel := fun m ρ _ => Cert.Kernel.Hand.frame m ρ

/-- So does the idealized kernel's program. -/
theorem frame_ki : Cert.frame_KernelIdeal := fun m ρ _ => Cert.KernelIdeal.Hand.frame m ρ

/-- So does the reference: its run, the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

set_option maxHeartbeats 1000000 in
/-- Both programs end with y and h' at the same function of the argument arrays. -/
theorem algebraic : Cert.algebraic_KernelIdeal_ReferenceIdeal := by
  intro m ρ m' ρ' _ hagree
  refine ⟨fun c => Cert.KernelIdeal.Hand.yRes m c, fun c => Cert.KernelIdeal.Hand.hRes m c, ?_, ?_⟩
  · exact (θ_run Cert.KernelIdeal.defs _ _).mono
      (fun r h c => ⟨(h c).1.1.trans (Cert.KernelIdeal.Hand.kernel_y m ρ c),
        (h c).1.2.trans (Cert.KernelIdeal.Hand.kernel_h m ρ c), (h c).2⟩)
      (Cert.KernelIdeal.Hand.run_main m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11, h12, h13, h14, h15, h16, h17, h18⟩ := hagree c
      rw [Cert.ReferenceIdeal.Read.val_main_v89_eq m' c, h0, h1, h2, h3, h4, h5, h6, h7, h8, h9, h10, h11, h12, h13, h14, h15, h16, h17, h18]
      funext i
      obtain ⟨p, q, rfl⟩ : ∃ (p : Fin 100000) (q : Fin 32), i = ix2 p q := ⟨i 0, i 1, eq_ix2 i⟩
      exact Cert.ReferenceIdeal.RefValue.y_eq (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (Cert.KernelIdeal.Hand.A14 m c) (Cert.KernelIdeal.Hand.A15 m c) (Cert.KernelIdeal.Hand.A16 m c) (Cert.KernelIdeal.Hand.A17 m c) (Cert.KernelIdeal.Hand.A18 m c) p q
    · obtain ⟨h0, h1, h2, h3, h4, h5, h6, h7, h8, h9, h10, h11, h12, h13, h14, h15, h16, h17, h18⟩ := hagree c
      rw [Cert.ReferenceIdeal.Read.val_main_v84_eq m' c, h0, h1, h2, h3, h4, h5, h6, h7, h8, h9, h10, h11, h12, h13, h14, h15, h16]
      funext i
      obtain ⟨p, q, rfl⟩ : ∃ (p : Fin 100000) (q : Fin 32), i = ix2 p q := ⟨i 0, i 1, eq_ix2 i⟩
      exact Cert.ReferenceIdeal.RefValue.h_eq (Cert.KernelIdeal.Hand.A0 m c) (Cert.KernelIdeal.Hand.A1 m c) (Cert.KernelIdeal.Hand.A2 m c) (Cert.KernelIdeal.Hand.A3 m c) (Cert.KernelIdeal.Hand.A4 m c) (Cert.KernelIdeal.Hand.A5 m c) (Cert.KernelIdeal.Hand.A6 m c) (Cert.KernelIdeal.Hand.A7 m c) (Cert.KernelIdeal.Hand.A8 m c) (Cert.KernelIdeal.Hand.A9 m c) (Cert.KernelIdeal.Hand.A10 m c) (Cert.KernelIdeal.Hand.A11 m c) (Cert.KernelIdeal.Hand.A12 m c) (Cert.KernelIdeal.Hand.A13 m c) (Cert.KernelIdeal.Hand.A14 m c) (Cert.KernelIdeal.Hand.A15 m c) (Cert.KernelIdeal.Hand.A16 m c) p q

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
